-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩
abbrev S400x128 : Shape := ⟨2, ![400, 128]⟩
abbrev S64x10000 : Shape := ⟨2, ![64, 10000]⟩

abbrev nBuf : Space → Nat
  | .hbm => 10
  | .vmem => 15
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S1x64, .f32⟩
  | .hbm, ⟨8, _⟩ => ⟨S10000x64, .f32⟩
  | .hbm, ⟨9, _⟩ => ⟨S10000x10000, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x64, .f32⟩
  | .local _ .vmem, ⟨6, _⟩ => ⟨S1x64, .f32⟩
  | .local _ .vmem, ⟨7, _⟩ => ⟨S400x64, .f32⟩
  | .local _ .vmem, ⟨8, _⟩ => ⟨S400x64, .f32⟩
  | .local _ .vmem, ⟨9, _⟩ => ⟨S10000x64, .f32⟩
  | .local _ .vmem, ⟨10, _⟩ => ⟨S400x10000, .f32⟩
  | .local _ .vmem, ⟨11, _⟩ => ⟨S10000x64, .f32⟩
  | .local _ .vmem, ⟨12, _⟩ => ⟨S400x10000, .f32⟩
  | .local _ .vmem, ⟨13, _⟩ => ⟨S400x10000, .f32⟩
  | .local _ .vmem, ⟨14, _⟩ => ⟨S64x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg1_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem1_0 : DmaSem sig := 10
abbrev cc1_sem1_1 : DmaSem sig := 11

abbrev nD : Nat := 1
abbrev τ : Topo := Topo.v7x

variable {F : FTy → Type} [FloatOps F]

abbrev grid0 : Pipeline.Grid := ⟨2, ![2, 25], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c400_i32 : BitVec 32 := 400#32
  let v31 : BitVec 32 := Scalar.muli arg1 c400_i32
  let v32 : Index := Scalar.indexCast v31
  let c0_20 : Index := 0#32
  ![v32.toNat, 0]
def k0_cond3 (i : grid0.Coords) : BitVec 1 :=
  let arg0 : BitVec 32 := BitVec.ofNat 32 (i 0).val
  let c1_i32_3 : BitVec 32 := 1#32
  let v8 : BitVec 1 := Scalar.cmpi .eq arg0 c1_i32_3
  let arg1 : BitVec 32 := BitVec.ofNat 32 (i 1).val
  let c23_i32 : BitVec 32 := 23#32
  let v9 : BitVec 1 := Scalar.cmpi .ne arg1 c23_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg0 : BitVec 32 := BitVec.ofNat 32 (i 0).val
  let c1_i32_5 : BitVec 32 := 1#32
  let v13 : BitVec 1 := Scalar.cmpi .eq arg0 c1_i32_5
  let arg1 : BitVec 32 := BitVec.ofNat 32 (i 1).val
  let c23_i32_6 : BitVec 32 := 23#32
  let v14 : BitVec 1 := Scalar.cmpi .eq arg1 c23_i32_6
  let v15 : BitVec 1 := Scalar.andi v13 v14
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c23_i32 : BitVec 32 := 23#32
  let v1 : BitVec 1 := Scalar.cmpi .eq arg1 c23_i32
  let c24_i32 : BitVec 32 := 24#32
  let v2 : BitVec 32 := Scalar.subi c24_i32 arg1
  let c2_i32 : BitVec 32 := 2#32
  let v3 : BitVec 32 := Scalar.select v1 c2_i32 v2
  let v4 : BitVec 32 := Scalar.select v0 arg1 v3
  let c0_i32_0 : BitVec 32 := 0#32
  let c0_i32_1 : BitVec 32 := 0#32
  ![v4.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c24_i32 : BitVec 32 := 24#32
  let v1 : BitVec 32 := Scalar.subi c24_i32 arg1
  let c24_i32_0 : BitVec 32 := 24#32
  let v2 : BitVec 32 := Scalar.select v0 c24_i32_0 v1
  let c0_i32_1 : BitVec 32 := 0#32
  let c0_i32_2 : BitVec 32 := 0#32
  ![v2.toNat, c0_i32_1.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![25], ![false]⟩

def k1_off1 (i : grid1.Coords) : Fin 2 → Nat :=
  let arg0 : BitVec 32 := BitVec.ofNat 32 (i 0).val
  let c400_i32 : BitVec 32 := 400#32
  let v3 : BitVec 32 := Scalar.muli arg0 c400_i32
  let v4 : Index := Scalar.indexCast v3
  let c0 : Index := 0#32
  ![v4.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S400x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  shapeCasts_S128_S1x128 : S128.ShapeCasts S1x128
  shapeCasts_S64_S1x64 : S64.ShapeCasts S1x64
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x64_S128x64_0_0 : ∀ a, (![0, 0] : Fin 2 → Nat) a + S128x64.size a ≤ S128x64.size a
  h_S128x64 : 0 < S128x64.numel
  h_S400x64 : 0 < S400x64.numel
  shapeCasts_S400x64_S400x64 : S400x64.ShapeCasts S400x64
  shapeCasts_S400x10000_S400x10000 : S400x10000.ShapeCasts S400x10000
  inb_S10000x64_S10000x64_0_0 : ∀ a, (![0, 0] : Fin 2 → Nat) a + S10000x64.size a ≤ S10000x64.size a
  h_S10000x64 : 0 < S10000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  shapeCasts_S10000x64_S10000x64 : S10000x64.ShapeCasts S10000x64
  transposes_S10000x64_p1_0_S64x10000 : S10000x64.Transposes [1, 0] S64x10000
  inb_S64x10000_S64x10000_0_0 : ∀ a, (![0, 0] : Fin 2 → Nat) a + S64x10000.size a ≤ S64x10000.size a
  h_S64x10000 : 0 < S64x10000.numel
  shapeCasts_S64x10000_S64x10000 : S64x10000.ShapeCasts S64x10000
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  dot_S400x64_S64x10000_S400x10000_1_0_0_1_n_n_wf : DotDims.WF S400x64 S64x10000 S400x10000 [1] [0] [0] [1] [] []
  hrank0 : 0 < grid0.rank
  k0_off1_inb : ∀ i : grid0.Coords, ∀ (k0_h1 : k0_cond1 i = 1#1), ∀ a, (k0_off1 i) a + S400x64.size a ≤ S10000x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x64.size a ≤ S10000x64.size a
  hwx0_6 : ∀ i : grid0.Coords, EltTy.bits .f32 = 32 ∨ (Rect.block (s := S10000x64) S400x64.size (cc0_transform_6 i) (hinb0_6 i)).WholeWords (EltTy.packing .f32)
  hrank1 : 0 < grid1.rank
  k1_off1_inb : ∀ i : grid1.Coords, ∀ a, (k1_off1 i) a + S400x64.size a ≤ S10000x64.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S10000x64.size a
  hwx1_0 : ∀ i : grid1.Coords, EltTy.bits .f32 = 32 ∨ (Rect.block (s := S10000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x10000.size a ≤ S10000x10000.size a
  hwx1_1 : ∀ i : grid1.Coords, EltTy.bits .f32 = 32 ∨ (Rect.block (s := S10000x10000) S400x10000.size (cc1_transform_1 i) (hinb1_1 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x10000_S400x10000_1_0_0_1_n_n : DotDims S400x64 S64x10000 S400x10000 where
  lhsContracting := [1]
  rhsContracting := [0]
  lhsNonContracting := [0]
  rhsNonContracting := [1]
  lhsBatch := []
  rhsBatch := []
  wf := dot_S400x64_S64x10000_S400x10000_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) && !(k0_cond4 i == 1#1) | ⟨_ + 7, h⟩ => absurd h (Nat.not_lt.2 (Nat.le_add_left _ _))

abbrev win1_0 : Pipeline.Window sig grid1 :=
  Pipeline.Window.ofSpec (Memref.whole main_v2) S10000x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S400x10000.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S64x10000 : Shape := ⟨2, ![64, 10000]⟩

abbrev nBuf : Space → Nat
  | .hbm => 29
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | .hbm, ⟨19, _⟩ => ⟨S64x10000, .f32⟩
  | .hbm, ⟨20, _⟩ => ⟨S10000x10000, .f32⟩
  | .hbm, ⟨21, _⟩ => ⟨S10000x10000, .f32⟩
  | .hbm, ⟨22, _⟩ => ⟨S10000x10000, .f32⟩
  | .hbm, ⟨23, _⟩ => ⟨S_, .f32⟩
  | .hbm, ⟨24, _⟩ => ⟨S10000x10000, .f32⟩
  | .hbm, ⟨25, _⟩ => ⟨S10000x10000, .f32⟩
  | .hbm, ⟨26, _⟩ => ⟨S_, .f32⟩
  | .hbm, ⟨27, _⟩ => ⟨S10000x10000, .f32⟩
  | .hbm, ⟨28, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  transposes_S10000x64_S64x10000_1_0 : S10000x64.Transposes [1, 0] S64x10000
  bcast_S_S10000x10000 : S_.BroadcastsInDim S10000x10000 (![] : Fin 0 → Fin S10000x10000.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x10000_S10000x10000_1_0_0_1_n_n_wf : DotDims.WF S10000x64 S64x10000 S10000x10000 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x10000_S10000x10000_1_0_0_1_n_n : DotDims S10000x64 S64x10000 S10000x10000 where
  lhsContracting := [1]
  rhsContracting := [0]
  lhsNonContracting := [0]
  rhsNonContracting := [1]
  lhsBatch := []
  rhsBatch := []
  wf := dot_S10000x64_S64x10000_S10000x10000_1_0_0_1_n_n_wf

class Facts : Prop extends Facts₀ where

variable [Facts]
-- ==== Proof.KB.R0Body.lean ====
/-
  Pipeline 0's body, case by case. The body is four guarded blocks over the grid point (p, i):
  p = 0 stores rows 400·i … 400·i+399 of the hidden-layer product into the first scratch; (p, i) = (0, 1) also
  copies the adjacency stripe it holds into the second scratch; p = 1, i ≠ 23 stores the output block from the
  staged stripe; (p, i) = (1, 23) stores it from the copied stripe. Each case is run once on arbitrary whole
  memrefs, the contents it reads as variables, and states what every buffer it touches holds afterwards.
-/
import proofs.«108190_g79602923864535_cont_9to1_m_41_30_alg».proof.Proof.Gen.Kernel.Launch
import proofs.«108190_g79602923864535_cont_9to1_m_41_30_alg».proof.Proof.Gen.Kernel.Skeleton
import proofs.«108190_g79602923864535_cont_9to1_m_41_30_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The second conditional's test, as the body computes it from the grid coordinates: p = 0 and i = 1. -/
abbrev cond2 (i : grid0.Coords) : BitVec 1 :=
  Scalar.cmpi .ne (Scalar.extui (Scalar.andi (Scalar.cmpi .eq (BitVec.ofNat 32 (i 0).val) 0#32) (Scalar.cmpi .eq (BitVec.ofNat 32 (i 1).val) 1#32))) 0#32

/-- The 400 rows of the first scratch that the point stores into. -/
abbrev sliceR (i : grid0.Coords) (h1 : k0_cond1 i = 1#1) : Rect S10000x64 :=
  Rect.unit (s := S10000x64) (k0_off1 i) S400x64.size (k0_off1_inb i h1)

/-- One store through a rectangle reads back as the old contents with the rectangle's part replaced. -/
theorem read_store_overlay {sp : Space} {s : Shape} {e : EltTy} (v : View sig .tc sp s e) (f : v.ty.Contents (Elt F)) (r : Rect s)
    (w : r.shape.Idx → Elt F e) :
    v.read (Elt F) (v.writes (Elt F) f [⟨r, w⟩]) = r.overlay (v.read (Elt F) f) w := by
  funext y
  by_cases hy : y ∈ r.set
  · obtain ⟨x, rfl⟩ := r.exists_idx_of_mem hy
    rw [show r.idx x = r.emb x from rfl, View.read_writes_cons_emb, Rect.overlay_emb]
  · rw [View.read_writes_apply_of_forall_not_mem v f y _ (fun p hp => by
      rw [List.mem_singleton] at hp; subst hp; exact hy), Rect.overlay_of_not_mem _ _ _ hy]

theorem hz2 : (![0, 0] : Fin 2 → Nat) = fun _ => 0 := by funext a; fin_cases a <;> rfl

/-- One store through the whole buffer reads back as its payload. -/
theorem read_store_whole {sp : Space} {S : Shape} {e : EltTy} (v : View sig .tc sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero h inb y⟩), View.canon_unit_zero h inb]

set_option maxHeartbeats 4000000 in
/-- p = 0, i ≠ 1: the hidden-layer rows of this stripe go into the first scratch; nothing else changes. -/
theorem run_rows (c : Dev nD) (E : Set ℕ) (i : grid0.Coords)
    (arg2 : Memref sig .tc .vmem S400x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x64 .f32) (harg6 : arg6.IsWhole) (arg7 : Memref sig .tc .vmem S1x64 .f32) (harg7 : arg7.IsWhole)
    (arg8 : Memref sig .tc .vmem S400x64 .f32) (harg8 : arg8.IsWhole) (arg9 : Memref sig .tc .vmem S10000x64 .f32) (harg9 : arg9.IsWhole)
    (arg10 : Memref sig .tc .vmem S400x10000 .f32) (harg10 : arg10.IsWhole)
    (hc1 : k0_cond1 i = 1#1) (hc2 : ¬ cond2 i = 1#1) (hc3 : ¬ k0_cond3 i = 1#1) (hc4 : ¬ k0_cond4 i = 1#1)
    (a : Vec F S400x10000 .f32) (x : Vec F S10000x128 .f32) (w1 : Vec F S128x128 .f32) (b1 : Vec F S1x128 .f32) (w2 : Vec F S128x64 .f32)
    (s : Vec F S10000x64 .f32) (K : PUnit → sProp 𝕄) :
    iprop(owns (c : Thread nD τ) arg2 fullShare a ∗ owns (c : Thread nD τ) arg3 fullShare x ∗ owns (c : Thread nD τ) arg4 fullShare w1 ∗ owns (c : Thread nD τ) arg5 fullShare b1 ∗ owns (c : Thread nD τ) arg6 fullShare w2 ∗ owns (c : Thread nD τ) arg9 fullShare s
        ∗ (iprop(owns (c : Thread nD τ) arg2 fullShare a ∗ owns (c : Thread nD τ) arg3 fullShare x ∗ owns (c : Thread nD τ) arg4 fullShare w1 ∗ owns (c : Thread nD τ) arg5 fullShare b1 ∗ owns (c : Thread nD τ) arg6 fullShare w2
            ∗ owns (c : Thread nD τ) arg9 fullShare ((sliceR i hc1).overlay s (k0_pay1 a x w1 b1 w2))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%f9, %hf9, H9⟩, Hk⟩
  subst hf2; subst hf3; subst hf4; subst hf5; subst hf6; subst hf9
  sl_exec (disch := first | exact hc1 | exact hc2 | exact hc3 | exact hc4)
  sl_step
  iapply Hk
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [H6]
  · iexists _; isplitr
    · ipureintro; rfl
    · iexact H6
  iexists _; isplitr
  swap; · iexact H9
  ipureintro
  rw [read_store_overlay]
  simp only [View.readAt_eq_ld, View.ld_unit_zero (S := S400x10000) hz2, View.ld_unit_zero (S := S10000x128) hz2,
    View.ld_unit_zero (S := S128x128) hz2, View.ld_unit_zero (S := S1x128) hz2, View.ld_unit_zero (S := S128x64) hz2,
    View.ld_unit_zero (S := S10000x64) hz2, View.ld_unit_zero (S := S1x64) hz2, View.ld_unit_zero (S := S400x64) hz2]

set_option maxHeartbeats 4000000 in
/-- (p, i) = (0, 1): as above, and the staged adjacency stripe is copied into the second scratch. -/
theorem run_rows_copy (c : Dev nD) (E : Set ℕ) (i : grid0.Coords)
    (arg2 : Memref sig .tc .vmem S400x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x64 .f32) (harg6 : arg6.IsWhole) (arg7 : Memref sig .tc .vmem S1x64 .f32) (harg7 : arg7.IsWhole)
    (arg8 : Memref sig .tc .vmem S400x64 .f32) (harg8 : arg8.IsWhole) (arg9 : Memref sig .tc .vmem S10000x64 .f32) (harg9 : arg9.IsWhole)
    (arg10 : Memref sig .tc .vmem S400x10000 .f32) (harg10 : arg10.IsWhole)
    (hc1 : k0_cond1 i = 1#1) (hc2 : cond2 i = 1#1) (hc3 : ¬ k0_cond3 i = 1#1) (hc4 : ¬ k0_cond4 i = 1#1)
    (a : Vec F S400x10000 .f32) (x : Vec F S10000x128 .f32) (w1 : Vec F S128x128 .f32) (b1 : Vec F S1x128 .f32) (w2 : Vec F S128x64 .f32)
    (s : Vec F S10000x64 .f32) (K : PUnit → sProp 𝕄) :
    iprop(owns (c : Thread nD τ) arg2 fullShare a ∗ owns (c : Thread nD τ) arg3 fullShare x ∗ owns (c : Thread nD τ) arg4 fullShare w1 ∗ owns (c : Thread nD τ) arg5 fullShare b1 ∗ owns (c : Thread nD τ) arg6 fullShare w2 ∗ owns (c : Thread nD τ) arg9 fullShare s
        ∗ (∃ d, owns (c : Thread nD τ) arg10 fullShare d)
        ∗ (iprop(owns (c : Thread nD τ) arg2 fullShare a ∗ owns (c : Thread nD τ) arg3 fullShare x ∗ owns (c : Thread nD τ) arg4 fullShare w1 ∗ owns (c : Thread nD τ) arg5 fullShare b1 ∗ owns (c : Thread nD τ) arg6 fullShare w2
            ∗ owns (c : Thread nD τ) arg9 fullShare ((sliceR i hc1).overlay s (k0_pay1 a x w1 b1 w2)) ∗ owns (c : Thread nD τ) arg10 fullShare (k0_pay2 a)) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%f9, %hf9, H9⟩, ⟨%d10, %f10, -, H10⟩, Hk⟩
  subst hf2; subst hf3; subst hf4; subst hf5; subst hf6; subst hf9
  sl_exec (disch := first | exact hc1 | exact hc2 | exact hc3 | exact hc4)
  sl_step
  iapply Hk
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [H6]
  · iexists _; isplitr
    · ipureintro; rfl
    · iexact H6
  isplitl [H9]
  · iexists _; isplitr
    swap; · iexact H9
    ipureintro
    rw [read_store_overlay]
    simp only [View.readAt_eq_ld, View.ld_unit_zero (S := S400x10000) hz2, View.ld_unit_zero (S := S10000x128) hz2,
    View.ld_unit_zero (S := S128x128) hz2, View.ld_unit_zero (S := S1x128) hz2, View.ld_unit_zero (S := S128x64) hz2,
    View.ld_unit_zero (S := S10000x64) hz2, View.ld_unit_zero (S := S1x64) hz2, View.ld_unit_zero (S := S400x64) hz2]
  iexists _; isplitr
  swap; · iexact H10
  ipureintro
  rw [read_store_whole _ _ hz2]
  simp only [View.readAt_eq_ld, View.ld_unit_zero (S := S400x10000) hz2, View.ld_unit_zero (S := S10000x128) hz2,
    View.ld_unit_zero (S := S128x128) hz2, View.ld_unit_zero (S := S1x128) hz2, View.ld_unit_zero (S := S128x64) hz2,
    View.ld_unit_zero (S := S10000x64) hz2, View.ld_unit_zero (S := S1x64) hz2, View.ld_unit_zero (S := S400x64) hz2]

set_option maxHeartbeats 4000000 in
/-- p = 1, i ≠ 23: the output block is the staged stripe against the whole first scratch, plus the bias row. -/
theorem run_out (c : Dev nD) (E : Set ℕ) (i : grid0.Coords)
    (arg2 : Memref sig .tc .vmem S400x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x64 .f32) (harg6 : arg6.IsWhole) (arg7 : Memref sig .tc .vmem S1x64 .f32) (harg7 : arg7.IsWhole)
    (arg8 : Memref sig .tc .vmem S400x64 .f32) (harg8 : arg8.IsWhole) (arg9 : Memref sig .tc .vmem S10000x64 .f32) (harg9 : arg9.IsWhole)
    (arg10 : Memref sig .tc .vmem S400x10000 .f32) (harg10 : arg10.IsWhole)
    (hc1 : ¬ k0_cond1 i = 1#1) (hc2 : ¬ cond2 i = 1#1) (hc3 : k0_cond3 i = 1#1) (hc4 : ¬ k0_cond4 i = 1#1)
    (a : Vec F S400x10000 .f32) (b2 : Vec F S1x64 .f32) (s2 : Vec F S10000x64 .f32) (K : PUnit → sProp 𝕄) :
    iprop(owns (c : Thread nD τ) arg2 fullShare a ∗ owns (c : Thread nD τ) arg7 fullShare b2 ∗ owns (c : Thread nD τ) arg9 fullShare s2 ∗ (∃ d, owns (c : Thread nD τ) arg8 fullShare d)
        ∗ (iprop(owns (c : Thread nD τ) arg2 fullShare a ∗ owns (c : Thread nD τ) arg7 fullShare b2 ∗ owns (c : Thread nD τ) arg9 fullShare s2 ∗ owns (c : Thread nD τ) arg8 fullShare (k0_pay3 a s2 b2)) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f2, %hf2, H2⟩, ⟨%f7, %hf7, H7⟩, ⟨%f9, %hf9, H9⟩, ⟨%d8, %f8, -, H8⟩, Hk⟩
  subst hf2; subst hf7; subst hf9
  sl_exec (disch := first | exact hc1 | exact hc2 | exact hc3 | exact hc4)
  sl_step
  iapply Hk
  isplitl [H2]
  · iexists _; isplitr
    · ipureintro; rfl
    · iexact H2
  isplitl [H7]
  · iexists _; isplitr
    · ipureintro; rfl
    · iexact H7
  isplitl [H9]
  · iexists _; isplitr
    · ipureintro; rfl
    · iexact H9
  iexists _; isplitr
  swap; · iexact H8
  ipureintro
  rw [read_store_whole _ _ hz2]
  simp only [View.readAt_eq_ld, View.ld_unit_zero (S := S400x10000) hz2, View.ld_unit_zero (S := S10000x128) hz2,
    View.ld_unit_zero (S := S128x128) hz2, View.ld_unit_zero (S := S1x128) hz2, View.ld_unit_zero (S := S128x64) hz2,
    View.ld_unit_zero (S := S10000x64) hz2, View.ld_unit_zero (S := S1x64) hz2, View.ld_unit_zero (S := S400x64) hz2]

set_option maxHeartbeats 4000000 in
/-- (p, i) = (1, 23): the same from the stripe copied into the second scratch. -/
theorem run_out_copy (c : Dev nD) (E : Set ℕ) (i : grid0.Coords)
    (arg2 : Memref sig .tc .vmem S400x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x64 .f32) (harg6 : arg6.IsWhole) (arg7 : Memref sig .tc .vmem S1x64 .f32) (harg7 : arg7.IsWhole)
    (arg8 : Memref sig .tc .vmem S400x64 .f32) (harg8 : arg8.IsWhole) (arg9 : Memref sig .tc .vmem S10000x64 .f32) (harg9 : arg9.IsWhole)
    (arg10 : Memref sig .tc .vmem S400x10000 .f32) (harg10 : arg10.IsWhole)
    (hc1 : ¬ k0_cond1 i = 1#1) (hc2 : ¬ cond2 i = 1#1) (hc3 : ¬ k0_cond3 i = 1#1) (hc4 : k0_cond4 i = 1#1)
    (a : Vec F S400x10000 .f32) (b2 : Vec F S1x64 .f32) (s2 : Vec F S10000x64 .f32) (K : PUnit → sProp 𝕄) :
    iprop(owns (c : Thread nD τ) arg10 fullShare a ∗ owns (c : Thread nD τ) arg7 fullShare b2 ∗ owns (c : Thread nD τ) arg9 fullShare s2 ∗ (∃ d, owns (c : Thread nD τ) arg8 fullShare d)
        ∗ (iprop(owns (c : Thread nD τ) arg10 fullShare a ∗ owns (c : Thread nD τ) arg7 fullShare b2 ∗ owns (c : Thread nD τ) arg9 fullShare s2 ∗ owns (c : Thread nD τ) arg8 fullShare (k0_pay4 a s2 b2)) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f10, %hf10, H10⟩, ⟨%f7, %hf7, H7⟩, ⟨%f9, %hf9, H9⟩, ⟨%d8, %f8, -, H8⟩, Hk⟩
  subst hf10; subst hf7; subst hf9
  sl_exec (disch := first | exact hc1 | exact hc2 | exact hc3 | exact hc4)
  sl_step
  iapply Hk
  isplitl [H10]
  · iexists _; isplitr
    · ipureintro; rfl
    · iexact H10
  isplitl [H7]
  · iexists _; isplitr
    · ipureintro; rfl
    · iexact H7
  isplitl [H9]
  · iexists _; isplitr
    · ipureintro; rfl
    · iexact H9
  iexists _; isplitr
  swap; · iexact H8
  ipureintro
  rw [read_store_whole _ _ hz2]
  simp only [View.readAt_eq_ld, View.ld_unit_zero (S := S400x10000) hz2, View.ld_unit_zero (S := S10000x128) hz2,
    View.ld_unit_zero (S := S128x128) hz2, View.ld_unit_zero (S := S1x128) hz2, View.ld_unit_zero (S := S128x64) hz2,
    View.ld_unit_zero (S := S10000x64) hz2, View.ld_unit_zero (S := S1x64) hz2, View.ld_unit_zero (S := S400x64) hz2]

end Cert.Kernel.R0
end
-- ==== Proof.KB.R0Dat.lean ====
/-
  Pipeline 0's proof data. The first scratch is filled 400 rows per point during the first phase, so after n points
  its rows below 400·min(n, 25) are the hidden-layer product's and the rest is whatever the scratch held; the second
  scratch holds adjacency stripe 1 from the third point on. The output window is idle through the first phase and
  live through the second, where each point stores one block of the result.
-/
import proofs.«108190_g79602923864535_cont_9to1_m_41_30_alg».proof.Proof.KB.R0Body
import Idealize.ShloMosaic.Lib.ValueIdx

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not: unfetched, the block index
    has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## Points and rows -/

theorem N50 : cfg0.N = 50 := N_0

/-- The second point of the grid, (p, i) = (0, 1): where adjacency stripe 1 is staged and copied. -/
def pt1 : Fin cfg0.N := ⟨1, lt_of_lt_of_eq (by omega : 1 < 50) N50.symm⟩

/-- The point of the first phase that computes row `y 0` of the scratch: its stripe. -/
def rowPt (y : S10000x64.Idx) : Fin cfg0.N :=
  ⟨(y 0).val / 400, lt_of_lt_of_eq (by have := idx2_lt0 y; omega) N50.symm⟩

/-- The index of row `y 0` within its stripe. -/
def loc400 (y : S10000x64.Idx) : S400x64.Idx :=
  ix2 (⟨(y 0).val % 400, Nat.mod_lt _ (by omega)⟩ : Fin 400) (⟨(y 1).val, idx2_lt1 y⟩ : Fin 64)

/-- The first scratch once the first phase is over: row by row the hidden-layer product of the row's stripe. -/
def s2full (c : Dev nD) : Vec F S10000x64 .f32 := fun y =>
  k0_pay1 (iblk0 V c 0 (rowPt y)) (iblk0 V c 1 (rowPt y)) (iblk0 V c 2 (rowPt y)) (iblk0 V c 3 (rowPt y)) (iblk0 V c 4 (rowPt y)) (loc400 y)

/-- What the two scratch buffers hold before point `n`. -/
def Inv (c : Dev nD) (n : ℕ) (s : Vec F S10000x64 .f32) (cch : Vec F S400x10000 .f32) : Prop :=
  (∀ y : S10000x64.Idx, (y 0).val < 400 * min n 25 → s y = s2full V c y) ∧ (2 ≤ n → cch = k0_pay2 (iblk0 V c 0 pt1))

theorem Inv_zero (c : Dev nD) (s : Vec F S10000x64 .f32) (cch : Vec F S400x10000 .f32) : Inv V c 0 s cch :=
  ⟨fun y h => by simp at h, fun h => by omega⟩

/-- The adjacency stripe the output block at `t` is computed from: the staged one, or at (1, 23) the copy. -/
def srcA (c : Dev nD) (t : Fin cfg0.N) : Vec F S400x10000 .f32 :=
  if t.val = 48 then k0_pay2 (iblk0 V c 0 pt1) else iblk0 V c 0 t

/-- The output block a point of the second phase stores. -/
def zblk (c : Dev nD) (t : Fin cfg0.N) : Vec F S400x64 .f32 :=
  k0_pay3 (srcA V c t) (s2full V c) (iblk0 V c 5 t)

/-! ## The invariant -/

abbrev scr0 : Memref sig .tc .vmem S10000x64 .f32 := Memref.whole cc0_scratch0
abbrev scr1 : Memref sig .tc .vmem S400x10000 .f32 := Memref.whole cc0_scratch1

/-- The scoped buffers of the other pipeline, each at some contents. -/
def restBufs (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(((∃ d, owns (c : Thread nD τ) scr0 fullShare d) ∗ (∃ d, owns (c : Thread nD τ) scr1 fullShare d) ∗ restBufs c) ∗ (∃ r, prngReg c r)) := by
  unfold Pipeline.ΦA restBufs; rw [scopedRest0_eq]; simp only [scr0, scr1, owns_whole]; try rfl

/-- Before point `n`: the two scratch buffers at contents satisfying `Inv n`, the other scoped buffers and the generator register as they are. -/
def Phi (c : Dev nD) (n : ℕ) : sProp 𝕄 :=
  iprop(((∃ s cch, ⌜Inv V c n s cch⌝ ∗ owns (c : Thread nD τ) scr0 fullShare s ∗ owns (c : Thread nD τ) scr1 fullShare cch) ∗ restBufs c) ∗ (∃ r, prngReg c r))

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => zblk V c t
  Φ t := Phi V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = zblk V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The grid: which case a point is in, where it stores, when the output window is idle -/

theorem hcond1 : ∀ t : Fin cfg0.N, k0_cond1 (grid0.coords t) = 1#1 ↔ t.val < 25 :=
  (by decide +kernel : ∀ t : Fin grid0.N, k0_cond1 (grid0.coords t) = 1#1 ↔ t.val < 25)
theorem hcond2 : ∀ t : Fin cfg0.N, cond2 (grid0.coords t) = 1#1 ↔ t.val = 1 :=
  (by decide +kernel : ∀ t : Fin grid0.N, cond2 (grid0.coords t) = 1#1 ↔ t.val = 1)
theorem hcond3 : ∀ t : Fin cfg0.N, k0_cond3 (grid0.coords t) = 1#1 ↔ (25 ≤ t.val ∧ t.val ≠ 48) :=
  (by decide +kernel : ∀ t : Fin grid0.N, k0_cond3 (grid0.coords t) = 1#1 ↔ (25 ≤ t.val ∧ t.val ≠ 48))
theorem hcond4 : ∀ t : Fin cfg0.N, k0_cond4 (grid0.coords t) = 1#1 ↔ t.val = 48 :=
  (by decide +kernel : ∀ t : Fin grid0.N, k0_cond4 (grid0.coords t) = 1#1 ↔ t.val = 48)
theorem hoff : ∀ t : Fin cfg0.N, t.val < 25 → k0_off1 (grid0.coords t) 0 = 400 * t.val ∧ k0_off1 (grid0.coords t) 1 = 0 :=
  (by decide +kernel : ∀ t : Fin grid0.N, t.val < 25 → k0_off1 (grid0.coords t) 0 = 400 * t.val ∧ k0_off1 (grid0.coords t) 1 = 0)
theorem idle6 : ∀ t : Fin cfg0.N, t.val < 25 → cfg0.idle 6 (grid0.coords t) = true :=
  (by decide +kernel : ∀ t : Fin grid0.N, t.val < 25 → cfg0.idle 6 (grid0.coords t) = true)
theorem live6 : ∀ t : Fin cfg0.N, 25 ≤ t.val → cfg0.idle 6 (grid0.coords t) = false :=
  (by decide +kernel : ∀ t : Fin grid0.N, 25 ≤ t.val → cfg0.idle 6 (grid0.coords t) = false)
theorem noflush6 : ∀ t : Fin cfg0.N, t.val < 25 → (cfg0.win 6).flush t = false :=
  (by decide +kernel : ∀ t : Fin grid0.N, t.val < 25 → win0_6.flush t = false)

end Cert.Kernel.R0
end
-- ==== Proof.KB.R0Inv.lean ====
/-
  How the scratch invariant moves from one point to the next. Storing stripe t's 400 rows turns "rows below 400·t are
  right" into "rows below 400·(t+1) are right": a row of the new stripe reads the stored payload at its index within the
  stripe, a row below it reads what was there. The second phase stores into neither scratch.
-/
import proofs.«108190_g79602923864535_cont_9to1_m_41_30_alg».proof.Proof.KB.R0Dat
import Idealize.ShloMosaic.Lib.ValueIdx

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The stripe's store, read at a row: the payload inside rows 400·t … 400·t+399, the old contents elsewhere. -/
theorem overlay_rows (t : Fin cfg0.N) (hA : t.val < 25) (h1c : k0_cond1 (grid0.coords t) = 1#1)
    (s : Vec F S10000x64 .f32) (pay : Vec F S400x64 .f32) (y : S10000x64.Idx) :
    (sliceR (grid0.coords t) h1c).overlay s pay y
      = if 400 * t.val ≤ (y 0).val ∧ (y 0).val < 400 * t.val + 400 then pay (loc400 y) else s y := by
  obtain ⟨ho0, ho1⟩ := hoff t hA
  have hy1 := idx2_lt1 y
  by_cases hy : 400 * t.val ≤ (y 0).val ∧ (y 0).val < 400 * t.val + 400
  · rw [if_pos hy]
    have hmem : y ∈ (sliceR (grid0.coords t) h1c).set := by
      rw [Rect.mem_set_unit]
      show ∀ a : Fin 2, k0_off1 (grid0.coords t) a ≤ (y a).val ∧ (y a).val < k0_off1 (grid0.coords t) a + S400x64.size a
      refine Fin.forall_fin_two.mpr ⟨⟨?_, ?_⟩, ⟨?_, ?_⟩⟩
      · rw [ho0]; exact hy.1
      · rw [ho0]; exact hy.2
      · rw [ho1]; exact Nat.zero_le _
      · rw [ho1]; show (y 1).val < 0 + 64; omega
    obtain ⟨x, hx⟩ := (sliceR (grid0.coords t) h1c).exists_idx_of_mem hmem
    subst hx
    rw [show (sliceR (grid0.coords t) h1c).idx x = (sliceR (grid0.coords t) h1c).emb x from rfl, Rect.overlay_emb]
    refine congrArg pay ?_
    funext a
    match a with
    | ⟨0, _⟩ =>
      apply Fin.ext
      show (x 0).val = (k0_off1 (grid0.coords t) 0 + 1 * (x 0).val) % 400
      have := (x 0).isLt
      have h400 : (x 0).val < 400 := this
      rw [ho0]; omega
    | ⟨1, _⟩ =>
      apply Fin.ext
      show (x 1).val = k0_off1 (grid0.coords t) 1 + 1 * (x 1).val
      rw [ho1]; omega
  · rw [if_neg hy]
    refine Rect.overlay_of_not_mem _ _ _ (fun hm => hy ?_)
    rw [Rect.mem_set_unit] at hm
    have h0 := hm 0
    rw [ho0] at h0
    exact ⟨h0.1, h0.2⟩

/-- A row of stripe `t` is computed at point `t`. -/
theorem rowPt_eq (t : Fin cfg0.N) (y : S10000x64.Idx) (h : 400 * t.val ≤ (y 0).val ∧ (y 0).val < 400 * t.val + 400) : rowPt y = t :=
  Fin.ext (by show (y 0).val / 400 = t.val; omega)

theorem Inv_step_rows (c : Dev nD) (t : Fin cfg0.N) (hA : t.val < 25) (h1 : t.val ≠ 1) (h1c : k0_cond1 (grid0.coords t) = 1#1)
    (s : Vec F S10000x64 .f32) (cch : Vec F S400x10000 .f32) (hI : Inv V c t.val s cch) :
    Inv V c (t.val + 1) ((sliceR (grid0.coords t) h1c).overlay s
      (k0_pay1 (iblk0 V c 0 t) (iblk0 V c 1 t) (iblk0 V c 2 t) (iblk0 V c 3 t) (iblk0 V c 4 t))) cch := by
  refine ⟨fun y hy => ?_, fun h2 => hI.2 (by omega)⟩
  rw [overlay_rows t hA h1c]
  split
  · next h => unfold s2full; rw [rowPt_eq t y h]
  · next h => exact hI.1 y (by omega)

theorem Inv_step_copy (c : Dev nD) (t : Fin cfg0.N) (h1 : t.val = 1) (h1c : k0_cond1 (grid0.coords t) = 1#1)
    (s : Vec F S10000x64 .f32) (cch : Vec F S400x10000 .f32) (hI : Inv V c t.val s cch) :
    Inv V c (t.val + 1) ((sliceR (grid0.coords t) h1c).overlay s
      (k0_pay1 (iblk0 V c 0 t) (iblk0 V c 1 t) (iblk0 V c 2 t) (iblk0 V c 3 t) (iblk0 V c 4 t))) (k0_pay2 (iblk0 V c 0 t)) := by
  refine ⟨fun y hy => ?_, fun _ => ?_⟩
  · rw [overlay_rows t (by omega) h1c]
    split
    · next h => unfold s2full; rw [rowPt_eq t y h]
    · next h => exact hI.1 y (by omega)
  · obtain rfl : t = pt1 := Fin.ext h1
    rfl

theorem Inv_step_keep (c : Dev nD) (n : ℕ) (h : 25 ≤ n) (s : Vec F S10000x64 .f32) (cch : Vec F S400x10000 .f32) (hI : Inv V c n s cch) :
    Inv V c (n + 1) s cch :=
  ⟨fun y hy => hI.1 y (by omega), fun _ => hI.2 (by omega)⟩

/-- Once the first phase is over the first scratch is the whole hidden-layer product. -/
theorem Inv_full (c : Dev nD) (n : ℕ) (h : 25 ≤ n) (s : Vec F S10000x64 .f32) (cch : Vec F S400x10000 .f32) (hI : Inv V c n s cch) :
    s = s2full V c :=
  funext fun y => hI.1 y (by have := idx2_lt0 y; omega)

end Cert.Kernel.R0
end
-- ==== Proof.KB.R0Obl.lean ====
/-
  Pipeline 0's body obligation: at each point the case the point is in is read off its position (first phase below 25,
  the copy at 1, the cached stripe at 48), the inputs' staging buffers hold their blocks, the scratch buffers what the
  invariant says, and the case's run gives the next point's invariant and, in the second phase, the output block.
-/
import proofs.«108190_g79602923864535_cont_9to1_m_41_30_alg».proof.Proof.KB.R0Inv

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

theorem pay4_eq (a : Vec F S400x10000 .f32) (s : Vec F S10000x64 .f32) (b : Vec F S1x64 .f32) : k0_pay4 a s b = k0_pay3 a s b := rfl

set_option maxHeartbeats 8000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dat0 V c).owesAt () t.succ = (dat0 V c).owesAt () t.castSucc from rfl]
  rw [show (dat0 V c).Φ t.succ = Phi V c (t.val + 1) from rfl, show (dat0 V c).Φ t.castSucc = Phi V c t.val from rfl]
  rw [show (dat0 V c).leavesExact 0 t = owns (c : Thread nD τ) (st0_0 t) fullShare ((dat0 V c).after 0 t) from by
      unfold Dat.leavesExact; rfl, after0_0]
  rw [show (dat0 V c).leavesExact 1 t = owns (c : Thread nD τ) (st0_1 t) fullShare ((dat0 V c).after 1 t) from by
      unfold Dat.leavesExact; rfl, after0_1]
  rw [show (dat0 V c).leavesExact 2 t = owns (c : Thread nD τ) (st0_2 t) fullShare ((dat0 V c).after 2 t) from by
      unfold Dat.leavesExact; rfl, after0_2]
  rw [show (dat0 V c).leavesExact 3 t = owns (c : Thread nD τ) (st0_3 t) fullShare ((dat0 V c).after 3 t) from by
      unfold Dat.leavesExact; rfl, after0_3]
  rw [show (dat0 V c).leavesExact 4 t = owns (c : Thread nD τ) (st0_4 t) fullShare ((dat0 V c).after 4 t) from by
      unfold Dat.leavesExact; rfl, after0_4]
  rw [show (dat0 V c).leavesExact 5 t = owns (c : Thread nD τ) (st0_5 t) fullShare ((dat0 V c).after 5 t) from by
      unfold Dat.leavesExact; rfl, after0_5]
  have hN : t.val < 50 := lt_of_lt_of_eq t.isLt N50
  unfold Phi
  by_cases hA : t.val < 25
  · rw [Dat.leavesExact_idle (dat0 V c) 6 t (idle6 t hA) (noflush6 t hA)]
    have h1c : k0_cond1 (grid0.coords t) = 1#1 := (hcond1 t).mpr hA
    have h3c : ¬ k0_cond3 (grid0.coords t) = 1#1 := fun h => by have := (hcond3 t).mp h; omega
    have h4c : ¬ k0_cond4 (grid0.coords t) = 1#1 := fun h => by have := (hcond4 t).mp h; omega
    by_cases h1 : t.val = 1
    · have h2c : cond2 (grid0.coords t) = 1#1 := (hcond2 t).mpr h1
      iintro ⟨⟨⟨⟨%s, %cch, %hI, HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run_rows_copy c Set.univ (grid0.coords t) _ _ _ _ _ _ _ _ _ _ _ _ _ _ _ _ _ _ h1c h2c h3c h4c
        (iblk0 V c 0 t) (iblk0 V c 1 t) (iblk0 V c 2 t) (iblk0 V c 3 t) (iblk0 V c 4 t) s _)
      isplitl [H0]; · iexact H0
      isplitl [H1]; · iexact H1
      isplitl [H2]; · iexact H2
      isplitl [H3]; · iexact H3
      isplitl [H4]; · iexact H4
      isplitl [HS0]; · iexact HS0
      isplitl [HS1]; · iexists _; iexact HS1
      iintro ⟨H0, H1, H2, H3, H4, HS0, HS1⟩
      isplitl [HS0 HS1 Hrest Hg]
      · isplitl [HS0 HS1 Hrest]
        · isplitl [HS0 HS1]
          · iexists _; iexists _; isplitr
            · ipureintro; exact Inv_step_copy V c t h1 h1c s cch hI
            · isplitl [HS0]
              · iexact HS0
              · iexact HS1
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · have h2c : ¬ cond2 (grid0.coords t) = 1#1 := fun h => h1 ((hcond2 t).mp h)
      iintro ⟨⟨⟨⟨%s, %cch, %hI, HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run_rows c Set.univ (grid0.coords t) _ _ _ _ _ _ _ _ _ _ _ _ _ _ _ _ _ _ h1c h2c h3c h4c
        (iblk0 V c 0 t) (iblk0 V c 1 t) (iblk0 V c 2 t) (iblk0 V c 3 t) (iblk0 V c 4 t) s _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 HS1 Hrest Hg]
      · isplitl [HS0 HS1 Hrest]
        · isplitl [HS0 HS1]
          · iexists _; iexists _; isplitr
            · ipureintro; exact Inv_step_rows V c t hA h1 h1c s cch hI
            · isplitl [HS0]
              · iexact HS0
              · iexact HS1
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hB : 25 ≤ t.val := Nat.le_of_not_lt hA
    rw [show (dat0 V c).leavesExact 6 t = owns (c : Thread nD τ) (st0_6 t) fullShare ((dat0 V c).after 6 t) from by
      unfold Dat.leavesExact; rw [live6 t hB], after0_6]
    have h1c : ¬ k0_cond1 (grid0.coords t) = 1#1 := fun h => hA ((hcond1 t).mp h)
    have h2c : ¬ cond2 (grid0.coords t) = 1#1 := fun h => by have := (hcond2 t).mp h; omega
    by_cases h48 : t.val = 48
    · have h3c : ¬ k0_cond3 (grid0.coords t) = 1#1 := fun h => ((hcond3 t).mp h).2 h48
      have h4c : k0_cond4 (grid0.coords t) = 1#1 := (hcond4 t).mpr h48
      iintro ⟨⟨⟨⟨%s, %cch, %hI, HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      have hs : s = s2full V c := Inv_full V c t.val hB s cch hI
      have hcc : cch = k0_pay2 (iblk0 V c 0 pt1) := hI.2 (by omega)
      subst hs; subst hcc
      iapply (run_out_copy c Set.univ (grid0.coords t) _ _ _ _ _ _ _ _ _ _ _ _ _ _ _ _ _ _ h1c h2c h3c h4c
        (k0_pay2 (iblk0 V c 0 pt1)) (iblk0 V c 5 t) (s2full V c) _)
      isplitl [HS1]; · iexact HS1
      isplitl [H5]; · iexact H5
      isplitl [HS0]; · iexact HS0
      isplitl [H6]; · iexists _; iexact H6
      iintro ⟨HS1, H5, HS0, H6⟩
      isplitl [HS0 HS1 Hrest Hg]
      · isplitl [HS0 HS1 Hrest]
        · isplitl [HS0 HS1]
          · iexists _; iexists _; isplitr
            · ipureintro; exact Inv_step_keep V c t.val hB _ _ hI
            · isplitl [HS0]
              · iexact HS0
              · iexact HS1
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      rw [pay4_eq, show zblk V c t = k0_pay3 (k0_pay2 (iblk0 V c 0 pt1)) (s2full V c) (iblk0 V c 5 t) from by
        unfold zblk srcA; rw [if_pos h48]]
      iexact H6
    · have h3c : k0_cond3 (grid0.coords t) = 1#1 := (hcond3 t).mpr ⟨hB, h48⟩
      have h4c : ¬ k0_cond4 (grid0.coords t) = 1#1 := fun h => h48 ((hcond4 t).mp h)
      iintro ⟨⟨⟨⟨%s, %cch, %hI, HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      have hs : s = s2full V c := Inv_full V c t.val hB s cch hI
      subst hs
      iapply (run_out c Set.univ (grid0.coords t) _ _ _ _ _ _ _ _ _ _ _ _ _ _ _ _ _ _ h1c h2c h3c h4c
        (iblk0 V c 0 t) (iblk0 V c 5 t) (s2full V c) _)
      isplitl [H0]; · iexact H0
      isplitl [H5]; · iexact H5
      isplitl [HS0]; · iexact HS0
      isplitl [H6]; · iexists _; iexact H6
      iintro ⟨H0, H5, HS0, H6⟩
      isplitl [HS0 HS1 Hrest Hg]
      · isplitl [HS0 HS1 Hrest]
        · isplitl [HS0 HS1]
          · iexists _; iexists _; isplitr
            · ipureintro; exact Inv_step_keep V c t.val hB _ _ hI
            · isplitl [HS0]
              · iexact HS0
              · iexact HS1
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      rw [show zblk V c t = k0_pay3 (iblk0 V c 0 t) (s2full V c) (iblk0 V c 5 t) from by
        unfold zblk srcA; rw [if_neg h48]]
      iexact H6

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point: nothing is yet known of the scratch. -/
theorem hin0 (c : Dev nD) : Pipeline.ΦA spec0 c ⊢ (dat0 V c).Φ 0 := by
  rw [show (dat0 V c).Φ 0 = Phi V c 0 from rfl, PhiA0_eq]; unfold Phi
  iintro ⟨⟨⟨%s, HS0⟩, ⟨%cch, HS1⟩, Hrest⟩, Hg⟩
  isplitl [HS0 HS1 Hrest]
  · isplitl [HS0 HS1]
    · iexists s; iexists cch; isplitr
      · ipureintro; exact Inv_zero V c s cch
      · isplitl [HS0]
        · iexact HS0
        · iexact HS1
    · iexact Hrest
  · iexact Hg

/-- After the last point the invariant gives the scoped buffers back, their contents forgotten. -/
theorem hout0 (c : Dev nD) : (dat0 V c).Φ (Fin.last cfg0.N) ⊢ Pipeline.ΦA spec0 c := by
  rw [show (dat0 V c).Φ (Fin.last cfg0.N) = Phi V c (Fin.last cfg0.N).val from rfl, PhiA0_eq]; unfold Phi
  iintro ⟨⟨⟨%s, %cch, -, HS0, HS1⟩, Hrest⟩, Hg⟩
  isplitl [HS0 HS1 Hrest]
  · isplitl [HS0]
    · iexists _; iexact HS0
    · isplitl [HS1]
      · iexists _; iexact HS1
      · iexact Hrest
  · iexact Hg

end Cert.Kernel.R0
end
-- ==== Proof.KB.Region1Body.lean ====
/-
  Pipeline 1's body, in its two cases. At the grid's first point the body stores the transpose of the whole z
  buffer into the scratch; at every point it multiplies the point's 400 rows of z by the scratch and stores
  0.5·tanh(0.5·g) + 0.5 of the product g into the output block. Each case is run once on arbitrary whole memrefs,
  the contents it reads as variables, and states what every buffer it touches holds afterwards.
-/
import proofs.«108190_g79602923864535_cont_9to1_m_41_30_alg».proof.Proof.Gen.Kernel.Launch
import proofs.«108190_g79602923864535_cont_9to1_m_41_30_alg».proof.Proof.Gen.Kernel.Skeleton
import proofs.«108190_g79602923864535_cont_9to1_m_41_30_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole z buffer, the whole output block, the whole transposed scratch: unit rectangles at zero offsets. -/
abbrev rZ : Rect S10000x64 := Rect.unit (s := S10000x64) ![0, 0] S10000x64.size inb_S10000x64_S10000x64_0_0
abbrev rO : Rect S400x10000 := Rect.unit (s := S400x10000) ![0, 0] S400x10000.size inb_S400x10000_S400x10000_0_0
abbrev rT : Rect S64x10000 := Rect.unit (s := S64x10000) ![0, 0] S64x10000.size inb_S64x10000_S64x10000_0_0
/-- The 400 rows of z the point reads. -/
abbrev rRow (i : grid1.Coords) : Rect S10000x64 := Rect.unit (s := S10000x64) (k1_off1 i) S400x64.size (k1_off1_inb i)

/-- The zero offsets of a rank-2 access, as the constant function. -/
theorem zeros2 : (![0, 0] : Fin 2 → Nat) = fun _ => 0 := funext fun a => by fin_cases a <;> rfl

/-- The branch condition of the body: the grid coordinate is zero. -/
abbrev cond1 (i : grid1.Coords) : Prop :=
  (Scalar.cmpi .ne (Scalar.extui (Scalar.cmpi .eq (BitVec.ofNat 32 (i 0).val) 0#32)) 0#32) = 1#1

/-- It holds at the first point only — decided over the grid. -/
theorem hcond1 : ∀ t : Fin cfg1.N, cond1 (grid1.coords t) ↔ t.val = 0 :=
  (by decide +kernel : ∀ t : Fin grid1.N, cond1 (grid1.coords t) ↔ t.val = 0)

/-- What point 0 stores in the scratch: the transpose of z. -/
def ztOf (z : Vec F S10000x64 .f32) : Vec F S64x10000 .f32 := k1_pay1 z

/-- The output block after the body at grid point `i`: the payload of its one store, over the 400 rows of z the
    point reads and the scratch contents `zt`. -/
def out1_1 (i : grid1.Coords) (z : Vec F S10000x64 .f32) (zt : Vec F S64x10000 .f32) : Vec F S400x10000 .f32 :=
  k1_pay2 (View.ld z (rRow i)) zt

/-- One whole-buffer store covers the buffer. -/
theorem coverO (p0 : Vec F S400x10000 .f32) (y : S400x10000.Idx) :
    ∃ pc ∈ ([⟨rO, p0⟩] : List (View.Piece (Elt F) S400x10000 .f32)), y ∈ pc.1.set :=
  ⟨_, List.mem_singleton_self _, View.mem_set_unit_zero (S := S400x10000) zeros2 inb_S400x10000_S400x10000_0_0 y⟩
theorem coverT (p0 : Vec F S64x10000 .f32) (y : S64x10000.Idx) :
    ∃ pc ∈ ([⟨rT, p0⟩] : List (View.Piece (Elt F) S64x10000 .f32)), y ∈ pc.1.set :=
  ⟨_, List.mem_singleton_self _, View.mem_set_unit_zero (S := S64x10000) zeros2 inb_S64x10000_S64x10000_0_0 y⟩

/-! ## The body's triple, in its two cases -/

set_option maxHeartbeats 1000000 in
/-- LATER POINTS (the coordinate is not zero): the branch is skipped; the scratch is read and handed back as found. -/
theorem sound_kernel1_later (c : Dev nD) (E : Set ℕ) (i : grid1.Coords) (hi : ¬ cond1 i)
    (arg1 : Memref sig .tc .vmem S10000x64 .f32) (harg1 : arg1.IsWhole)
    (arg2 : Memref sig .tc .vmem S400x10000 .f32) (harg2 : arg2.IsWhole)
    (arg3 : Memref sig .tc .vmem S64x10000 .f32) (harg3 : arg3.IsWhole)
    (z : Vec F S10000x64 .f32) (zt : Vec F S64x10000 .f32) (K : PUnit → sProp 𝕄) :
    iprop(owns (c : Thread nD τ) arg1 fullShare z ∗ (∃ d, owns (c : Thread nD τ) arg2 fullShare d)
        ∗ owns (c : Thread nD τ) arg3 fullShare zt
        ∗ (iprop(owns (c : Thread nD τ) arg1 fullShare z ∗ owns (c : Thread nD τ) arg2 fullShare (out1_1 i z zt)
            ∗ owns (c : Thread nD τ) arg3 fullShare zt) -∗ K ⟨⟩))
      ⊢ wp frame (wpE (defs₀ (F := F)) Variants.none c none) E (cc1__decode_kernel i arg1 harg1 arg2 harg2 arg3 harg3) K := by
  simp only [cc1__decode_kernel_eq_skeleton]; unfold cc1__decode_kernel_skel
  unfold owns
  iintro ⟨⟨%f1, %hf1, H1⟩, ⟨%d2, %f2, -, H2⟩, ⟨%f3, %hf3, H3⟩, Hk⟩
  subst hf1; subst hf3
  sl_exec (disch := first | exact hi)
  sl_step
  iapply Hk
  isplitl [H1]
  · iexists f1; isplitr; · ipureintro; rfl
    iexact H1
  isplitl [H2]
  · iexists _; isplitr
    swap; · iexact H2
    ipureintro
    refine (View.read_writes_eq_canon _ _ _ (coverO _)).trans ?_
    rw [View.canon_unit_zero (S := S400x10000) zeros2 inb_S400x10000_S400x10000_0_0]
    unfold out1_1
    simp only [View.readAt_eq_ld, View.ld_unit_zero (S := S64x10000) zeros2]
  iexists f3; isplitr; · ipureintro; rfl
  iexact H3

set_option maxHeartbeats 1000000 in
/-- THE FIRST POINT (the coordinate is zero): the branch stores the transpose of z whole into the scratch, which the
    rest of the body then reads. -/
theorem sound_kernel1_first (c : Dev nD) (E : Set ℕ) (i : grid1.Coords) (hi : cond1 i)
    (arg1 : Memref sig .tc .vmem S10000x64 .f32) (harg1 : arg1.IsWhole)
    (arg2 : Memref sig .tc .vmem S400x10000 .f32) (harg2 : arg2.IsWhole)
    (arg3 : Memref sig .tc .vmem S64x10000 .f32) (harg3 : arg3.IsWhole)
    (z : Vec F S10000x64 .f32) (K : PUnit → sProp 𝕄) :
    iprop(owns (c : Thread nD τ) arg1 fullShare z ∗ (∃ d, owns (c : Thread nD τ) arg2 fullShare d)
        ∗ (∃ d, owns (c : Thread nD τ) arg3 fullShare d)
        ∗ (iprop(owns (c : Thread nD τ) arg1 fullShare z ∗ owns (c : Thread nD τ) arg2 fullShare (out1_1 i z (ztOf z))
            ∗ owns (c : Thread nD τ) arg3 fullShare (ztOf z)) -∗ K ⟨⟩))
      ⊢ wp frame (wpE (defs₀ (F := F)) Variants.none c none) E (cc1__decode_kernel i arg1 harg1 arg2 harg2 arg3 harg3) K := by
  simp only [cc1__decode_kernel_eq_skeleton]; unfold cc1__decode_kernel_skel
  unfold owns
  iintro ⟨⟨%f1, %hf1, H1⟩, ⟨%d2, %f2, -, H2⟩, ⟨%d3, %f3, -, H3⟩, Hk⟩
  subst hf1
  sl_exec (disch := first | exact hi)
  sl_step
  iapply Hk
  isplitl [H1]
  · iexists f1; isplitr; · ipureintro; rfl
    iexact H1
  isplitl [H2]
  · iexists _; isplitr
    swap; · iexact H2
    ipureintro
    refine (View.read_writes_eq_canon _ _ _ (coverO _)).trans ?_
    rw [View.canon_unit_zero (S := S400x10000) zeros2 inb_S400x10000_S400x10000_0_0]
    unfold out1_1 ztOf
    sl_unfold_run_names
    simp only [View.readCov_cons_toLoadRect, View.readAt_eq_ld, View.ld_unit_zero (S := S10000x64) zeros2]
  iexists _; isplitr
  swap; · iexact H3
  ipureintro
  refine (View.read_writes_eq_canon _ _ _ (coverT _)).trans ?_
  rw [View.canon_unit_zero (S := S64x10000) zeros2 inb_S64x10000_S64x10000_0_0]
  unfold ztOf
  sl_unfold_run_names
  simp only [View.readAt_eq_ld, View.ld_unit_zero (S := S10000x64) zeros2]

end Cert.Kernel.R1

end
-- ==== Proof.KB.Region1.lean ====
/-
  Pipeline 1's proof data. The scratch holds the transpose of z from the second point on: the first point stores it
  and no later point writes it. Window 0's block is the whole z array at every point; the output window is live and
  written back at every point, and the block the body leaves there at point t is 0.5·tanh(0.5·g) + 0.5 of the
  product g of z's rows 400·t … 400·t + 399 with the transpose of z.
-/
import proofs.«108190_g79602923864535_cont_9to1_m_41_30_alg».proof.Proof.KB.Region1Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block at every point, fetched there or not: unfetched, the block index
    has not moved since the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## Points -/

theorem N25 : cfg1.N = 25 := N_1

/-- The first point of the grid: where the transpose is stored. -/
def pt0 : Fin cfg1.N := ⟨0, lt_of_lt_of_eq (by omega : 0 < 25) N25.symm⟩

/-- What the scratch holds before point `n`: from the second point on, the transpose of the z block of the first. -/
def Inv (c : Dev nD) (n : ℕ) (zt : Vec F S64x10000 .f32) : Prop :=
  1 ≤ n → zt = ztOf (iblk1 V c 0 pt0)

theorem Inv_zero (c : Dev nD) (zt : Vec F S64x10000 .f32) : Inv V c 0 zt := fun h => by omega

/-! ## The invariant -/

abbrev scrT : Memref sig .tc .vmem S64x10000 .f32 := Memref.whole cc1_scratch0

/-- The scoped buffers of the other pipeline, each at some contents. -/
def restBufs (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The class invariant opened: the other pipeline's scoped buffers, the scratch at some contents, the generator register. -/
theorem PhiA1_open (c : Dev nD) :
    (Pipeline.ΦA spec1 c : sProp 𝕄) ⊢ iprop((restBufs c ∗ (∃ d, owns (c : Thread nD τ) scrT fullShare d)) ∗ (∃ r, prngReg c r)) := by
  unfold Pipeline.ΦA restBufs; rw [scopedRest1_eq]; simp only [scrT, owns_whole]
  iintro ⟨⟨R1, R2, R3, R4, R5, R6, R7, R8, R9, R10, R11, HS⟩, Hg⟩
  isplitl [R1 R2 R3 R4 R5 R6 R7 R8 R9 R10 R11 HS]
  · isplitl [R1 R2 R3 R4 R5 R6 R7 R8 R9 R10 R11]
    ·
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      iexact R11
    · iexact HS
  · iexact Hg

/-- and closed again. -/
theorem PhiA1_close (c : Dev nD) :
    iprop((restBufs c ∗ (∃ d, owns (c : Thread nD τ) scrT fullShare d)) ∗ (∃ r, prngReg c r)) ⊢ (Pipeline.ΦA spec1 c : sProp 𝕄) := by
  unfold Pipeline.ΦA restBufs; rw [scopedRest1_eq]; simp only [scrT, owns_whole]
  iintro ⟨⟨⟨R1, R2, R3, R4, R5, R6, R7, R8, R9, R10, R11⟩, HS⟩, Hg⟩
  isplitl [R1 R2 R3 R4 R5 R6 R7 R8 R9 R10 R11 HS]
  ·
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    iexact HS
  · iexact Hg

/-- Before point `n`: the scratch at contents satisfying `Inv n`, the other scoped buffers and the generator register as they are. -/
def Phi (c : Dev nD) (n : ℕ) : sProp 𝕄 :=
  iprop((restBufs c ∗ (∃ zt, ⌜Inv V c n zt⌝ ∗ owns (c : Thread nD τ) scrT fullShare zt)) ∗ (∃ r, prngReg c r))

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (grid1.coords t) (iblk1 V c 0 t) (ztOf (iblk1 V c 0 pt0))
  Φ t := Phi V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1_out (c : Dev nD) (t : Fin cfg1.N) :
    (dat1 V c).after 1 t = out1_1 (grid1.coords t) (iblk1 V c 0 t) (ztOf (iblk1 V c 0 pt0)) := by dsimp only [dat1]
/-- The output block at point `t`, as the body's arithmetic over the point's 400 rows of z and the transpose of z. -/
theorem after1_1 (c : Dev nD) (t : Fin cfg1.N) :
    (dat1 V c).after 1 t = k1_pay2 (View.ld (iblk1 V c 0 t) (rRow (grid1.coords t))) (k1_pay1 (iblk1 V c 0 pt0)) := by
  rw [after1_1_out]; unfold out1_1 ztOf; rfl

theorem before1_0 (c : Dev nD) (t : Fin cfg1.N) (d) : (dat1 V c).before 0 t d = iblk1 V c 0 t :=
  before1_0_of V (dat1 V c) (A_eq1 V c 0) (after1_0 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

set_option maxHeartbeats 4000000 in
/-- The body at any point: the input's memref holds the z block; at the first point the scratch is handed over at
    anything and taken back at the transpose; at a later point it is handed over at the transpose and taken back so. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl,
    show (dat1 V c).Φ t.succ = Phi V c (t.val + 1) from rfl, show (dat1 V c).Φ t.castSucc = Phi V c t.val from rfl,
    after1_0, after1_1_out]
  unfold Phi
  by_cases h0 : t.val = 0
  · have hc : cond1 (grid1.coords t) := (hcond1 t).mpr h0
    obtain rfl : t = pt0 := Fin.ext h0
    iintro ⟨⟨⟨Hrest, ⟨%zt, -, HS⟩⟩, Hg⟩, Ho, ⟨%d0, H0⟩, ⟨%d1, H1⟩⟩
    iapply (sound_kernel1_first c Set.univ (grid1.coords pt0) hc _ _ _ _ _ _ (iblk1 V c 0 pt0) _)
    isplitl [H0]; · iexact H0
    isplitl [H1]; · iexists _; iexact H1
    isplitl [HS]; · iexists _; iexact HS
    iintro ⟨H0, H1, HS⟩
    isplitl [Hrest HS Hg]
    · isplitl [Hrest HS]
      · isplitl [Hrest]; · iexact Hrest
        iexists _; isplitr
        · ipureintro; exact fun _ => rfl
        · iexact HS
      · iexact Hg
    isplitl [Ho]; · iexact Ho
    isplitl [H0]; · iexact H0
    iexact H1
  · have hc : ¬ cond1 (grid1.coords t) := fun h => h0 ((hcond1 t).mp h)
    iintro ⟨⟨⟨Hrest, ⟨%zt, %hI, HS⟩⟩, Hg⟩, Ho, ⟨%d0, H0⟩, ⟨%d1, H1⟩⟩
    have hzt : zt = ztOf (iblk1 V c 0 pt0) := hI (by omega)
    subst hzt
    iapply (sound_kernel1_later c Set.univ (grid1.coords t) hc _ _ _ _ _ _ (iblk1 V c 0 t) (ztOf (iblk1 V c 0 pt0)) _)
    isplitl [H0]; · iexact H0
    isplitl [H1]; · iexists _; iexact H1
    isplitl [HS]; · iexact HS
    iintro ⟨H0, H1, HS⟩
    isplitl [Hrest HS Hg]
    · isplitl [Hrest HS]
      · isplitl [Hrest]; · iexact Hrest
        iexists _; isplitr
        · ipureintro; exact fun _ => rfl
        · iexact HS
      · iexact Hg
    isplitl [Ho]; · iexact Ho
    isplitl [H0]; · iexact H0
    iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point: nothing is yet known of the scratch. -/
theorem hin1 (c : Dev nD) : Pipeline.ΦA spec1 c ⊢ (dat1 V c).Φ 0 := by
  rw [show (dat1 V c).Φ 0 = Phi V c 0 from rfl]; unfold Phi
  refine (PhiA1_open c).trans ?_
  iintro ⟨⟨Hrest, ⟨%d, HS⟩⟩, Hg⟩
  isplitl [Hrest HS]
  · isplitl [Hrest]; · iexact Hrest
    iexists d; isplitr
    · ipureintro; exact Inv_zero V c d
    · iexact HS
  · iexact Hg

/-- After the last point the invariant gives the scoped buffers back, the scratch's contents forgotten. -/
theorem hout1 (c : Dev nD) : (dat1 V c).Φ (Fin.last cfg1.N) ⊢ Pipeline.ΦA spec1 c := by
  rw [show (dat1 V c).Φ (Fin.last cfg1.N) = Phi V c (Fin.last cfg1.N).val from rfl]; unfold Phi
  refine BIBase.Entails.trans ?_ (PhiA1_close c)
  iintro ⟨⟨Hrest, ⟨%zt, -, HS⟩⟩, Hg⟩
  isplitl [Hrest HS]
  · isplitl [Hrest]; · iexact Hrest
    iexists _; iexact HS
  · iexact Hg

end Cert.Kernel.R1

end
-- ==== Proof.KB.Run.lean ====
/-
  The whole run. @main is two host reshapes, pipeline 0, pipeline 1. Between them every unscoped buffer is held whole
  at contents named by a fold from the launch memory: after the reshapes; then with pipeline 0's arrays at what its
  write-backs leave; then with pipeline 1's. Every weakly fair execution ends with each unscoped buffer at the last
  of these contents.
-/
import proofs.«108190_g79602923864535_cont_9to1_m_41_30_alg».proof.Proof.KB.R0Obl
import proofs.«108190_g79602923864535_cont_9to1_m_41_30_alg».proof.Proof.KB.Region1

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the two reshapes (pipeline 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At pipeline 0's exit: its arrays at what the write-backs leave, every other buffer as entered. -/
def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At pipeline 1's exit: its arrays at what the write-backs leave, every other buffer as entered. -/
def W3 (c : Dev nD) : Valuation τ sig (Elt F) :=
  Pipeline.withArrays spec1 c (W2 m ρ c) fun w => (R1.dat1 (V2 m ρ) c).arrAt w cfg1.N
theorem W3_arr (c : Dev nD) (w : Fin cfg1.W) :
    W3 m ρ c (Proc.devRef .tc (Pipeline.arrRef spec1 w)) = (R1.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (R1.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostFresh0 : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-- The generator register and the scoped buffers make the class invariant (whatever else is handed over is dropped), -/
theorem toPhiA0 (c : Dev nD) (P : sProp 𝕄) :
    iprop((∃ r, prngReg c r) ∗ P ∗ Pipeline.scopedRest (Ix := Unit) (Name := ℕ) (U := UR sig nD τ) (Lvl := ℕ) (Val := Elt F) spec0 c) ⊢ (Pipeline.ΦA spec0 c : sProp 𝕄) := by
  unfold Pipeline.ΦA
  iintro ⟨Hp, -, Hr⟩
  isplitl [Hr]; · iexact Hr
  iexact Hp
/-- and the class invariant gives them back. -/
theorem ofPhiA0 (c : Dev nD) :
    (Pipeline.ΦA spec0 c : sProp 𝕄) ⊢ iprop((∃ r, prngReg c r) ∗ BI.emp ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr
theorem toPhiA1 (c : Dev nD) (P : sProp 𝕄) :
    iprop((∃ r, prngReg c r) ∗ P ∗ Pipeline.scopedRest (Ix := Unit) (Name := ℕ) (U := UR sig nD τ) (Lvl := ℕ) (Val := Elt F) spec1 c) ⊢ (Pipeline.ΦA spec1 c : sProp 𝕄) := by
  unfold Pipeline.ΦA
  iintro ⟨Hp, -, Hr⟩
  isplitl [Hr]; · iexact Hr
  iexact Hp
theorem ofPhiA1 (c : Dev nD) :
    (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

/-! ## The regions as segments -/

set_option backward.isDefEq.respectTransparency.types false in
/-- Pipeline 0 over the thread state: its arrays split out of the unscoped buffers on entry and put back at what the
    write-backs leave on exit; the generator register and the scoped buffers into the invariant and out; nothing owed;
    no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA0 c _).trans (R0.hin0 (V1 m ρ) c)
  hout c := by
    rw [Pipeline.ownSems0_none]
    exact (R0.hout0 (V1 m ρ) c).trans (ofPhiA0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 over the thread state: its arrays split out of the unscoped buffers on entry and put back at what the
    write-backs leave on exit; the generator register and the scoped buffers into the invariant and out; nothing owed;
    no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA1 c _).trans (R1.hin1 (V2 m ρ) c)
  hout c := by
    rw [Pipeline.ownSems0_none]
    exact (R1.hout1 (V2 m ρ) c).trans (ofPhiA1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostFresh0 (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.Kernel.Run
end
-- ==== Proof.KB.RunArgs.lean ====
/-
  The arguments at the end of the run: no reshape writes one, pipeline 0 only reads them through input windows (or
  not at all), pipeline 1 does not touch them; so the last boundary's contents at an argument are the launch memory's.
-/
import proofs.«108190_g79602923864535_cont_9to1_m_41_30_alg».proof.Proof.KB.Run

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 1).trans (((R0.dat0 (V1 m ρ) c).arrAt_in 1 rfl _).trans (R0.A_eq0 (V1 m ρ) c 1))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((R0.dat0 (V1 m ρ) c).arrAt_in 0 rfl _).trans (R0.A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((R0.dat0 (V1 m ρ) c).arrAt_in 2 rfl _).trans (R0.A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 4).trans (((R0.dat0 (V1 m ρ) c).arrAt_in 4 rfl _).trans (R0.A_eq0 (V1 m ρ) c 4))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- THE FRAME: every weakly fair execution terminates, nothing faulting, with the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

end Cert.Kernel.Run
end
-- ==== Proof.KI.R0Body.lean ====
/-
  Pipeline 0's body, case by case. The body is four guarded blocks over the grid point (p, i):
  p = 0 stores rows 400·i … 400·i+399 of the hidden-layer product into the first scratch; (p, i) = (0, 1) also
  copies the adjacency stripe it holds into the second scratch; p = 1, i ≠ 23 stores the output block from the
  staged stripe; (p, i) = (1, 23) stores it from the copied stripe. Each case is run once on arbitrary whole
  memrefs, the contents it reads as variables, and states what every buffer it touches holds afterwards.
-/
import proofs.«108190_g79602923864535_cont_9to1_m_41_30_alg».proof.Proof.Gen.KernelIdeal.Launch
import proofs.«108190_g79602923864535_cont_9to1_m_41_30_alg».proof.Proof.Gen.KernelIdeal.Skeleton
import proofs.«108190_g79602923864535_cont_9to1_m_41_30_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The second conditional's test, as the body computes it from the grid coordinates: p = 0 and i = 1. -/
abbrev cond2 (i : grid0.Coords) : BitVec 1 :=
  Scalar.cmpi .ne (Scalar.extui (Scalar.andi (Scalar.cmpi .eq (BitVec.ofNat 32 (i 0).val) 0#32) (Scalar.cmpi .eq (BitVec.ofNat 32 (i 1).val) 1#32))) 0#32

/-- The 400 rows of the first scratch that the point stores into. -/
abbrev sliceR (i : grid0.Coords) (h1 : k0_cond1 i = 1#1) : Rect S10000x64 :=
  Rect.unit (s := S10000x64) (k0_off1 i) S400x64.size (k0_off1_inb i h1)

/-- One store through a rectangle reads back as the old contents with the rectangle's part replaced. -/
theorem read_store_overlay {sp : Space} {s : Shape} {e : EltTy} (v : View sig .tc sp s e) (f : v.ty.Contents (Elt F)) (r : Rect s)
    (w : r.shape.Idx → Elt F e) :
    v.read (Elt F) (v.writes (Elt F) f [⟨r, w⟩]) = r.overlay (v.read (Elt F) f) w := by
  funext y
  by_cases hy : y ∈ r.set
  · obtain ⟨x, rfl⟩ := r.exists_idx_of_mem hy
    rw [show r.idx x = r.emb x from rfl, View.read_writes_cons_emb, Rect.overlay_emb]
  · rw [View.read_writes_apply_of_forall_not_mem v f y _ (fun p hp => by
      rw [List.mem_singleton] at hp; subst hp; exact hy), Rect.overlay_of_not_mem _ _ _ hy]

theorem hz2 : (![0, 0] : Fin 2 → Nat) = fun _ => 0 := by funext a; fin_cases a <;> rfl

/-- One store through the whole buffer reads back as its payload. -/
theorem read_store_whole {sp : Space} {S : Shape} {e : EltTy} (v : View sig .tc sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero h inb y⟩), View.canon_unit_zero h inb]

set_option maxHeartbeats 4000000 in
/-- p = 0, i ≠ 1: the hidden-layer rows of this stripe go into the first scratch; nothing else changes. -/
theorem run_rows (c : Dev nD) (E : Set ℕ) (i : grid0.Coords)
    (arg2 : Memref sig .tc .vmem S400x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x64 .f32) (harg6 : arg6.IsWhole) (arg7 : Memref sig .tc .vmem S1x64 .f32) (harg7 : arg7.IsWhole)
    (arg8 : Memref sig .tc .vmem S400x64 .f32) (harg8 : arg8.IsWhole) (arg9 : Memref sig .tc .vmem S10000x64 .f32) (harg9 : arg9.IsWhole)
    (arg10 : Memref sig .tc .vmem S400x10000 .f32) (harg10 : arg10.IsWhole)
    (hc1 : k0_cond1 i = 1#1) (hc2 : ¬ cond2 i = 1#1) (hc3 : ¬ k0_cond3 i = 1#1) (hc4 : ¬ k0_cond4 i = 1#1)
    (a : Vec F S400x10000 .f32) (x : Vec F S10000x128 .f32) (w1 : Vec F S128x128 .f32) (b1 : Vec F S1x128 .f32) (w2 : Vec F S128x64 .f32)
    (s : Vec F S10000x64 .f32) (K : PUnit → sProp 𝕄) :
    iprop(owns (c : Thread nD τ) arg2 fullShare a ∗ owns (c : Thread nD τ) arg3 fullShare x ∗ owns (c : Thread nD τ) arg4 fullShare w1 ∗ owns (c : Thread nD τ) arg5 fullShare b1 ∗ owns (c : Thread nD τ) arg6 fullShare w2 ∗ owns (c : Thread nD τ) arg9 fullShare s
        ∗ (iprop(owns (c : Thread nD τ) arg2 fullShare a ∗ owns (c : Thread nD τ) arg3 fullShare x ∗ owns (c : Thread nD τ) arg4 fullShare w1 ∗ owns (c : Thread nD τ) arg5 fullShare b1 ∗ owns (c : Thread nD τ) arg6 fullShare w2
            ∗ owns (c : Thread nD τ) arg9 fullShare ((sliceR i hc1).overlay s (k0_pay1 a x w1 b1 w2))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%f9, %hf9, H9⟩, Hk⟩
  subst hf2; subst hf3; subst hf4; subst hf5; subst hf6; subst hf9
  sl_exec (disch := first | exact hc1 | exact hc2 | exact hc3 | exact hc4)
  sl_step
  iapply Hk
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [H6]
  · iexists _; isplitr
    · ipureintro; rfl
    · iexact H6
  iexists _; isplitr
  swap; · iexact H9
  ipureintro
  rw [read_store_overlay]
  simp only [View.readAt_eq_ld, View.ld_unit_zero (S := S400x10000) hz2, View.ld_unit_zero (S := S10000x128) hz2,
    View.ld_unit_zero (S := S128x128) hz2, View.ld_unit_zero (S := S1x128) hz2, View.ld_unit_zero (S := S128x64) hz2,
    View.ld_unit_zero (S := S10000x64) hz2, View.ld_unit_zero (S := S1x64) hz2, View.ld_unit_zero (S := S400x64) hz2]

set_option maxHeartbeats 4000000 in
/-- (p, i) = (0, 1): as above, and the staged adjacency stripe is copied into the second scratch. -/
theorem run_rows_copy (c : Dev nD) (E : Set ℕ) (i : grid0.Coords)
    (arg2 : Memref sig .tc .vmem S400x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x64 .f32) (harg6 : arg6.IsWhole) (arg7 : Memref sig .tc .vmem S1x64 .f32) (harg7 : arg7.IsWhole)
    (arg8 : Memref sig .tc .vmem S400x64 .f32) (harg8 : arg8.IsWhole) (arg9 : Memref sig .tc .vmem S10000x64 .f32) (harg9 : arg9.IsWhole)
    (arg10 : Memref sig .tc .vmem S400x10000 .f32) (harg10 : arg10.IsWhole)
    (hc1 : k0_cond1 i = 1#1) (hc2 : cond2 i = 1#1) (hc3 : ¬ k0_cond3 i = 1#1) (hc4 : ¬ k0_cond4 i = 1#1)
    (a : Vec F S400x10000 .f32) (x : Vec F S10000x128 .f32) (w1 : Vec F S128x128 .f32) (b1 : Vec F S1x128 .f32) (w2 : Vec F S128x64 .f32)
    (s : Vec F S10000x64 .f32) (K : PUnit → sProp 𝕄) :
    iprop(owns (c : Thread nD τ) arg2 fullShare a ∗ owns (c : Thread nD τ) arg3 fullShare x ∗ owns (c : Thread nD τ) arg4 fullShare w1 ∗ owns (c : Thread nD τ) arg5 fullShare b1 ∗ owns (c : Thread nD τ) arg6 fullShare w2 ∗ owns (c : Thread nD τ) arg9 fullShare s
        ∗ (∃ d, owns (c : Thread nD τ) arg10 fullShare d)
        ∗ (iprop(owns (c : Thread nD τ) arg2 fullShare a ∗ owns (c : Thread nD τ) arg3 fullShare x ∗ owns (c : Thread nD τ) arg4 fullShare w1 ∗ owns (c : Thread nD τ) arg5 fullShare b1 ∗ owns (c : Thread nD τ) arg6 fullShare w2
            ∗ owns (c : Thread nD τ) arg9 fullShare ((sliceR i hc1).overlay s (k0_pay1 a x w1 b1 w2)) ∗ owns (c : Thread nD τ) arg10 fullShare (k0_pay2 a)) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%f9, %hf9, H9⟩, ⟨%d10, %f10, -, H10⟩, Hk⟩
  subst hf2; subst hf3; subst hf4; subst hf5; subst hf6; subst hf9
  sl_exec (disch := first | exact hc1 | exact hc2 | exact hc3 | exact hc4)
  sl_step
  iapply Hk
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [H6]
  · iexists _; isplitr
    · ipureintro; rfl
    · iexact H6
  isplitl [H9]
  · iexists _; isplitr
    swap; · iexact H9
    ipureintro
    rw [read_store_overlay]
    simp only [View.readAt_eq_ld, View.ld_unit_zero (S := S400x10000) hz2, View.ld_unit_zero (S := S10000x128) hz2,
    View.ld_unit_zero (S := S128x128) hz2, View.ld_unit_zero (S := S1x128) hz2, View.ld_unit_zero (S := S128x64) hz2,
    View.ld_unit_zero (S := S10000x64) hz2, View.ld_unit_zero (S := S1x64) hz2, View.ld_unit_zero (S := S400x64) hz2]
  iexists _; isplitr
  swap; · iexact H10
  ipureintro
  rw [read_store_whole _ _ hz2]
  simp only [View.readAt_eq_ld, View.ld_unit_zero (S := S400x10000) hz2, View.ld_unit_zero (S := S10000x128) hz2,
    View.ld_unit_zero (S := S128x128) hz2, View.ld_unit_zero (S := S1x128) hz2, View.ld_unit_zero (S := S128x64) hz2,
    View.ld_unit_zero (S := S10000x64) hz2, View.ld_unit_zero (S := S1x64) hz2, View.ld_unit_zero (S := S400x64) hz2]

set_option maxHeartbeats 4000000 in
/-- p = 1, i ≠ 23: the output block is the staged stripe against the whole first scratch, plus the bias row. -/
theorem run_out (c : Dev nD) (E : Set ℕ) (i : grid0.Coords)
    (arg2 : Memref sig .tc .vmem S400x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x64 .f32) (harg6 : arg6.IsWhole) (arg7 : Memref sig .tc .vmem S1x64 .f32) (harg7 : arg7.IsWhole)
    (arg8 : Memref sig .tc .vmem S400x64 .f32) (harg8 : arg8.IsWhole) (arg9 : Memref sig .tc .vmem S10000x64 .f32) (harg9 : arg9.IsWhole)
    (arg10 : Memref sig .tc .vmem S400x10000 .f32) (harg10 : arg10.IsWhole)
    (hc1 : ¬ k0_cond1 i = 1#1) (hc2 : ¬ cond2 i = 1#1) (hc3 : k0_cond3 i = 1#1) (hc4 : ¬ k0_cond4 i = 1#1)
    (a : Vec F S400x10000 .f32) (b2 : Vec F S1x64 .f32) (s2 : Vec F S10000x64 .f32) (K : PUnit → sProp 𝕄) :
    iprop(owns (c : Thread nD τ) arg2 fullShare a ∗ owns (c : Thread nD τ) arg7 fullShare b2 ∗ owns (c : Thread nD τ) arg9 fullShare s2 ∗ (∃ d, owns (c : Thread nD τ) arg8 fullShare d)
        ∗ (iprop(owns (c : Thread nD τ) arg2 fullShare a ∗ owns (c : Thread nD τ) arg7 fullShare b2 ∗ owns (c : Thread nD τ) arg9 fullShare s2 ∗ owns (c : Thread nD τ) arg8 fullShare (k0_pay3 a s2 b2)) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f2, %hf2, H2⟩, ⟨%f7, %hf7, H7⟩, ⟨%f9, %hf9, H9⟩, ⟨%d8, %f8, -, H8⟩, Hk⟩
  subst hf2; subst hf7; subst hf9
  sl_exec (disch := first | exact hc1 | exact hc2 | exact hc3 | exact hc4)
  sl_step
  iapply Hk
  isplitl [H2]
  · iexists _; isplitr
    · ipureintro; rfl
    · iexact H2
  isplitl [H7]
  · iexists _; isplitr
    · ipureintro; rfl
    · iexact H7
  isplitl [H9]
  · iexists _; isplitr
    · ipureintro; rfl
    · iexact H9
  iexists _; isplitr
  swap; · iexact H8
  ipureintro
  rw [read_store_whole _ _ hz2]
  simp only [View.readAt_eq_ld, View.ld_unit_zero (S := S400x10000) hz2, View.ld_unit_zero (S := S10000x128) hz2,
    View.ld_unit_zero (S := S128x128) hz2, View.ld_unit_zero (S := S1x128) hz2, View.ld_unit_zero (S := S128x64) hz2,
    View.ld_unit_zero (S := S10000x64) hz2, View.ld_unit_zero (S := S1x64) hz2, View.ld_unit_zero (S := S400x64) hz2]

set_option maxHeartbeats 4000000 in
/-- (p, i) = (1, 23): the same from the stripe copied into the second scratch. -/
theorem run_out_copy (c : Dev nD) (E : Set ℕ) (i : grid0.Coords)
    (arg2 : Memref sig .tc .vmem S400x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x64 .f32) (harg6 : arg6.IsWhole) (arg7 : Memref sig .tc .vmem S1x64 .f32) (harg7 : arg7.IsWhole)
    (arg8 : Memref sig .tc .vmem S400x64 .f32) (harg8 : arg8.IsWhole) (arg9 : Memref sig .tc .vmem S10000x64 .f32) (harg9 : arg9.IsWhole)
    (arg10 : Memref sig .tc .vmem S400x10000 .f32) (harg10 : arg10.IsWhole)
    (hc1 : ¬ k0_cond1 i = 1#1) (hc2 : ¬ cond2 i = 1#1) (hc3 : ¬ k0_cond3 i = 1#1) (hc4 : k0_cond4 i = 1#1)
    (a : Vec F S400x10000 .f32) (b2 : Vec F S1x64 .f32) (s2 : Vec F S10000x64 .f32) (K : PUnit → sProp 𝕄) :
    iprop(owns (c : Thread nD τ) arg10 fullShare a ∗ owns (c : Thread nD τ) arg7 fullShare b2 ∗ owns (c : Thread nD τ) arg9 fullShare s2 ∗ (∃ d, owns (c : Thread nD τ) arg8 fullShare d)
        ∗ (iprop(owns (c : Thread nD τ) arg10 fullShare a ∗ owns (c : Thread nD τ) arg7 fullShare b2 ∗ owns (c : Thread nD τ) arg9 fullShare s2 ∗ owns (c : Thread nD τ) arg8 fullShare (k0_pay4 a s2 b2)) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f10, %hf10, H10⟩, ⟨%f7, %hf7, H7⟩, ⟨%f9, %hf9, H9⟩, ⟨%d8, %f8, -, H8⟩, Hk⟩
  subst hf10; subst hf7; subst hf9
  sl_exec (disch := first | exact hc1 | exact hc2 | exact hc3 | exact hc4)
  sl_step
  iapply Hk
  isplitl [H10]
  · iexists _; isplitr
    · ipureintro; rfl
    · iexact H10
  isplitl [H7]
  · iexists _; isplitr
    · ipureintro; rfl
    · iexact H7
  isplitl [H9]
  · iexists _; isplitr
    · ipureintro; rfl
    · iexact H9
  iexists _; isplitr
  swap; · iexact H8
  ipureintro
  rw [read_store_whole _ _ hz2]
  simp only [View.readAt_eq_ld, View.ld_unit_zero (S := S400x10000) hz2, View.ld_unit_zero (S := S10000x128) hz2,
    View.ld_unit_zero (S := S128x128) hz2, View.ld_unit_zero (S := S1x128) hz2, View.ld_unit_zero (S := S128x64) hz2,
    View.ld_unit_zero (S := S10000x64) hz2, View.ld_unit_zero (S := S1x64) hz2, View.ld_unit_zero (S := S400x64) hz2]

end Cert.KernelIdeal.R0
end
-- ==== Proof.KI.R0Dat.lean ====
/-
  Pipeline 0's proof data. The first scratch is filled 400 rows per point during the first phase, so after n points
  its rows below 400·min(n, 25) are the hidden-layer product's and the rest is whatever the scratch held; the second
  scratch holds adjacency stripe 1 from the third point on. The output window is idle through the first phase and
  live through the second, where each point stores one block of the result.
-/
import proofs.«108190_g79602923864535_cont_9to1_m_41_30_alg».proof.Proof.KI.R0Body
import Idealize.ShloMosaic.Lib.ValueIdx

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not: unfetched, the block index
    has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## Points and rows -/

theorem N50 : cfg0.N = 50 := N_0

/-- The second point of the grid, (p, i) = (0, 1): where adjacency stripe 1 is staged and copied. -/
def pt1 : Fin cfg0.N := ⟨1, lt_of_lt_of_eq (by omega : 1 < 50) N50.symm⟩

/-- The point of the first phase that computes row `y 0` of the scratch: its stripe. -/
def rowPt (y : S10000x64.Idx) : Fin cfg0.N :=
  ⟨(y 0).val / 400, lt_of_lt_of_eq (by have := idx2_lt0 y; omega) N50.symm⟩

/-- The index of row `y 0` within its stripe. -/
def loc400 (y : S10000x64.Idx) : S400x64.Idx :=
  ix2 (⟨(y 0).val % 400, Nat.mod_lt _ (by omega)⟩ : Fin 400) (⟨(y 1).val, idx2_lt1 y⟩ : Fin 64)

/-- The first scratch once the first phase is over: row by row the hidden-layer product of the row's stripe. -/
def s2full (c : Dev nD) : Vec F S10000x64 .f32 := fun y =>
  k0_pay1 (iblk0 V c 0 (rowPt y)) (iblk0 V c 1 (rowPt y)) (iblk0 V c 2 (rowPt y)) (iblk0 V c 3 (rowPt y)) (iblk0 V c 4 (rowPt y)) (loc400 y)

/-- What the two scratch buffers hold before point `n`. -/
def Inv (c : Dev nD) (n : ℕ) (s : Vec F S10000x64 .f32) (cch : Vec F S400x10000 .f32) : Prop :=
  (∀ y : S10000x64.Idx, (y 0).val < 400 * min n 25 → s y = s2full V c y) ∧ (2 ≤ n → cch = k0_pay2 (iblk0 V c 0 pt1))

theorem Inv_zero (c : Dev nD) (s : Vec F S10000x64 .f32) (cch : Vec F S400x10000 .f32) : Inv V c 0 s cch :=
  ⟨fun y h => by simp at h, fun h => by omega⟩

/-- The adjacency stripe the output block at `t` is computed from: the staged one, or at (1, 23) the copy. -/
def srcA (c : Dev nD) (t : Fin cfg0.N) : Vec F S400x10000 .f32 :=
  if t.val = 48 then k0_pay2 (iblk0 V c 0 pt1) else iblk0 V c 0 t

/-- The output block a point of the second phase stores. -/
def zblk (c : Dev nD) (t : Fin cfg0.N) : Vec F S400x64 .f32 :=
  k0_pay3 (srcA V c t) (s2full V c) (iblk0 V c 5 t)

/-! ## The invariant -/

abbrev scr0 : Memref sig .tc .vmem S10000x64 .f32 := Memref.whole cc0_scratch0
abbrev scr1 : Memref sig .tc .vmem S400x10000 .f32 := Memref.whole cc0_scratch1

/-- The scoped buffers of the other pipeline, each at some contents. -/
def restBufs (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(((∃ d, owns (c : Thread nD τ) scr0 fullShare d) ∗ (∃ d, owns (c : Thread nD τ) scr1 fullShare d) ∗ restBufs c) ∗ (∃ r, prngReg c r)) := by
  unfold Pipeline.ΦA restBufs; rw [scopedRest0_eq]; simp only [scr0, scr1, owns_whole]; try rfl

/-- Before point `n`: the two scratch buffers at contents satisfying `Inv n`, the other scoped buffers and the generator register as they are. -/
def Phi (c : Dev nD) (n : ℕ) : sProp 𝕄 :=
  iprop(((∃ s cch, ⌜Inv V c n s cch⌝ ∗ owns (c : Thread nD τ) scr0 fullShare s ∗ owns (c : Thread nD τ) scr1 fullShare cch) ∗ restBufs c) ∗ (∃ r, prngReg c r))

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => zblk V c t
  Φ t := Phi V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = zblk V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The grid: which case a point is in, where it stores, when the output window is idle -/

theorem hcond1 : ∀ t : Fin cfg0.N, k0_cond1 (grid0.coords t) = 1#1 ↔ t.val < 25 :=
  (by decide +kernel : ∀ t : Fin grid0.N, k0_cond1 (grid0.coords t) = 1#1 ↔ t.val < 25)
theorem hcond2 : ∀ t : Fin cfg0.N, cond2 (grid0.coords t) = 1#1 ↔ t.val = 1 :=
  (by decide +kernel : ∀ t : Fin grid0.N, cond2 (grid0.coords t) = 1#1 ↔ t.val = 1)
theorem hcond3 : ∀ t : Fin cfg0.N, k0_cond3 (grid0.coords t) = 1#1 ↔ (25 ≤ t.val ∧ t.val ≠ 48) :=
  (by decide +kernel : ∀ t : Fin grid0.N, k0_cond3 (grid0.coords t) = 1#1 ↔ (25 ≤ t.val ∧ t.val ≠ 48))
theorem hcond4 : ∀ t : Fin cfg0.N, k0_cond4 (grid0.coords t) = 1#1 ↔ t.val = 48 :=
  (by decide +kernel : ∀ t : Fin grid0.N, k0_cond4 (grid0.coords t) = 1#1 ↔ t.val = 48)
theorem hoff : ∀ t : Fin cfg0.N, t.val < 25 → k0_off1 (grid0.coords t) 0 = 400 * t.val ∧ k0_off1 (grid0.coords t) 1 = 0 :=
  (by decide +kernel : ∀ t : Fin grid0.N, t.val < 25 → k0_off1 (grid0.coords t) 0 = 400 * t.val ∧ k0_off1 (grid0.coords t) 1 = 0)
theorem idle6 : ∀ t : Fin cfg0.N, t.val < 25 → cfg0.idle 6 (grid0.coords t) = true :=
  (by decide +kernel : ∀ t : Fin grid0.N, t.val < 25 → cfg0.idle 6 (grid0.coords t) = true)
theorem live6 : ∀ t : Fin cfg0.N, 25 ≤ t.val → cfg0.idle 6 (grid0.coords t) = false :=
  (by decide +kernel : ∀ t : Fin grid0.N, 25 ≤ t.val → cfg0.idle 6 (grid0.coords t) = false)
theorem noflush6 : ∀ t : Fin cfg0.N, t.val < 25 → (cfg0.win 6).flush t = false :=
  (by decide +kernel : ∀ t : Fin grid0.N, t.val < 25 → win0_6.flush t = false)

end Cert.KernelIdeal.R0
end
-- ==== Proof.KI.R0Inv.lean ====
/-
  How the scratch invariant moves from one point to the next. Storing stripe t's 400 rows turns "rows below 400·t are
  right" into "rows below 400·(t+1) are right": a row of the new stripe reads the stored payload at its index within the
  stripe, a row below it reads what was there. The second phase stores into neither scratch.
-/
import proofs.«108190_g79602923864535_cont_9to1_m_41_30_alg».proof.Proof.KI.R0Dat
import Idealize.ShloMosaic.Lib.ValueIdx

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The stripe's store, read at a row: the payload inside rows 400·t … 400·t+399, the old contents elsewhere. -/
theorem overlay_rows (t : Fin cfg0.N) (hA : t.val < 25) (h1c : k0_cond1 (grid0.coords t) = 1#1)
    (s : Vec F S10000x64 .f32) (pay : Vec F S400x64 .f32) (y : S10000x64.Idx) :
    (sliceR (grid0.coords t) h1c).overlay s pay y
      = if 400 * t.val ≤ (y 0).val ∧ (y 0).val < 400 * t.val + 400 then pay (loc400 y) else s y := by
  obtain ⟨ho0, ho1⟩ := hoff t hA
  have hy1 := idx2_lt1 y
  by_cases hy : 400 * t.val ≤ (y 0).val ∧ (y 0).val < 400 * t.val + 400
  · rw [if_pos hy]
    have hmem : y ∈ (sliceR (grid0.coords t) h1c).set := by
      rw [Rect.mem_set_unit]
      show ∀ a : Fin 2, k0_off1 (grid0.coords t) a ≤ (y a).val ∧ (y a).val < k0_off1 (grid0.coords t) a + S400x64.size a
      refine Fin.forall_fin_two.mpr ⟨⟨?_, ?_⟩, ⟨?_, ?_⟩⟩
      · rw [ho0]; exact hy.1
      · rw [ho0]; exact hy.2
      · rw [ho1]; exact Nat.zero_le _
      · rw [ho1]; show (y 1).val < 0 + 64; omega
    obtain ⟨x, hx⟩ := (sliceR (grid0.coords t) h1c).exists_idx_of_mem hmem
    subst hx
    rw [show (sliceR (grid0.coords t) h1c).idx x = (sliceR (grid0.coords t) h1c).emb x from rfl, Rect.overlay_emb]
    refine congrArg pay ?_
    funext a
    match a with
    | ⟨0, _⟩ =>
      apply Fin.ext
      show (x 0).val = (k0_off1 (grid0.coords t) 0 + 1 * (x 0).val) % 400
      have := (x 0).isLt
      have h400 : (x 0).val < 400 := this
      rw [ho0]; omega
    | ⟨1, _⟩ =>
      apply Fin.ext
      show (x 1).val = k0_off1 (grid0.coords t) 1 + 1 * (x 1).val
      rw [ho1]; omega
  · rw [if_neg hy]
    refine Rect.overlay_of_not_mem _ _ _ (fun hm => hy ?_)
    rw [Rect.mem_set_unit] at hm
    have h0 := hm 0
    rw [ho0] at h0
    exact ⟨h0.1, h0.2⟩

/-- A row of stripe `t` is computed at point `t`. -/
theorem rowPt_eq (t : Fin cfg0.N) (y : S10000x64.Idx) (h : 400 * t.val ≤ (y 0).val ∧ (y 0).val < 400 * t.val + 400) : rowPt y = t :=
  Fin.ext (by show (y 0).val / 400 = t.val; omega)

theorem Inv_step_rows (c : Dev nD) (t : Fin cfg0.N) (hA : t.val < 25) (h1 : t.val ≠ 1) (h1c : k0_cond1 (grid0.coords t) = 1#1)
    (s : Vec F S10000x64 .f32) (cch : Vec F S400x10000 .f32) (hI : Inv V c t.val s cch) :
    Inv V c (t.val + 1) ((sliceR (grid0.coords t) h1c).overlay s
      (k0_pay1 (iblk0 V c 0 t) (iblk0 V c 1 t) (iblk0 V c 2 t) (iblk0 V c 3 t) (iblk0 V c 4 t))) cch := by
  refine ⟨fun y hy => ?_, fun h2 => hI.2 (by omega)⟩
  rw [overlay_rows t hA h1c]
  split
  · next h => unfold s2full; rw [rowPt_eq t y h]
  · next h => exact hI.1 y (by omega)

theorem Inv_step_copy (c : Dev nD) (t : Fin cfg0.N) (h1 : t.val = 1) (h1c : k0_cond1 (grid0.coords t) = 1#1)
    (s : Vec F S10000x64 .f32) (cch : Vec F S400x10000 .f32) (hI : Inv V c t.val s cch) :
    Inv V c (t.val + 1) ((sliceR (grid0.coords t) h1c).overlay s
      (k0_pay1 (iblk0 V c 0 t) (iblk0 V c 1 t) (iblk0 V c 2 t) (iblk0 V c 3 t) (iblk0 V c 4 t))) (k0_pay2 (iblk0 V c 0 t)) := by
  refine ⟨fun y hy => ?_, fun _ => ?_⟩
  · rw [overlay_rows t (by omega) h1c]
    split
    · next h => unfold s2full; rw [rowPt_eq t y h]
    · next h => exact hI.1 y (by omega)
  · obtain rfl : t = pt1 := Fin.ext h1
    rfl

theorem Inv_step_keep (c : Dev nD) (n : ℕ) (h : 25 ≤ n) (s : Vec F S10000x64 .f32) (cch : Vec F S400x10000 .f32) (hI : Inv V c n s cch) :
    Inv V c (n + 1) s cch :=
  ⟨fun y hy => hI.1 y (by omega), fun _ => hI.2 (by omega)⟩

/-- Once the first phase is over the first scratch is the whole hidden-layer product. -/
theorem Inv_full (c : Dev nD) (n : ℕ) (h : 25 ≤ n) (s : Vec F S10000x64 .f32) (cch : Vec F S400x10000 .f32) (hI : Inv V c n s cch) :
    s = s2full V c :=
  funext fun y => hI.1 y (by have := idx2_lt0 y; omega)

end Cert.KernelIdeal.R0
end
-- ==== Proof.KI.R0Obl.lean ====
/-
  Pipeline 0's body obligation: at each point the case the point is in is read off its position (first phase below 25,
  the copy at 1, the cached stripe at 48), the inputs' staging buffers hold their blocks, the scratch buffers what the
  invariant says, and the case's run gives the next point's invariant and, in the second phase, the output block.
-/
import proofs.«108190_g79602923864535_cont_9to1_m_41_30_alg».proof.Proof.KI.R0Inv

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

theorem pay4_eq (a : Vec F S400x10000 .f32) (s : Vec F S10000x64 .f32) (b : Vec F S1x64 .f32) : k0_pay4 a s b = k0_pay3 a s b := rfl

set_option maxHeartbeats 8000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dat0 V c).owesAt () t.succ = (dat0 V c).owesAt () t.castSucc from rfl]
  rw [show (dat0 V c).Φ t.succ = Phi V c (t.val + 1) from rfl, show (dat0 V c).Φ t.castSucc = Phi V c t.val from rfl]
  rw [show (dat0 V c).leavesExact 0 t = owns (c : Thread nD τ) (st0_0 t) fullShare ((dat0 V c).after 0 t) from by
      unfold Dat.leavesExact; rfl, after0_0]
  rw [show (dat0 V c).leavesExact 1 t = owns (c : Thread nD τ) (st0_1 t) fullShare ((dat0 V c).after 1 t) from by
      unfold Dat.leavesExact; rfl, after0_1]
  rw [show (dat0 V c).leavesExact 2 t = owns (c : Thread nD τ) (st0_2 t) fullShare ((dat0 V c).after 2 t) from by
      unfold Dat.leavesExact; rfl, after0_2]
  rw [show (dat0 V c).leavesExact 3 t = owns (c : Thread nD τ) (st0_3 t) fullShare ((dat0 V c).after 3 t) from by
      unfold Dat.leavesExact; rfl, after0_3]
  rw [show (dat0 V c).leavesExact 4 t = owns (c : Thread nD τ) (st0_4 t) fullShare ((dat0 V c).after 4 t) from by
      unfold Dat.leavesExact; rfl, after0_4]
  rw [show (dat0 V c).leavesExact 5 t = owns (c : Thread nD τ) (st0_5 t) fullShare ((dat0 V c).after 5 t) from by
      unfold Dat.leavesExact; rfl, after0_5]
  have hN : t.val < 50 := lt_of_lt_of_eq t.isLt N50
  unfold Phi
  by_cases hA : t.val < 25
  · rw [Dat.leavesExact_idle (dat0 V c) 6 t (idle6 t hA) (noflush6 t hA)]
    have h1c : k0_cond1 (grid0.coords t) = 1#1 := (hcond1 t).mpr hA
    have h3c : ¬ k0_cond3 (grid0.coords t) = 1#1 := fun h => by have := (hcond3 t).mp h; omega
    have h4c : ¬ k0_cond4 (grid0.coords t) = 1#1 := fun h => by have := (hcond4 t).mp h; omega
    by_cases h1 : t.val = 1
    · have h2c : cond2 (grid0.coords t) = 1#1 := (hcond2 t).mpr h1
      iintro ⟨⟨⟨⟨%s, %cch, %hI, HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run_rows_copy c Set.univ (grid0.coords t) _ _ _ _ _ _ _ _ _ _ _ _ _ _ _ _ _ _ h1c h2c h3c h4c
        (iblk0 V c 0 t) (iblk0 V c 1 t) (iblk0 V c 2 t) (iblk0 V c 3 t) (iblk0 V c 4 t) s _)
      isplitl [H0]; · iexact H0
      isplitl [H1]; · iexact H1
      isplitl [H2]; · iexact H2
      isplitl [H3]; · iexact H3
      isplitl [H4]; · iexact H4
      isplitl [HS0]; · iexact HS0
      isplitl [HS1]; · iexists _; iexact HS1
      iintro ⟨H0, H1, H2, H3, H4, HS0, HS1⟩
      isplitl [HS0 HS1 Hrest Hg]
      · isplitl [HS0 HS1 Hrest]
        · isplitl [HS0 HS1]
          · iexists _; iexists _; isplitr
            · ipureintro; exact Inv_step_copy V c t h1 h1c s cch hI
            · isplitl [HS0]
              · iexact HS0
              · iexact HS1
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · have h2c : ¬ cond2 (grid0.coords t) = 1#1 := fun h => h1 ((hcond2 t).mp h)
      iintro ⟨⟨⟨⟨%s, %cch, %hI, HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run_rows c Set.univ (grid0.coords t) _ _ _ _ _ _ _ _ _ _ _ _ _ _ _ _ _ _ h1c h2c h3c h4c
        (iblk0 V c 0 t) (iblk0 V c 1 t) (iblk0 V c 2 t) (iblk0 V c 3 t) (iblk0 V c 4 t) s _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 HS1 Hrest Hg]
      · isplitl [HS0 HS1 Hrest]
        · isplitl [HS0 HS1]
          · iexists _; iexists _; isplitr
            · ipureintro; exact Inv_step_rows V c t hA h1 h1c s cch hI
            · isplitl [HS0]
              · iexact HS0
              · iexact HS1
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hB : 25 ≤ t.val := Nat.le_of_not_lt hA
    rw [show (dat0 V c).leavesExact 6 t = owns (c : Thread nD τ) (st0_6 t) fullShare ((dat0 V c).after 6 t) from by
      unfold Dat.leavesExact; rw [live6 t hB], after0_6]
    have h1c : ¬ k0_cond1 (grid0.coords t) = 1#1 := fun h => hA ((hcond1 t).mp h)
    have h2c : ¬ cond2 (grid0.coords t) = 1#1 := fun h => by have := (hcond2 t).mp h; omega
    by_cases h48 : t.val = 48
    · have h3c : ¬ k0_cond3 (grid0.coords t) = 1#1 := fun h => ((hcond3 t).mp h).2 h48
      have h4c : k0_cond4 (grid0.coords t) = 1#1 := (hcond4 t).mpr h48
      iintro ⟨⟨⟨⟨%s, %cch, %hI, HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      have hs : s = s2full V c := Inv_full V c t.val hB s cch hI
      have hcc : cch = k0_pay2 (iblk0 V c 0 pt1) := hI.2 (by omega)
      subst hs; subst hcc
      iapply (run_out_copy c Set.univ (grid0.coords t) _ _ _ _ _ _ _ _ _ _ _ _ _ _ _ _ _ _ h1c h2c h3c h4c
        (k0_pay2 (iblk0 V c 0 pt1)) (iblk0 V c 5 t) (s2full V c) _)
      isplitl [HS1]; · iexact HS1
      isplitl [H5]; · iexact H5
      isplitl [HS0]; · iexact HS0
      isplitl [H6]; · iexists _; iexact H6
      iintro ⟨HS1, H5, HS0, H6⟩
      isplitl [HS0 HS1 Hrest Hg]
      · isplitl [HS0 HS1 Hrest]
        · isplitl [HS0 HS1]
          · iexists _; iexists _; isplitr
            · ipureintro; exact Inv_step_keep V c t.val hB _ _ hI
            · isplitl [HS0]
              · iexact HS0
              · iexact HS1
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      rw [pay4_eq, show zblk V c t = k0_pay3 (k0_pay2 (iblk0 V c 0 pt1)) (s2full V c) (iblk0 V c 5 t) from by
        unfold zblk srcA; rw [if_pos h48]]
      iexact H6
    · have h3c : k0_cond3 (grid0.coords t) = 1#1 := (hcond3 t).mpr ⟨hB, h48⟩
      have h4c : ¬ k0_cond4 (grid0.coords t) = 1#1 := fun h => h48 ((hcond4 t).mp h)
      iintro ⟨⟨⟨⟨%s, %cch, %hI, HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      have hs : s = s2full V c := Inv_full V c t.val hB s cch hI
      subst hs
      iapply (run_out c Set.univ (grid0.coords t) _ _ _ _ _ _ _ _ _ _ _ _ _ _ _ _ _ _ h1c h2c h3c h4c
        (iblk0 V c 0 t) (iblk0 V c 5 t) (s2full V c) _)
      isplitl [H0]; · iexact H0
      isplitl [H5]; · iexact H5
      isplitl [HS0]; · iexact HS0
      isplitl [H6]; · iexists _; iexact H6
      iintro ⟨H0, H5, HS0, H6⟩
      isplitl [HS0 HS1 Hrest Hg]
      · isplitl [HS0 HS1 Hrest]
        · isplitl [HS0 HS1]
          · iexists _; iexists _; isplitr
            · ipureintro; exact Inv_step_keep V c t.val hB _ _ hI
            · isplitl [HS0]
              · iexact HS0
              · iexact HS1
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      rw [show zblk V c t = k0_pay3 (iblk0 V c 0 t) (s2full V c) (iblk0 V c 5 t) from by
        unfold zblk srcA; rw [if_neg h48]]
      iexact H6

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point: nothing is yet known of the scratch. -/
theorem hin0 (c : Dev nD) : Pipeline.ΦA spec0 c ⊢ (dat0 V c).Φ 0 := by
  rw [show (dat0 V c).Φ 0 = Phi V c 0 from rfl, PhiA0_eq]; unfold Phi
  iintro ⟨⟨⟨%s, HS0⟩, ⟨%cch, HS1⟩, Hrest⟩, Hg⟩
  isplitl [HS0 HS1 Hrest]
  · isplitl [HS0 HS1]
    · iexists s; iexists cch; isplitr
      · ipureintro; exact Inv_zero V c s cch
      · isplitl [HS0]
        · iexact HS0
        · iexact HS1
    · iexact Hrest
  · iexact Hg

/-- After the last point the invariant gives the scoped buffers back, their contents forgotten. -/
theorem hout0 (c : Dev nD) : (dat0 V c).Φ (Fin.last cfg0.N) ⊢ Pipeline.ΦA spec0 c := by
  rw [show (dat0 V c).Φ (Fin.last cfg0.N) = Phi V c (Fin.last cfg0.N).val from rfl, PhiA0_eq]; unfold Phi
  iintro ⟨⟨⟨%s, %cch, -, HS0, HS1⟩, Hrest⟩, Hg⟩
  isplitl [HS0 HS1 Hrest]
  · isplitl [HS0]
    · iexists _; iexact HS0
    · isplitl [HS1]
      · iexists _; iexact HS1
      · iexact Hrest
  · iexact Hg

end Cert.KernelIdeal.R0
end
-- ==== Proof.KI.Region1Body.lean ====
/-
  Pipeline 1's body, in its two cases. At the grid's first point the body stores the transpose of the whole z
  buffer into the scratch; at every point it multiplies the point's 400 rows of z by the scratch and stores
  0.5·tanh(0.5·g) + 0.5 of the product g into the output block. Each case is run once on arbitrary whole memrefs,
  the contents it reads as variables, and states what every buffer it touches holds afterwards.
-/
import proofs.«108190_g79602923864535_cont_9to1_m_41_30_alg».proof.Proof.Gen.KernelIdeal.Launch
import proofs.«108190_g79602923864535_cont_9to1_m_41_30_alg».proof.Proof.Gen.KernelIdeal.Skeleton
import proofs.«108190_g79602923864535_cont_9to1_m_41_30_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole z buffer, the whole output block, the whole transposed scratch: unit rectangles at zero offsets. -/
abbrev rZ : Rect S10000x64 := Rect.unit (s := S10000x64) ![0, 0] S10000x64.size inb_S10000x64_S10000x64_0_0
abbrev rO : Rect S400x10000 := Rect.unit (s := S400x10000) ![0, 0] S400x10000.size inb_S400x10000_S400x10000_0_0
abbrev rT : Rect S64x10000 := Rect.unit (s := S64x10000) ![0, 0] S64x10000.size inb_S64x10000_S64x10000_0_0
/-- The 400 rows of z the point reads. -/
abbrev rRow (i : grid1.Coords) : Rect S10000x64 := Rect.unit (s := S10000x64) (k1_off1 i) S400x64.size (k1_off1_inb i)

/-- The zero offsets of a rank-2 access, as the constant function. -/
theorem zeros2 : (![0, 0] : Fin 2 → Nat) = fun _ => 0 := funext fun a => by fin_cases a <;> rfl

/-- The branch condition of the body: the grid coordinate is zero. -/
abbrev cond1 (i : grid1.Coords) : Prop :=
  (Scalar.cmpi .ne (Scalar.extui (Scalar.cmpi .eq (BitVec.ofNat 32 (i 0).val) 0#32)) 0#32) = 1#1

/-- It holds at the first point only — decided over the grid. -/
theorem hcond1 : ∀ t : Fin cfg1.N, cond1 (grid1.coords t) ↔ t.val = 0 :=
  (by decide +kernel : ∀ t : Fin grid1.N, cond1 (grid1.coords t) ↔ t.val = 0)

/-- What point 0 stores in the scratch: the transpose of z. -/
def ztOf (z : Vec F S10000x64 .f32) : Vec F S64x10000 .f32 := k1_pay1 z

/-- The output block after the body at grid point `i`: the payload of its one store, over the 400 rows of z the
    point reads and the scratch contents `zt`. -/
def out1_1 (i : grid1.Coords) (z : Vec F S10000x64 .f32) (zt : Vec F S64x10000 .f32) : Vec F S400x10000 .f32 :=
  k1_pay2 (View.ld z (rRow i)) zt

/-- One whole-buffer store covers the buffer. -/
theorem coverO (p0 : Vec F S400x10000 .f32) (y : S400x10000.Idx) :
    ∃ pc ∈ ([⟨rO, p0⟩] : List (View.Piece (Elt F) S400x10000 .f32)), y ∈ pc.1.set :=
  ⟨_, List.mem_singleton_self _, View.mem_set_unit_zero (S := S400x10000) zeros2 inb_S400x10000_S400x10000_0_0 y⟩
theorem coverT (p0 : Vec F S64x10000 .f32) (y : S64x10000.Idx) :
    ∃ pc ∈ ([⟨rT, p0⟩] : List (View.Piece (Elt F) S64x10000 .f32)), y ∈ pc.1.set :=
  ⟨_, List.mem_singleton_self _, View.mem_set_unit_zero (S := S64x10000) zeros2 inb_S64x10000_S64x10000_0_0 y⟩

/-! ## The body's triple, in its two cases -/

set_option maxHeartbeats 1000000 in
/-- LATER POINTS (the coordinate is not zero): the branch is skipped; the scratch is read and handed back as found. -/
theorem sound_kernel1_later (c : Dev nD) (E : Set ℕ) (i : grid1.Coords) (hi : ¬ cond1 i)
    (arg1 : Memref sig .tc .vmem S10000x64 .f32) (harg1 : arg1.IsWhole)
    (arg2 : Memref sig .tc .vmem S400x10000 .f32) (harg2 : arg2.IsWhole)
    (arg3 : Memref sig .tc .vmem S64x10000 .f32) (harg3 : arg3.IsWhole)
    (z : Vec F S10000x64 .f32) (zt : Vec F S64x10000 .f32) (K : PUnit → sProp 𝕄) :
    iprop(owns (c : Thread nD τ) arg1 fullShare z ∗ (∃ d, owns (c : Thread nD τ) arg2 fullShare d)
        ∗ owns (c : Thread nD τ) arg3 fullShare zt
        ∗ (iprop(owns (c : Thread nD τ) arg1 fullShare z ∗ owns (c : Thread nD τ) arg2 fullShare (out1_1 i z zt)
            ∗ owns (c : Thread nD τ) arg3 fullShare zt) -∗ K ⟨⟩))
      ⊢ wp frame (wpE (defs₀ (F := F)) Variants.none c none) E (cc1__decode_kernel i arg1 harg1 arg2 harg2 arg3 harg3) K := by
  simp only [cc1__decode_kernel_eq_skeleton]; unfold cc1__decode_kernel_skel
  unfold owns
  iintro ⟨⟨%f1, %hf1, H1⟩, ⟨%d2, %f2, -, H2⟩, ⟨%f3, %hf3, H3⟩, Hk⟩
  subst hf1; subst hf3
  sl_exec (disch := first | exact hi)
  sl_step
  iapply Hk
  isplitl [H1]
  · iexists f1; isplitr; · ipureintro; rfl
    iexact H1
  isplitl [H2]
  · iexists _; isplitr
    swap; · iexact H2
    ipureintro
    refine (View.read_writes_eq_canon _ _ _ (coverO _)).trans ?_
    rw [View.canon_unit_zero (S := S400x10000) zeros2 inb_S400x10000_S400x10000_0_0]
    unfold out1_1
    simp only [View.readAt_eq_ld, View.ld_unit_zero (S := S64x10000) zeros2]
  iexists f3; isplitr; · ipureintro; rfl
  iexact H3

set_option maxHeartbeats 1000000 in
/-- THE FIRST POINT (the coordinate is zero): the branch stores the transpose of z whole into the scratch, which the
    rest of the body then reads. -/
theorem sound_kernel1_first (c : Dev nD) (E : Set ℕ) (i : grid1.Coords) (hi : cond1 i)
    (arg1 : Memref sig .tc .vmem S10000x64 .f32) (harg1 : arg1.IsWhole)
    (arg2 : Memref sig .tc .vmem S400x10000 .f32) (harg2 : arg2.IsWhole)
    (arg3 : Memref sig .tc .vmem S64x10000 .f32) (harg3 : arg3.IsWhole)
    (z : Vec F S10000x64 .f32) (K : PUnit → sProp 𝕄) :
    iprop(owns (c : Thread nD τ) arg1 fullShare z ∗ (∃ d, owns (c : Thread nD τ) arg2 fullShare d)
        ∗ (∃ d, owns (c : Thread nD τ) arg3 fullShare d)
        ∗ (iprop(owns (c : Thread nD τ) arg1 fullShare z ∗ owns (c : Thread nD τ) arg2 fullShare (out1_1 i z (ztOf z))
            ∗ owns (c : Thread nD τ) arg3 fullShare (ztOf z)) -∗ K ⟨⟩))
      ⊢ wp frame (wpE (defs₀ (F := F)) Variants.none c none) E (cc1__decode_kernel i arg1 harg1 arg2 harg2 arg3 harg3) K := by
  simp only [cc1__decode_kernel_eq_skeleton]; unfold cc1__decode_kernel_skel
  unfold owns
  iintro ⟨⟨%f1, %hf1, H1⟩, ⟨%d2, %f2, -, H2⟩, ⟨%d3, %f3, -, H3⟩, Hk⟩
  subst hf1
  sl_exec (disch := first | exact hi)
  sl_step
  iapply Hk
  isplitl [H1]
  · iexists f1; isplitr; · ipureintro; rfl
    iexact H1
  isplitl [H2]
  · iexists _; isplitr
    swap; · iexact H2
    ipureintro
    refine (View.read_writes_eq_canon _ _ _ (coverO _)).trans ?_
    rw [View.canon_unit_zero (S := S400x10000) zeros2 inb_S400x10000_S400x10000_0_0]
    unfold out1_1 ztOf
    sl_unfold_run_names
    simp only [View.readCov_cons_toLoadRect, View.readAt_eq_ld, View.ld_unit_zero (S := S10000x64) zeros2]
  iexists _; isplitr
  swap; · iexact H3
  ipureintro
  refine (View.read_writes_eq_canon _ _ _ (coverT _)).trans ?_
  rw [View.canon_unit_zero (S := S64x10000) zeros2 inb_S64x10000_S64x10000_0_0]
  unfold ztOf
  sl_unfold_run_names
  simp only [View.readAt_eq_ld, View.ld_unit_zero (S := S10000x64) zeros2]

end Cert.KernelIdeal.R1

end
-- ==== Proof.KI.Region1.lean ====
/-
  Pipeline 1's proof data. The scratch holds the transpose of z from the second point on: the first point stores it
  and no later point writes it. Window 0's block is the whole z array at every point; the output window is live and
  written back at every point, and the block the body leaves there at point t is 0.5·tanh(0.5·g) + 0.5 of the
  product g of z's rows 400·t … 400·t + 399 with the transpose of z.
-/
import proofs.«108190_g79602923864535_cont_9to1_m_41_30_alg».proof.Proof.KI.Region1Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block at every point, fetched there or not: unfetched, the block index
    has not moved since the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## Points -/

theorem N25 : cfg1.N = 25 := N_1

/-- The first point of the grid: where the transpose is stored. -/
def pt0 : Fin cfg1.N := ⟨0, lt_of_lt_of_eq (by omega : 0 < 25) N25.symm⟩

/-- What the scratch holds before point `n`: from the second point on, the transpose of the z block of the first. -/
def Inv (c : Dev nD) (n : ℕ) (zt : Vec F S64x10000 .f32) : Prop :=
  1 ≤ n → zt = ztOf (iblk1 V c 0 pt0)

theorem Inv_zero (c : Dev nD) (zt : Vec F S64x10000 .f32) : Inv V c 0 zt := fun h => by omega

/-! ## The invariant -/

abbrev scrT : Memref sig .tc .vmem S64x10000 .f32 := Memref.whole cc1_scratch0

/-- The scoped buffers of the other pipeline, each at some contents. -/
def restBufs (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The class invariant opened: the other pipeline's scoped buffers, the scratch at some contents, the generator register. -/
theorem PhiA1_open (c : Dev nD) :
    (Pipeline.ΦA spec1 c : sProp 𝕄) ⊢ iprop((restBufs c ∗ (∃ d, owns (c : Thread nD τ) scrT fullShare d)) ∗ (∃ r, prngReg c r)) := by
  unfold Pipeline.ΦA restBufs; rw [scopedRest1_eq]; simp only [scrT, owns_whole]
  iintro ⟨⟨R1, R2, R3, R4, R5, R6, R7, R8, R9, R10, R11, HS⟩, Hg⟩
  isplitl [R1 R2 R3 R4 R5 R6 R7 R8 R9 R10 R11 HS]
  · isplitl [R1 R2 R3 R4 R5 R6 R7 R8 R9 R10 R11]
    ·
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      iexact R11
    · iexact HS
  · iexact Hg

/-- and closed again. -/
theorem PhiA1_close (c : Dev nD) :
    iprop((restBufs c ∗ (∃ d, owns (c : Thread nD τ) scrT fullShare d)) ∗ (∃ r, prngReg c r)) ⊢ (Pipeline.ΦA spec1 c : sProp 𝕄) := by
  unfold Pipeline.ΦA restBufs; rw [scopedRest1_eq]; simp only [scrT, owns_whole]
  iintro ⟨⟨⟨R1, R2, R3, R4, R5, R6, R7, R8, R9, R10, R11⟩, HS⟩, Hg⟩
  isplitl [R1 R2 R3 R4 R5 R6 R7 R8 R9 R10 R11 HS]
  ·
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    iexact HS
  · iexact Hg

/-- Before point `n`: the scratch at contents satisfying `Inv n`, the other scoped buffers and the generator register as they are. -/
def Phi (c : Dev nD) (n : ℕ) : sProp 𝕄 :=
  iprop((restBufs c ∗ (∃ zt, ⌜Inv V c n zt⌝ ∗ owns (c : Thread nD τ) scrT fullShare zt)) ∗ (∃ r, prngReg c r))

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (grid1.coords t) (iblk1 V c 0 t) (ztOf (iblk1 V c 0 pt0))
  Φ t := Phi V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1_out (c : Dev nD) (t : Fin cfg1.N) :
    (dat1 V c).after 1 t = out1_1 (grid1.coords t) (iblk1 V c 0 t) (ztOf (iblk1 V c 0 pt0)) := by dsimp only [dat1]
/-- The output block at point `t`, as the body's arithmetic over the point's 400 rows of z and the transpose of z. -/
theorem after1_1 (c : Dev nD) (t : Fin cfg1.N) :
    (dat1 V c).after 1 t = k1_pay2 (View.ld (iblk1 V c 0 t) (rRow (grid1.coords t))) (k1_pay1 (iblk1 V c 0 pt0)) := by
  rw [after1_1_out]; unfold out1_1 ztOf; rfl

theorem before1_0 (c : Dev nD) (t : Fin cfg1.N) (d) : (dat1 V c).before 0 t d = iblk1 V c 0 t :=
  before1_0_of V (dat1 V c) (A_eq1 V c 0) (after1_0 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

set_option maxHeartbeats 4000000 in
/-- The body at any point: the input's memref holds the z block; at the first point the scratch is handed over at
    anything and taken back at the transpose; at a later point it is handed over at the transpose and taken back so. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl,
    show (dat1 V c).Φ t.succ = Phi V c (t.val + 1) from rfl, show (dat1 V c).Φ t.castSucc = Phi V c t.val from rfl,
    after1_0, after1_1_out]
  unfold Phi
  by_cases h0 : t.val = 0
  · have hc : cond1 (grid1.coords t) := (hcond1 t).mpr h0
    obtain rfl : t = pt0 := Fin.ext h0
    iintro ⟨⟨⟨Hrest, ⟨%zt, -, HS⟩⟩, Hg⟩, Ho, ⟨%d0, H0⟩, ⟨%d1, H1⟩⟩
    iapply (sound_kernel1_first c Set.univ (grid1.coords pt0) hc _ _ _ _ _ _ (iblk1 V c 0 pt0) _)
    isplitl [H0]; · iexact H0
    isplitl [H1]; · iexists _; iexact H1
    isplitl [HS]; · iexists _; iexact HS
    iintro ⟨H0, H1, HS⟩
    isplitl [Hrest HS Hg]
    · isplitl [Hrest HS]
      · isplitl [Hrest]; · iexact Hrest
        iexists _; isplitr
        · ipureintro; exact fun _ => rfl
        · iexact HS
      · iexact Hg
    isplitl [Ho]; · iexact Ho
    isplitl [H0]; · iexact H0
    iexact H1
  · have hc : ¬ cond1 (grid1.coords t) := fun h => h0 ((hcond1 t).mp h)
    iintro ⟨⟨⟨Hrest, ⟨%zt, %hI, HS⟩⟩, Hg⟩, Ho, ⟨%d0, H0⟩, ⟨%d1, H1⟩⟩
    have hzt : zt = ztOf (iblk1 V c 0 pt0) := hI (by omega)
    subst hzt
    iapply (sound_kernel1_later c Set.univ (grid1.coords t) hc _ _ _ _ _ _ (iblk1 V c 0 t) (ztOf (iblk1 V c 0 pt0)) _)
    isplitl [H0]; · iexact H0
    isplitl [H1]; · iexists _; iexact H1
    isplitl [HS]; · iexact HS
    iintro ⟨H0, H1, HS⟩
    isplitl [Hrest HS Hg]
    · isplitl [Hrest HS]
      · isplitl [Hrest]; · iexact Hrest
        iexists _; isplitr
        · ipureintro; exact fun _ => rfl
        · iexact HS
      · iexact Hg
    isplitl [Ho]; · iexact Ho
    isplitl [H0]; · iexact H0
    iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point: nothing is yet known of the scratch. -/
theorem hin1 (c : Dev nD) : Pipeline.ΦA spec1 c ⊢ (dat1 V c).Φ 0 := by
  rw [show (dat1 V c).Φ 0 = Phi V c 0 from rfl]; unfold Phi
  refine (PhiA1_open c).trans ?_
  iintro ⟨⟨Hrest, ⟨%d, HS⟩⟩, Hg⟩
  isplitl [Hrest HS]
  · isplitl [Hrest]; · iexact Hrest
    iexists d; isplitr
    · ipureintro; exact Inv_zero V c d
    · iexact HS
  · iexact Hg

/-- After the last point the invariant gives the scoped buffers back, the scratch's contents forgotten. -/
theorem hout1 (c : Dev nD) : (dat1 V c).Φ (Fin.last cfg1.N) ⊢ Pipeline.ΦA spec1 c := by
  rw [show (dat1 V c).Φ (Fin.last cfg1.N) = Phi V c (Fin.last cfg1.N).val from rfl]; unfold Phi
  refine BIBase.Entails.trans ?_ (PhiA1_close c)
  iintro ⟨⟨Hrest, ⟨%zt, -, HS⟩⟩, Hg⟩
  isplitl [Hrest HS]
  · isplitl [Hrest]; · iexact Hrest
    iexists _; iexact HS
  · iexact Hg

end Cert.KernelIdeal.R1

end
-- ==== Proof.KI.Run.lean ====
/-
  The whole run. @main is two host reshapes, pipeline 0, pipeline 1. Between them every unscoped buffer is held whole
  at contents named by a fold from the launch memory: after the reshapes; then with pipeline 0's arrays at what its
  write-backs leave; then with pipeline 1's. Every weakly fair execution ends with each unscoped buffer at the last
  of these contents.
-/
import proofs.«108190_g79602923864535_cont_9to1_m_41_30_alg».proof.Proof.KI.R0Obl
import proofs.«108190_g79602923864535_cont_9to1_m_41_30_alg».proof.Proof.KI.Region1

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the two reshapes (pipeline 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At pipeline 0's exit: its arrays at what the write-backs leave, every other buffer as entered. -/
def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At pipeline 1's exit: its arrays at what the write-backs leave, every other buffer as entered. -/
def W3 (c : Dev nD) : Valuation τ sig (Elt F) :=
  Pipeline.withArrays spec1 c (W2 m ρ c) fun w => (R1.dat1 (V2 m ρ) c).arrAt w cfg1.N
theorem W3_arr (c : Dev nD) (w : Fin cfg1.W) :
    W3 m ρ c (Proc.devRef .tc (Pipeline.arrRef spec1 w)) = (R1.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (R1.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostFresh0 : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-- The generator register and the scoped buffers make the class invariant (whatever else is handed over is dropped), -/
theorem toPhiA0 (c : Dev nD) (P : sProp 𝕄) :
    iprop((∃ r, prngReg c r) ∗ P ∗ Pipeline.scopedRest (Ix := Unit) (Name := ℕ) (U := UR sig nD τ) (Lvl := ℕ) (Val := Elt F) spec0 c) ⊢ (Pipeline.ΦA spec0 c : sProp 𝕄) := by
  unfold Pipeline.ΦA
  iintro ⟨Hp, -, Hr⟩
  isplitl [Hr]; · iexact Hr
  iexact Hp
/-- and the class invariant gives them back. -/
theorem ofPhiA0 (c : Dev nD) :
    (Pipeline.ΦA spec0 c : sProp 𝕄) ⊢ iprop((∃ r, prngReg c r) ∗ BI.emp ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr
theorem toPhiA1 (c : Dev nD) (P : sProp 𝕄) :
    iprop((∃ r, prngReg c r) ∗ P ∗ Pipeline.scopedRest (Ix := Unit) (Name := ℕ) (U := UR sig nD τ) (Lvl := ℕ) (Val := Elt F) spec1 c) ⊢ (Pipeline.ΦA spec1 c : sProp 𝕄) := by
  unfold Pipeline.ΦA
  iintro ⟨Hp, -, Hr⟩
  isplitl [Hr]; · iexact Hr
  iexact Hp
theorem ofPhiA1 (c : Dev nD) :
    (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

/-! ## The regions as segments -/

set_option backward.isDefEq.respectTransparency.types false in
/-- Pipeline 0 over the thread state: its arrays split out of the unscoped buffers on entry and put back at what the
    write-backs leave on exit; the generator register and the scoped buffers into the invariant and out; nothing owed;
    no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA0 c _).trans (R0.hin0 (V1 m ρ) c)
  hout c := by
    rw [Pipeline.ownSems0_none]
    exact (R0.hout0 (V1 m ρ) c).trans (ofPhiA0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 over the thread state: its arrays split out of the unscoped buffers on entry and put back at what the
    write-backs leave on exit; the generator register and the scoped buffers into the invariant and out; nothing owed;
    no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA1 c _).trans (R1.hin1 (V2 m ρ) c)
  hout c := by
    rw [Pipeline.ownSems0_none]
    exact (R1.hout1 (V2 m ρ) c).trans (ofPhiA1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostFresh0 (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.KernelIdeal.Run
end
-- ==== Proof.KI.RunArgs.lean ====
/-
  The arguments at the end of the run: no reshape writes one, pipeline 0 only reads them through input windows (or
  not at all), pipeline 1 does not touch them; so the last boundary's contents at an argument are the launch memory's.
-/
import proofs.«108190_g79602923864535_cont_9to1_m_41_30_alg».proof.Proof.KI.Run

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 1).trans (((R0.dat0 (V1 m ρ) c).arrAt_in 1 rfl _).trans (R0.A_eq0 (V1 m ρ) c 1))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((R0.dat0 (V1 m ρ) c).arrAt_in 0 rfl _).trans (R0.A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((R0.dat0 (V1 m ρ) c).arrAt_in 2 rfl _).trans (R0.A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 4).trans (((R0.dat0 (V1 m ρ) c).arrAt_in 4 rfl _).trans (R0.A_eq0 (V1 m ρ) c 4))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- THE FRAME: every weakly fair execution terminates, nothing faulting, with the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

end Cert.KernelIdeal.Run
end
-- ==== Proof.KI.R0Val.lean ====
/-
  The output array of pipeline 0 after its run, as one function of its index. The second phase's point t writes back
  block 49 − t of the output, so row r is written at point 49 − r/400 from that point's stored block at row r mod 400;
  the 25 blocks tile the array.
-/
import proofs.«108190_g79602923864535_cont_9to1_m_41_30_alg».proof.Proof.KI.R0Obl
import Idealize.ShloMosaic.Lib.Pipeline.Value
import Idealize.ShloMosaic.Lib.ValueIdx

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- In the second phase the output window sits on block 49 − t. -/
theorem idx6_facts : ∀ t : Fin cfg0.N, 25 ≤ t.val → win0_6.index t (0 : Fin 2) = 49 - t.val ∧ win0_6.index t (1 : Fin 2) = 0 :=
  (by decide +kernel : ∀ t : Fin grid0.N, 25 ≤ t.val → win0_6.index t (0 : Fin 2) = 49 - t.val ∧ win0_6.index t (1 : Fin 2) = 0)
/-- The output block is written back exactly at the points of the second phase. -/
theorem flush6_iff : ∀ t : Fin cfg0.N, (cfg0.win 6).flush t = true ↔ 25 ≤ t.val :=
  (by decide +kernel : ∀ t : Fin grid0.N, win0_6.flush t = true ↔ 25 ≤ t.val)

/-- The point that writes row `i 0` back. -/
def zPt (i : S10000x64.Idx) : Fin cfg0.N := ⟨49 - (i 0).val / 400, lt_of_lt_of_eq (by omega) N50.symm⟩

/-- The output array after the run: each row from the block its point stored. -/
def Gz (c : Dev nD) : S10000x64.Idx → Elt F .f32 := fun i => zblk V c (zPt i) (loc400 i)

theorem flushed6_eq (c : Dev nD) (t : Fin cfg0.N) (hf : 25 ≤ t.val) :
    (dat0 V c).flushed 6 t = ((cfg0.win 6).blk t).view.read (Elt F) (Gz V c) := by
  show (cfg0.win 6).cut (grid0.coords t) ((dat0 V c).after 6 t) = _
  rw [after0_6]
  obtain ⟨e0, e1⟩ := idx6_facts t hf
  have hN : t.val < 50 := lt_of_lt_of_eq t.isLt N50
  funext j
  show zblk V c t j = Gz V c (((cfg0.win 6).blk t).view.emb j)
  unfold Gz
  have hj0 : (j 0).val < 400 := (j 0).isLt
  have hj1 : (j 1).val < 64 := (j 1).isLt
  have hr0 : ((((cfg0.win 6).blk t).view.emb j) 0).val = win0_6.index t (0 : Fin 2) * 400 + 1 * (j 0).val := rfl
  have hr1 : ((((cfg0.win 6).blk t).view.emb j) 1).val = win0_6.index t (1 : Fin 2) * 64 + 1 * (j 1).val := rfl
  have hp : zPt (((cfg0.win 6).blk t).view.emb j) = t := Fin.ext (by
    show 49 - ((((cfg0.win 6).blk t).view.emb j) 0).val / 400 = t.val
    rw [hr0, e0]; omega)
  have hl : loc400 (((cfg0.win 6).blk t).view.emb j) = j := by
    funext a
    match a with
    | ⟨0, _⟩ =>
      apply Fin.ext
      show ((((cfg0.win 6).blk t).view.emb j) 0).val % 400 = (j 0).val
      rw [hr0, e0]; omega
    | ⟨1, _⟩ =>
      apply Fin.ext
      show ((((cfg0.win 6).blk t).view.emb j) 1).val = (j 1).val
      rw [hr1, e1]; omega
  rw [hp, hl]

/-- An index of the array is in point `t`'s block iff each coordinate is in the block's range on its axis. -/
theorem mem_blk6 (t : Fin cfg0.N) (i : S10000x64.Idx) :
    i ∈ ((cfg0.win 6).blk t).view.set ↔ ∀ a : Fin 2, win0_6.index t a * S400x64.size a ≤ (i a).val ∧ (i a).val < win0_6.index t a * S400x64.size a + S400x64.size a := by
  show i ∈ ((View.whole main_v2).slice (win0_6.rect t)).set ↔ _
  rw [View.set_slice_whole, Rect.mem_set_unit]
  exact Iff.rfl

theorem cover6 (i : S10000x64.Idx) : ∃ t : Fin cfg0.N, (cfg0.win 6).flush t = true ∧ i ∈ ((cfg0.win 6).blk t).view.set := by
  have hi0 : (i 0).val < 10000 := idx2_lt0 i
  have hi1 : (i 1).val < 64 := idx2_lt1 i
  have hz : 25 ≤ (zPt i).val := by show 25 ≤ 49 - (i 0).val / 400; omega
  refine ⟨zPt i, (flush6_iff _).mpr hz, ?_⟩
  obtain ⟨e0, e1⟩ := idx6_facts (zPt i) hz
  have hzv : (zPt i).val = 49 - (i 0).val / 400 := rfl
  rw [mem_blk6]
  refine Fin.forall_fin_two.mpr ⟨?_, ?_⟩
  · show win0_6.index (zPt i) (0 : Fin 2) * 400 ≤ (i 0).val ∧ (i 0).val < win0_6.index (zPt i) (0 : Fin 2) * 400 + 400
    rw [e0, hzv]; omega
  · show win0_6.index (zPt i) (1 : Fin 2) * 64 ≤ (i 1).val ∧ (i 1).val < win0_6.index (zPt i) (1 : Fin 2) * 64 + 64
    rw [e1]; omega

/-- THE OUTPUT ARRAY after pipeline 0. -/
theorem final0 (c : Dev nD) : (dat0 V c).arrAt 6 cfg0.N = Gz V c :=
  (dat0 V c).arrAt_eq_of_cover 6 (Gz V c) (fun t hf => flushed6_eq V c t ((flush6_iff t).mp hf)) (cover6)

end Cert.KernelIdeal.R0
end
-- ==== Proof.KI.R1Val.lean ====
/-
  The output array of pipeline 1 after its run, as one function of its index: point t writes back block t, rows
  400·t … 400·t+399, at every point, so row r comes from point r/400 at row r mod 400; the 25 blocks tile the array.
-/
import proofs.«108190_g79602923864535_cont_9to1_m_41_30_alg».proof.Proof.KI.Region1
import Idealize.ShloMosaic.Lib.Pipeline.Value
import Idealize.ShloMosaic.Lib.ValueIdx

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The output window sits on block t at point t. -/
theorem idx1_facts : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)

theorem N25' : cfg1.N = 25 := N_1

/-- The point that writes row `i 0` back. -/
def recPt (i : S10000x10000.Idx) : Fin cfg1.N :=
  ⟨(i 0).val / 400, lt_of_lt_of_eq (by have := idx2_lt0 i; omega) N25'.symm⟩

/-- The index of row `i 0` within its block. -/
def locR (i : S10000x10000.Idx) : S400x10000.Idx :=
  ix2 (⟨(i 0).val % 400, Nat.mod_lt _ (by omega)⟩ : Fin 400) (⟨(i 1).val, idx2_lt1 i⟩ : Fin 10000)

/-- The output array after the run: each row from the block its point stored. -/
def Grec (c : Dev nD) : S10000x10000.Idx → Elt F .f32 := fun i => (dat1 V c).after 1 (recPt i) (locR i)

theorem flushed1_eq (c : Dev nD) (t : Fin cfg1.N) :
    (dat1 V c).flushed 1 t = ((cfg1.win 1).blk t).view.read (Elt F) (Grec V c) := by
  show (cfg1.win 1).cut (grid1.coords t) ((dat1 V c).after 1 t) = _
  obtain ⟨e0, e1⟩ := idx1_facts t
  have hN : t.val < 25 := lt_of_lt_of_eq t.isLt N25'
  funext j
  show (dat1 V c).after 1 t j = Grec V c (((cfg1.win 1).blk t).view.emb j)
  unfold Grec
  have hj0 : (j 0).val < 400 := (j 0).isLt
  have hj1 : (j 1).val < 10000 := (j 1).isLt
  have hr0 : ((((cfg1.win 1).blk t).view.emb j) 0).val = win1_1.index t (0 : Fin 2) * 400 + 1 * (j 0).val := rfl
  have hr1 : ((((cfg1.win 1).blk t).view.emb j) 1).val = win1_1.index t (1 : Fin 2) * 10000 + 1 * (j 1).val := rfl
  have hp : recPt (((cfg1.win 1).blk t).view.emb j) = t := Fin.ext (by
    show ((((cfg1.win 1).blk t).view.emb j) 0).val / 400 = t.val
    rw [hr0, e0]; omega)
  have hl : locR (((cfg1.win 1).blk t).view.emb j) = j := by
    funext a
    match a with
    | ⟨0, _⟩ =>
      apply Fin.ext
      show ((((cfg1.win 1).blk t).view.emb j) 0).val % 400 = (j 0).val
      rw [hr0, e0]; omega
    | ⟨1, _⟩ =>
      apply Fin.ext
      show ((((cfg1.win 1).blk t).view.emb j) 1).val = (j 1).val
      rw [hr1, e1]; omega
  rw [hp, hl]

theorem mem_blk1 (t : Fin cfg1.N) (i : S10000x10000.Idx) :
    i ∈ ((cfg1.win 1).blk t).view.set ↔ ∀ a : Fin 2, win1_1.index t a * S400x10000.size a ≤ (i a).val ∧ (i a).val < win1_1.index t a * S400x10000.size a + S400x10000.size a := by
  show i ∈ ((View.whole main_v3).slice (win1_1.rect t)).set ↔ _
  rw [View.set_slice_whole, Rect.mem_set_unit]
  exact Iff.rfl

theorem cover1 (i : S10000x10000.Idx) : ∃ t : Fin cfg1.N, (cfg1.win 1).flush t = true ∧ i ∈ ((cfg1.win 1).blk t).view.set := by
  have hi0 : (i 0).val < 10000 := idx2_lt0 i
  have hi1 : (i 1).val < 10000 := idx2_lt1 i
  refine ⟨recPt i, flush1_1 _, ?_⟩
  obtain ⟨e0, e1⟩ := idx1_facts (recPt i)
  have hzv : (recPt i).val = (i 0).val / 400 := rfl
  rw [mem_blk1]
  refine Fin.forall_fin_two.mpr ⟨?_, ?_⟩
  · show win1_1.index (recPt i) (0 : Fin 2) * 400 ≤ (i 0).val ∧ (i 0).val < win1_1.index (recPt i) (0 : Fin 2) * 400 + 400
    rw [e0, hzv]; omega
  · show win1_1.index (recPt i) (1 : Fin 2) * 10000 ≤ (i 1).val ∧ (i 1).val < win1_1.index (recPt i) (1 : Fin 2) * 10000 + 10000
    rw [e1]; omega

/-- THE OUTPUT ARRAY after pipeline 1. -/
theorem final1 (c : Dev nD) : (dat1 V c).arrAt 1 cfg1.N = Grec V c :=
  (dat1 V c).arrAt_eq_of_cover 1 (Grec V c) (fun t _ => flushed1_eq V c t) (cover1)

end Cert.KernelIdeal.R1
end
-- ==== Proof.KI.RunVals.lean ====
/-
  The results at the end of the run. The second result array is pipeline 0's output, which pipeline 1 only reads; the
  first is pipeline 1's output. Each is the whole-array function its pipeline's write-backs leave.
-/
import proofs.«108190_g79602923864535_cont_9to1_m_41_30_alg».proof.Proof.KI.RunArgs
import proofs.«108190_g79602923864535_cont_9to1_m_41_30_alg».proof.Proof.KI.R0Val
import proofs.«108190_g79602923864535_cont_9to1_m_41_30_alg».proof.Proof.KI.R1Val

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What pipeline 1 is entered with in the array it reads: pipeline 0's output. -/
theorem V2_v2 (c : Dev nD) : V2 m ρ c main_v2 = R0.Gz (V1 m ρ) c :=
  (W2_arr m ρ c 6).trans (R0.final0 (V1 m ρ) c)

theorem W3_v2 (c : Dev nD) : W3 m ρ c (Proc.devRef .tc main_v2) = R0.Gz (V1 m ρ) c :=
  (W3_arr m ρ c 0).trans (((R1.dat1 (V2 m ρ) c).arrAt_in 0 rfl _).trans ((R1.A_eq1 (V2 m ρ) c 0).trans (V2_v2 m ρ c)))

theorem W3_v3 (c : Dev nD) : W3 m ρ c (Proc.devRef .tc main_v3) = R1.Grec (V2 m ρ) c :=
  (W3_arr m ρ c 1).trans (R1.final1 (V2 m ρ) c)

/-- THE RUN, READ: the two results at their pipelines' whole-array functions, the arguments as launched. -/
theorem run_vals : θ_run defs (onTc (τ := τ) (main (F := F))) ⟨m, fun _ => 0, ρ⟩ (fun r => ∀ c : Dev nD,
      r.2.mem ((c.tc : Thread nD τ).loc main_v3) = R1.Grec (V2 m ρ) c
      ∧ r.2.mem ((c.tc : Thread nD τ).loc main_v2) = R0.Gz (V1 m ρ) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v3 (by decide))).trans (W3_v3 m ρ c),
     (h c _ (mem_uc main_v2 (by decide))).trans (W3_v2 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

end Cert.KernelIdeal.Run
end
-- ==== Proof.Spec.lean ====
/- The kernel's arrangement of the two-layer graph autoencoder, index by index, as explicit
   formulas over the extended reals.

   With x : 10000 × 128, adj : 10000 × 10000, W1 : 128 × 128, b1 : 128, W2 : 128 × 64, b2 : 64:
     hidden   hidK j k = max ((Σ_l (Σ_n adj[j,n] · x[n,l]) · W1[l,k]) + b1[k]) 0
     support  s2K  j c = Σ_k hidK j k · W2[k,c]
     latent   zK   r c = (Σ_j adj[r,j] · s2K j c) + b2[c]
     decoded  recK r c = h · tanh (h · Σ_k zK r k · zK c k) + h,   h the f32 word of one half.
   The hidden layer multiplies adj · x first and W1 second. -/
import Idealize.ShloMosaic.PureOps.Ideal
import Idealize.ShloMosaic.Lib.ValueIdx

noncomputable section

namespace Cert.Spec

open Idealize.ShloMosaic Idealize.ShloMosaic.ValueIdx
open scoped BigOperators

/-- A rank-2 array of extended reals. -/
abbrev Mat (m n : Nat) : Type := (⟨2, ![m, n]⟩ : Shape).Idx → EReal
/-- A rank-1 array of extended reals. -/
abbrev Row (n : Nat) : Type := (⟨1, ![n]⟩ : Shape).Idx → EReal

/-- The f32 word 0x3F000000, one half. -/
def half : EReal := Ideal.ofBits .f32 0x3F000000#32

/-- The word 0x3F000000 denotes the real number one half. -/
theorem half_eq : half = ((1 / 2 : ℝ) : EReal) := by
  unfold half
  simp [Ideal.ofBits, Ideal.ieee, -EReal.coe_mul]
  norm_num

/-- The hidden layer: relu ((adj · x) · W1 + b1) at row j, column k. -/
def hidK (x : Mat 10000 128) (adj : Mat 10000 10000) (W1 : Mat 128 128) (b1 : Row 128)
    (W2 : Mat 128 64) (b2 : Row 64) (j : Fin 10000) (k : Fin 128) : EReal :=
  max ((∑ l : Fin 128, (∑ n : Fin 10000, adj (ix2 j n) * x (ix2 n l)) * W1 (ix2 l k)) + b1 (ix1 k)) 0

/-- The second layer's support: hidden · W2 at row j, column c. -/
def s2K (x : Mat 10000 128) (adj : Mat 10000 10000) (W1 : Mat 128 128) (b1 : Row 128)
    (W2 : Mat 128 64) (b2 : Row 64) (j : Fin 10000) (c : Fin 64) : EReal :=
  ∑ k : Fin 128, hidK x adj W1 b1 W2 b2 j k * W2 (ix2 k c)

/-- The latent code: adj · support + b2 at row r, column c. -/
def zK (x : Mat 10000 128) (adj : Mat 10000 10000) (W1 : Mat 128 128) (b1 : Row 128)
    (W2 : Mat 128 64) (b2 : Row 64) (r : Fin 10000) (c : Fin 64) : EReal :=
  (∑ j : Fin 10000, adj (ix2 r j) * s2K x adj W1 b1 W2 b2 j c) + b2 (ix1 c)

/-- The decoded adjacency: the logistic function of z · zᵀ, written with the hyperbolic tangent. -/
def recK (x : Mat 10000 128) (adj : Mat 10000 10000) (W1 : Mat 128 128) (b1 : Row 128)
    (W2 : Mat 128 64) (b2 : Row 64) (r c : Fin 10000) : EReal :=
  half * Ideal.tanh (half * ∑ k : Fin 64, zK x adj W1 b1 W2 b2 r k * zK x adj W1 b1 W2 b2 c k) + half

end Cert.Spec

end
-- ==== Proof.PayIdx.lean ====
/- The kernel's payloads read at an index, over the extended reals.

   Each payload is a composition of contractions into a zero accumulator, a row broadcast, pointwise
   operations, casts to the same shape and one transpose.  Read at row p, column c:
     a contraction      Σ_k a[p,k] · b[k,c]
     a row broadcast    the one row at c
     a transpose        the operand at (c, p)
   and the pointwise operations act on the entries. -/
import proofs.«108190_g79602923864535_cont_9to1_m_41_30_alg».proof.Proof.Spec
import proofs.«108190_g79602923864535_cont_9to1_m_41_30_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.PayIdx

open Idealize.ShloMosaic Idealize.ShloMosaic.ValueIdx Cert.KernelIdeal Cert.KernelIdeal.Gen
open scoped BigOperators

/-! ## A contraction of two matrices into the zero splat -/

/-- For dimension numbers that contract the left operand's columns with the right operand's rows (stated as the
    four coordinate facts of the operand indices), the contraction into the zero splat at row p, column c is
    the sum over k of a[p,k] · b[k,c]. -/
theorem matmul_zero_at {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (a : FVec Ideal ⟨2, ![M, K]⟩ .f32) (b : FVec Ideal ⟨2, ![K, N]⟩ .f32) (p : Fin M) (c : Fin N) :
    FloatOps.matmul D none a b (constant (F := Ideal) ⟨2, ![M, N]⟩ .f32 0x00000000#32) (ix2 p c)
      = ∑ k : Fin K, a (ix2 p k) * b (ix2 k c) := by
  rw [Ideal.matmul_constant_zero_apply, ← Equiv.sum_comp (ValueIdx.contrEquiv1 D K hr hs).symm]
  refine Finset.sum_congr rfl fun k _ => ?_
  have hk := ValueIdx.contrEquiv1_symm_val D K hr hs k
  have el : D.lhsIdx (ix2 p c) ((ValueIdx.contrEquiv1 D K hr hs).symm k) = ix2 p k := funext fun t => Fin.ext (by
    match t with
    | ⟨0, _⟩ => exact hl0 _ _
    | ⟨1, _⟩ => exact (hl1 _ _).trans hk)
  have er : D.rhsIdx (ix2 p c) ((ValueIdx.contrEquiv1 D K hr hs).symm k) = ix2 k c := funext fun t => Fin.ext (by
    match t with
    | ⟨0, _⟩ => exact (hr0 _ _).trans hk
    | ⟨1, _⟩ => exact hr1 _ _)
  rw [el, er]

/-- mm_adj_x: the contraction 400 × 10000 by 10000 × 128 into the zero splat, at row p, column c. -/
theorem mm_adj_x (a : FVec Ideal S400x10000 .f32) (b : FVec Ideal S10000x128 .f32) (p : Fin 400) (c : Fin 128) :
    matmul (F := Ideal) dot_S400x10000_S10000x128_S400x128_1_0_0_1_n_n none a b (constant S400x128 .f32 0x00000000#32) (ix2 p c)
      = ∑ k : Fin 10000, a (ix2 p k) * b (ix2 k c) :=
  matmul_zero_at dot_S400x10000_S10000x128_S400x128_1_0_0_1_n_n rfl rfl
    (fun i q => by
      unfold DotDims.lhsIdx
      rw [dif_neg (show ¬(0 : Fin S400x10000.rank) ∈ dot_S400x10000_S10000x128_S400x128_1_0_0_1_n_n.lhsBatch by decide),
        dif_pos (show (0 : Fin S400x10000.rank) ∈ dot_S400x10000_S10000x128_S400x128_1_0_0_1_n_n.lhsNonContracting by decide)]
      rfl)
    (fun i q => dot_S400x10000_S10000x128_S400x128_1_0_0_1_n_n.lhsIdx_val_of_single rfl i q)
    (fun i q => dot_S400x10000_S10000x128_S400x128_1_0_0_1_n_n.rhsIdx_val_of_single rfl i q)
    (fun i q => by
      unfold DotDims.rhsIdx
      rw [dif_neg (show ¬(1 : Fin S10000x128.rank) ∈ dot_S400x10000_S10000x128_S400x128_1_0_0_1_n_n.rhsBatch by decide),
        dif_pos (show (1 : Fin S10000x128.rank) ∈ dot_S400x10000_S10000x128_S400x128_1_0_0_1_n_n.rhsNonContracting by decide)]
      rfl)
    a b p c

/-- mm_ax_w1: the contraction 400 × 128 by 128 × 128 into the zero splat, at row p, column c. -/
theorem mm_ax_w1 (a : FVec Ideal S400x128 .f32) (b : FVec Ideal S128x128 .f32) (p : Fin 400) (c : Fin 128) :
    matmul (F := Ideal) dot_S400x128_S128x128_S400x128_1_0_0_1_n_n none a b (constant S400x128 .f32 0x00000000#32) (ix2 p c)
      = ∑ k : Fin 128, a (ix2 p k) * b (ix2 k c) :=
  matmul_zero_at dot_S400x128_S128x128_S400x128_1_0_0_1_n_n rfl rfl
    (fun i q => by
      unfold DotDims.lhsIdx
      rw [dif_neg (show ¬(0 : Fin S400x128.rank) ∈ dot_S400x128_S128x128_S400x128_1_0_0_1_n_n.lhsBatch by decide),
        dif_pos (show (0 : Fin S400x128.rank) ∈ dot_S400x128_S128x128_S400x128_1_0_0_1_n_n.lhsNonContracting by decide)]
      rfl)
    (fun i q => dot_S400x128_S128x128_S400x128_1_0_0_1_n_n.lhsIdx_val_of_single rfl i q)
    (fun i q => dot_S400x128_S128x128_S400x128_1_0_0_1_n_n.rhsIdx_val_of_single rfl i q)
    (fun i q => by
      unfold DotDims.rhsIdx
      rw [dif_neg (show ¬(1 : Fin S128x128.rank) ∈ dot_S400x128_S128x128_S400x128_1_0_0_1_n_n.rhsBatch by decide),
        dif_pos (show (1 : Fin S128x128.rank) ∈ dot_S400x128_S128x128_S400x128_1_0_0_1_n_n.rhsNonContracting by decide)]
      rfl)
    a b p c

/-- mm_hid_w2: the contraction 400 × 128 by 128 × 64 into the zero splat, at row p, column c. -/
theorem mm_hid_w2 (a : FVec Ideal S400x128 .f32) (b : FVec Ideal S128x64 .f32) (p : Fin 400) (c : Fin 64) :
    matmul (F := Ideal) dot_S400x128_S128x64_S400x64_1_0_0_1_n_n none a b (constant S400x64 .f32 0x00000000#32) (ix2 p c)
      = ∑ k : Fin 128, a (ix2 p k) * b (ix2 k c) :=
  matmul_zero_at dot_S400x128_S128x64_S400x64_1_0_0_1_n_n rfl rfl
    (fun i q => by
      unfold DotDims.lhsIdx
      rw [dif_neg (show ¬(0 : Fin S400x128.rank) ∈ dot_S400x128_S128x64_S400x64_1_0_0_1_n_n.lhsBatch by decide),
        dif_pos (show (0 : Fin S400x128.rank) ∈ dot_S400x128_S128x64_S400x64_1_0_0_1_n_n.lhsNonContracting by decide)]
      rfl)
    (fun i q => dot_S400x128_S128x64_S400x64_1_0_0_1_n_n.lhsIdx_val_of_single rfl i q)
    (fun i q => dot_S400x128_S128x64_S400x64_1_0_0_1_n_n.rhsIdx_val_of_single rfl i q)
    (fun i q => by
      unfold DotDims.rhsIdx
      rw [dif_neg (show ¬(1 : Fin S128x64.rank) ∈ dot_S400x128_S128x64_S400x64_1_0_0_1_n_n.rhsBatch by decide),
        dif_pos (show (1 : Fin S128x64.rank) ∈ dot_S400x128_S128x64_S400x64_1_0_0_1_n_n.rhsNonContracting by decide)]
      rfl)
    a b p c

/-- mm_adj_s: the contraction 400 × 10000 by 10000 × 64 into the zero splat, at row p, column c. -/
theorem mm_adj_s (a : FVec Ideal S400x10000 .f32) (b : FVec Ideal S10000x64 .f32) (p : Fin 400) (c : Fin 64) :
    matmul (F := Ideal) dot_S400x10000_S10000x64_S400x64_1_0_0_1_n_n none a b (constant S400x64 .f32 0x00000000#32) (ix2 p c)
      = ∑ k : Fin 10000, a (ix2 p k) * b (ix2 k c) :=
  matmul_zero_at dot_S400x10000_S10000x64_S400x64_1_0_0_1_n_n rfl rfl
    (fun i q => by
      unfold DotDims.lhsIdx
      rw [dif_neg (show ¬(0 : Fin S400x10000.rank) ∈ dot_S400x10000_S10000x64_S400x64_1_0_0_1_n_n.lhsBatch by decide),
        dif_pos (show (0 : Fin S400x10000.rank) ∈ dot_S400x10000_S10000x64_S400x64_1_0_0_1_n_n.lhsNonContracting by decide)]
      rfl)
    (fun i q => dot_S400x10000_S10000x64_S400x64_1_0_0_1_n_n.lhsIdx_val_of_single rfl i q)
    (fun i q => dot_S400x10000_S10000x64_S400x64_1_0_0_1_n_n.rhsIdx_val_of_single rfl i q)
    (fun i q => by
      unfold DotDims.rhsIdx
      rw [dif_neg (show ¬(1 : Fin S10000x64.rank) ∈ dot_S400x10000_S10000x64_S400x64_1_0_0_1_n_n.rhsBatch by decide),
        dif_pos (show (1 : Fin S10000x64.rank) ∈ dot_S400x10000_S10000x64_S400x64_1_0_0_1_n_n.rhsNonContracting by decide)]
      rfl)
    a b p c

/-- mm_z_zt: the contraction 400 × 64 by 64 × 10000 into the zero splat, at row p, column c. -/
theorem mm_z_zt (a : FVec Ideal S400x64 .f32) (b : FVec Ideal S64x10000 .f32) (p : Fin 400) (c : Fin 10000) :
    matmul (F := Ideal) dot_S400x64_S64x10000_S400x10000_1_0_0_1_n_n none a b (constant S400x10000 .f32 0x00000000#32) (ix2 p c)
      = ∑ k : Fin 64, a (ix2 p k) * b (ix2 k c) :=
  matmul_zero_at dot_S400x64_S64x10000_S400x10000_1_0_0_1_n_n rfl rfl
    (fun i q => by
      unfold DotDims.lhsIdx
      rw [dif_neg (show ¬(0 : Fin S400x64.rank) ∈ dot_S400x64_S64x10000_S400x10000_1_0_0_1_n_n.lhsBatch by decide),
        dif_pos (show (0 : Fin S400x64.rank) ∈ dot_S400x64_S64x10000_S400x10000_1_0_0_1_n_n.lhsNonContracting by decide)]
      rfl)
    (fun i q => dot_S400x64_S64x10000_S400x10000_1_0_0_1_n_n.lhsIdx_val_of_single rfl i q)
    (fun i q => dot_S400x64_S64x10000_S400x10000_1_0_0_1_n_n.rhsIdx_val_of_single rfl i q)
    (fun i q => by
      unfold DotDims.rhsIdx
      rw [dif_neg (show ¬(1 : Fin S64x10000.rank) ∈ dot_S400x64_S64x10000_S400x10000_1_0_0_1_n_n.rhsBatch by decide),
        dif_pos (show (1 : Fin S64x10000.rank) ∈ dot_S400x64_S64x10000_S400x10000_1_0_0_1_n_n.rhsNonContracting by decide)]
      rfl)
    a b p c

/-! ## The payloads -/

/-- The cached stripe: a cast to the same shape. -/
theorem pay2_eq (a : FVec Ideal S400x10000 .f32) : k0_pay2 (F := Ideal) a = a := by
  unfold k0_pay2
  exact shapeCast_self _ _

/-- The two latent-block payloads are one term. -/
theorem pay4_eq {F : FTy → Type} [FloatOps F] : @k0_pay4 F _ = @k0_pay3 F _ := rfl

/-- The transposed latent code at row k, column r. -/
theorem k1_pay1_at (z : FVec Ideal S10000x64 .f32) (k : Fin 64) (r : Fin 10000) :
    k1_pay1 (F := Ideal) z (ix2 k r) = z (ix2 r k) := by
  unfold k1_pay1
  simp only [shapeCast_self]
  exact transpose_ix2_apply z _ k r

/-- A scalar constant over the extended reals is the value its word denotes. -/
theorem scalar_ofBits (b : BitVec 32) : Scalar.ofBits (F := Ideal) .f32 b = Ideal.ofBits .f32 b := rfl

/-- The support block: relu ((stripe · x) · W1 + b1) · W2 at row p, column q. -/
theorem pay1_at (a : FVec Ideal S400x10000 .f32) (x : FVec Ideal S10000x128 .f32) (w1 : FVec Ideal S128x128 .f32)
    (b1 : FVec Ideal S1x128 .f32) (w2 : FVec Ideal S128x64 .f32) (p : Fin 400) (q : Fin 64) :
    k0_pay1 (F := Ideal) a x w1 b1 w2 (ix2 p q)
      = ∑ k : Fin 128, max ((∑ l : Fin 128, (∑ n : Fin 10000, a (ix2 p n) * x (ix2 n l)) * w1 (ix2 l k))
          + b1 (ix2 0 k)) 0 * w2 (ix2 k q) := by
  unfold k0_pay1
  simp only [shapeCast_self]
  rw [mm_hid_w2]
  refine Finset.sum_congr rfl fun k _ => ?_
  rw [maximumf_apply, addf_apply, broadcast_apply, mm_ax_w1, broadcastTo_1b_ab_apply, scalar_ofBits,
    Ideal.ofBits_zero_f32]
  simp only [mm_adj_x]

/-- The latent block: stripe · support + b2 at row p, column q. -/
theorem pay3_at (a : FVec Ideal S400x10000 .f32) (s : FVec Ideal S10000x64 .f32) (b2 : FVec Ideal S1x64 .f32)
    (p : Fin 400) (q : Fin 64) :
    k0_pay3 (F := Ideal) a s b2 (ix2 p q) = (∑ j : Fin 10000, a (ix2 p j) * s (ix2 j q)) + b2 (ix2 0 q) := by
  unfold k0_pay3
  simp only [shapeCast_self]
  rw [addf_apply, mm_adj_s, broadcastTo_1b_ab_apply]

/-- The decoded block: one half times tanh of one half times (z block · zᵀ), plus one half, at row p, column r. -/
theorem k1_pay2_at (zi : FVec Ideal S400x64 .f32) (zt : FVec Ideal S64x10000 .f32) (p : Fin 400) (r : Fin 10000) :
    k1_pay2 (F := Ideal) zi zt (ix2 p r)
      = Cert.Spec.half * Ideal.tanh (Cert.Spec.half * ∑ k : Fin 64, zi (ix2 p k) * zt (ix2 k r)) + Cert.Spec.half := by
  unfold k1_pay2
  simp only [shapeCast_self]
  rw [← mm_z_zt zi zt p r]
  rfl

end Cert.PayIdx

end
-- ==== Proof.Stripe.lean ====
/- From a block's payload to the arrangement of Cert.Spec.

   A payload works on a stripe of rows of adj (or of the latent code).  When the stripe's row p is row r of
   the whole array, the payload at row p, column q is the arrangement's entry at row r, column q: the
   support s2K, the latent code zK, the decoded adjacency recK. -/
import proofs.«108190_g79602923864535_cont_9to1_m_41_30_alg».proof.Proof.Spec
import proofs.«108190_g79602923864535_cont_9to1_m_41_30_alg».proof.Proof.PayIdx

noncomputable section

namespace Cert.Stripe

open Idealize.ShloMosaic Idealize.ShloMosaic.ValueIdx Cert.KernelIdeal Cert.KernelIdeal.Gen Cert.Spec
open scoped BigOperators

variable (x : FVec Ideal S10000x128 .f32) (adj : FVec Ideal S10000x10000 .f32) (W1 : FVec Ideal S128x128 .f32)
  (b1 : FVec Ideal S128 .f32) (W2 : FVec Ideal S128x64 .f32) (b2 : FVec Ideal S64 .f32)

/-- The support block of a stripe of adj, at a row that is row r of adj, is the support at row r. -/
theorem pay1_eq_s2K (a : FVec Ideal S400x10000 .f32) (b1r : FVec Ideal S1x128 .f32) (p : Fin 400) (r : Fin 10000)
    (ha : ∀ n : Fin 10000, a (ix2 p n) = adj (ix2 r n))
    (hb : ∀ k : Fin 128, b1r (ix2 0 k) = b1 (ix1 k)) (q : Fin 64) :
    k0_pay1 (F := Ideal) a x W1 b1r W2 (ix2 p q) = s2K x adj W1 b1 W2 b2 r q := by
  rw [Cert.PayIdx.pay1_at]
  unfold s2K hidK
  simp only [ha, hb]

/-- The latent block of a stripe of adj over the whole support, at a row that is row r of adj, is the latent
    code at row r. -/
theorem pay3_eq_zK (a : FVec Ideal S400x10000 .f32) (s : FVec Ideal S10000x64 .f32) (b2r : FVec Ideal S1x64 .f32)
    (p : Fin 400) (r : Fin 10000)
    (ha : ∀ n : Fin 10000, a (ix2 p n) = adj (ix2 r n))
    (hs : ∀ (j : Fin 10000) (c : Fin 64), s (ix2 j c) = s2K x adj W1 b1 W2 b2 j c)
    (hb : ∀ c : Fin 64, b2r (ix2 0 c) = b2 (ix1 c)) (q : Fin 64) :
    k0_pay3 (F := Ideal) a s b2r (ix2 p q) = zK x adj W1 b1 W2 b2 r q := by
  rw [Cert.PayIdx.pay3_at]
  unfold zK
  simp only [ha, hs, hb]

/-- The decoded block of a stripe of the latent code against the transposed latent code, at a row that is row r
    of the latent code, is the decoded adjacency at row r. -/
theorem k1_pay2_eq_recK (zi : FVec Ideal S400x64 .f32) (zt : FVec Ideal S64x10000 .f32) (p : Fin 400) (r : Fin 10000)
    (hzi : ∀ k : Fin 64, zi (ix2 p k) = zK x adj W1 b1 W2 b2 r k)
    (hzt : ∀ (k : Fin 64) (r' : Fin 10000), zt (ix2 k r') = zK x adj W1 b1 W2 b2 r' k) (r' : Fin 10000) :
    k1_pay2 (F := Ideal) zi zt (ix2 p r') = recK x adj W1 b1 W2 b2 r r' := by
  rw [Cert.PayIdx.k1_pay2_at]
  unfold recK
  simp only [hzi, hzt]

end Cert.Stripe

end
-- ==== Proof.KI.R0Bridge.lean ====
/- Pipeline 0's blocks and results in the arrangement of Cert.Spec.

   The adjacency window's block at point t is the stripe of 400 rows at block row t in the first phase and
   49 − t in the second (except at the point that works from the cached stripe); the other input windows hold
   their whole arrays at every point.  So the first scratch, once full, is the support s2K row by row, and the
   output array is the latent code zK row by row. -/
import proofs.«108190_g79602923864535_cont_9to1_m_41_30_alg».proof.Proof.KI.R0Val
import proofs.«108190_g79602923864535_cont_9to1_m_41_30_alg».proof.Proof.PayIdx
import proofs.«108190_g79602923864535_cont_9to1_m_41_30_alg».proof.Proof.Stripe
import proofs.«108190_g79602923864535_cont_9to1_m_41_30_alg».proof.Proof.Spec
import Idealize.ShloMosaic.Lib.ValueIdx

set_option maxRecDepth 16384

noncomputable section

namespace Cert.KernelIdeal.R0

open Idealize.ShloMosaic Idealize.ShloMosaic.TcCoe
open Idealize.SL.Sem
open Idealize.ShloMosaic.Pipeline (Dat Cfg Window)
open Cert.KernelIdeal Cert.KernelIdeal.Gen
open Idealize.ShloMosaic.ValueIdx

variable (V : (c : Dev nD) → (b : Ref sig .tc) → Buf (Elt Ideal) ((c : Thread nD τ).loc b))

/-! ## Where the input windows sit -/

/-- The adjacency window: block row t in the first phase; 49 − t in the second, off the point that works from
    the cached stripe; block column 0 always. -/
theorem idx0_in_facts : ∀ t : Fin cfg0.N,
    (t.val < 25 → win0_0.index t (0 : Fin 2) = t.val)
      ∧ (25 ≤ t.val → t.val ≠ 48 → win0_0.index t (0 : Fin 2) = 49 - t.val)
      ∧ win0_0.index t (1 : Fin 2) = 0 :=
  (by decide +kernel : ∀ t : Fin grid0.N,
    (t.val < 25 → win0_0.index t (0 : Fin 2) = t.val)
      ∧ (25 ≤ t.val → t.val ≠ 48 → win0_0.index t (0 : Fin 2) = 49 - t.val)
      ∧ win0_0.index t (1 : Fin 2) = 0)

/-- The other input windows sit on block (0, 0) at every point. -/
theorem idx_whole_facts : ∀ t : Fin cfg0.N,
    (∀ a : Fin 2, win0_1.index t a = 0) ∧ (∀ a : Fin 2, win0_2.index t a = 0) ∧ (∀ a : Fin 2, win0_3.index t a = 0)
      ∧ (∀ a : Fin 2, win0_4.index t a = 0) ∧ (∀ a : Fin 2, win0_5.index t a = 0) :=
  (by decide +kernel : ∀ t : Fin grid0.N,
    (∀ a : Fin 2, win0_1.index t a = 0) ∧ (∀ a : Fin 2, win0_2.index t a = 0) ∧ (∀ a : Fin 2, win0_3.index t a = 0)
      ∧ (∀ a : Fin 2, win0_4.index t a = 0) ∧ (∀ a : Fin 2, win0_5.index t a = 0))

/-! ## The blocks read off the arrays -/

/-- The adjacency block at point t, row p: row (block row · 400 + p) of adj. -/
theorem iblk0_0_at (c : Dev nD) (t : Fin cfg0.N) (p : Fin 400) (n : Fin 10000) (r : Fin 10000)
    (hr : r.val = win0_0.index t (0 : Fin 2) * 400 + p.val) :
    (iblk0 V c 0 t : S400x10000.Idx → EReal) (ix2 p n) = V c main_arg1 (ix2 r n) := by
  show V c main_arg1 (((cfg0.win 0).blk t).view.emb (ix2 p n)) = V c main_arg1 (ix2 r n)
  refine congrArg _ (funext fun a => Fin.ext ?_)
  have h1 := (idx0_in_facts t).2.2
  match a with
  | ⟨0, _⟩ =>
    show win0_0.index t (0 : Fin 2) * 400 + 1 * p.val = r.val
    omega
  | ⟨1, _⟩ =>
    show win0_0.index t (1 : Fin 2) * 10000 + 1 * n.val = n.val
    rw [h1]; omega

/-- Window 1 holds its whole array at every point. -/
theorem iblk0_1_eq (c : Dev nD) (t : Fin cfg0.N) : (iblk0 V c 1 t : S10000x128.Idx → EReal) = V c main_arg0 := by
  funext y
  show V c main_arg0 (((cfg0.win 1).blk t).view.emb y) = V c main_arg0 y
  refine congrArg _ (funext fun a => Fin.ext ?_)
  have h := (idx_whole_facts t).1
  match a with
  | ⟨0, _⟩ =>
    show win0_1.index t (0 : Fin 2) * 10000 + 1 * (y 0).val = (y 0).val
    rw [h 0]; omega
  | ⟨1, _⟩ =>
    show win0_1.index t (1 : Fin 2) * 128 + 1 * (y 1).val = (y 1).val
    rw [h 1]; omega

/-- Window 2 holds its whole array at every point. -/
theorem iblk0_2_eq (c : Dev nD) (t : Fin cfg0.N) : (iblk0 V c 2 t : S128x128.Idx → EReal) = V c main_arg2 := by
  funext y
  show V c main_arg2 (((cfg0.win 2).blk t).view.emb y) = V c main_arg2 y
  refine congrArg _ (funext fun a => Fin.ext ?_)
  have h := (idx_whole_facts t).2.1
  match a with
  | ⟨0, _⟩ =>
    show win0_2.index t (0 : Fin 2) * 128 + 1 * (y 0).val = (y 0).val
    rw [h 0]; omega
  | ⟨1, _⟩ =>
    show win0_2.index t (1 : Fin 2) * 128 + 1 * (y 1).val = (y 1).val
    rw [h 1]; omega

/-- Window 3 holds its whole array at every point. -/
theorem iblk0_3_eq (c : Dev nD) (t : Fin cfg0.N) : (iblk0 V c 3 t : S1x128.Idx → EReal) = V c main_v0 := by
  funext y
  show V c main_v0 (((cfg0.win 3).blk t).view.emb y) = V c main_v0 y
  refine congrArg _ (funext fun a => Fin.ext ?_)
  have h := (idx_whole_facts t).2.2.1
  match a with
  | ⟨0, _⟩ =>
    show win0_3.index t (0 : Fin 2) * 1 + 1 * (y 0).val = (y 0).val
    rw [h 0]; omega
  | ⟨1, _⟩ =>
    show win0_3.index t (1 : Fin 2) * 128 + 1 * (y 1).val = (y 1).val
    rw [h 1]; omega

/-- Window 4 holds its whole array at every point. -/
theorem iblk0_4_eq (c : Dev nD) (t : Fin cfg0.N) : (iblk0 V c 4 t : S128x64.Idx → EReal) = V c main_arg4 := by
  funext y
  show V c main_arg4 (((cfg0.win 4).blk t).view.emb y) = V c main_arg4 y
  refine congrArg _ (funext fun a => Fin.ext ?_)
  have h := (idx_whole_facts t).2.2.2.1
  match a with
  | ⟨0, _⟩ =>
    show win0_4.index t (0 : Fin 2) * 128 + 1 * (y 0).val = (y 0).val
    rw [h 0]; omega
  | ⟨1, _⟩ =>
    show win0_4.index t (1 : Fin 2) * 64 + 1 * (y 1).val = (y 1).val
    rw [h 1]; omega

/-- Window 5 holds its whole array at every point. -/
theorem iblk0_5_eq (c : Dev nD) (t : Fin cfg0.N) : (iblk0 V c 5 t : S1x64.Idx → EReal) = V c main_v1 := by
  funext y
  show V c main_v1 (((cfg0.win 5).blk t).view.emb y) = V c main_v1 y
  refine congrArg _ (funext fun a => Fin.ext ?_)
  have h := (idx_whole_facts t).2.2.2.2
  match a with
  | ⟨0, _⟩ =>
    show win0_5.index t (0 : Fin 2) * 1 + 1 * (y 0).val = (y 0).val
    rw [h 0]; omega
  | ⟨1, _⟩ =>
    show win0_5.index t (1 : Fin 2) * 64 + 1 * (y 1).val = (y 1).val
    rw [h 1]; omega

/-! ## The first scratch, once full, is the support -/

/-- Row j of the full first scratch is the support at row j. -/
theorem s2full_at (c : Dev nD) (j : Fin 10000) (q : Fin 64) :
    s2full V c (ix2 j q) = Cert.Spec.s2K (V c main_arg0) (V c main_arg1) (V c main_arg2) (fun i => V c main_v0 (ix2 0 (i 0))) (V c main_arg4) (fun i => V c main_v1 (ix2 0 (i 0))) j q := by
  have hj : j.val < 10000 := j.isLt
  have ht : (rowPt (ix2 j q : S10000x64.Idx)).val = j.val / 400 := rfl
  show k0_pay1 (F := Ideal) (iblk0 V c 0 (rowPt (ix2 j q))) (iblk0 V c 1 (rowPt (ix2 j q))) (iblk0 V c 2 (rowPt (ix2 j q)))
    (iblk0 V c 3 (rowPt (ix2 j q))) (iblk0 V c 4 (rowPt (ix2 j q))) (ix2 (⟨j.val % 400, Nat.mod_lt _ (by omega)⟩ : Fin 400) q) = _
  rw [iblk0_1_eq V c, iblk0_2_eq V c, iblk0_3_eq V c, iblk0_4_eq V c]
  refine Cert.Stripe.pay1_eq_s2K (V c main_arg0) (V c main_arg1) (V c main_arg2) (fun i => V c main_v0 (ix2 0 (i 0)))
    (V c main_arg4) (fun i => V c main_v1 (ix2 0 (i 0))) (iblk0 V c 0 (rowPt (ix2 j q))) (V c main_v0) _ j (fun n => ?_)
    (fun k => rfl) q
  refine iblk0_0_at V c _ _ n j ?_
  rw [((idx0_in_facts (rowPt (ix2 j q))).1 (by rw [ht]; omega)), ht]
  show j.val = j.val / 400 * 400 + j.val % 400
  omega

/-! ## The output array is the latent code -/

/-- The stripe of adj the output block that holds row r is computed from, at that row: row r of adj. -/
theorem srcA_at (c : Dev nD) (r : Fin 10000) (q : Fin 64) (n : Fin 10000) :
    (srcA V c (zPt (ix2 r q : S10000x64.Idx)) : S400x10000.Idx → EReal)
        (ix2 (⟨r.val % 400, Nat.mod_lt _ (by omega)⟩ : Fin 400) n) = V c main_arg1 (ix2 r n) := by
  have hr : r.val < 10000 := r.isLt
  have ht : (zPt (ix2 r q : S10000x64.Idx)).val = 49 - r.val / 400 := rfl
  unfold srcA
  split
  · rename_i h48
    rw [Cert.PayIdx.pay2_eq]
    refine iblk0_0_at V c pt1 _ n r ?_
    rw [(idx0_in_facts pt1).1 (by show 1 < 25; omega)]
    show r.val = 1 * 400 + r.val % 400
    rw [ht] at h48
    omega
  · rename_i h48
    refine iblk0_0_at V c _ _ n r ?_
    rw [(idx0_in_facts (zPt (ix2 r q))).2.1 (by rw [ht]; omega) h48, ht]
    show r.val = (49 - (49 - r.val / 400)) * 400 + r.val % 400
    omega

/-- Row r of the output array is the latent code at row r. -/
theorem Gz_at (c : Dev nD) (r : Fin 10000) (q : Fin 64) :
    Gz V c (ix2 r q) = Cert.Spec.zK (V c main_arg0) (V c main_arg1) (V c main_arg2) (fun i => V c main_v0 (ix2 0 (i 0))) (V c main_arg4) (fun i => V c main_v1 (ix2 0 (i 0))) r q := by
  show k0_pay3 (F := Ideal) (srcA V c (zPt (ix2 r q))) (s2full V c) (iblk0 V c 5 (zPt (ix2 r q)))
    (ix2 (⟨r.val % 400, Nat.mod_lt _ (by omega)⟩ : Fin 400) q) = _
  rw [iblk0_5_eq V c]
  exact Cert.Stripe.pay3_eq_zK (V c main_arg0) (V c main_arg1) (V c main_arg2) (fun i => V c main_v0 (ix2 0 (i 0)))
    (V c main_arg4) (fun i => V c main_v1 (ix2 0 (i 0))) (srcA V c (zPt (ix2 r q))) (s2full V c) (V c main_v1) _ r
    (fun n => srcA_at V c r q n) (fun j c' => s2full_at V c j c') (fun k => rfl) q

/-- The output array of pipeline 0 is the latent code. -/
theorem Gz_eq (c : Dev nD) :
    Gz V c = fun i => Cert.Spec.zK (V c main_arg0) (V c main_arg1) (V c main_arg2) (fun i => V c main_v0 (ix2 0 (i 0))) (V c main_arg4) (fun i => V c main_v1 (ix2 0 (i 0))) (i 0) (i 1) :=
  funext fun i => (congrArg (Gz V c) (eq_ix2 i)).trans (Gz_at V c (i 0) (i 1))

end Cert.KernelIdeal.R0

end
-- ==== Proof.KI.Close.lean ====
/- The run's second result in the arrangement of Cert.Spec, over the launch memory.

   The two host reshapes write no argument, and turn b1 and b2 into one-row matrices whose row is b1, b2.  So
   pipeline 0's output, the latent code over its entry contents, is the latent code over the launch memory's six
   arguments. -/
import proofs.«108190_g79602923864535_cont_9to1_m_41_30_alg».proof.Proof.KI.RunVals
import proofs.«108190_g79602923864535_cont_9to1_m_41_30_alg».proof.Proof.KI.R0Bridge
import proofs.«108190_g79602923864535_cont_9to1_m_41_30_alg».proof.Proof.Gen.KernelIdeal.Regions
import proofs.«108190_g79602923864535_cont_9to1_m_41_30_alg».proof.Proof.Stripe
import proofs.«108190_g79602923864535_cont_9to1_m_41_30_alg».proof.Proof.Spec
import Idealize.ShloMosaic.Lib.ValueIdx
import Idealize.ShloMosaic.Lib.ValueLayout
import Idealize.ShloMosaic.Lib.StableHlo.Run

set_option maxRecDepth 16384

noncomputable section

namespace Cert.KernelIdeal.Run

open Idealize.ShloMosaic Idealize.ShloMosaic.TcCoe Idealize.ShloMosaic.Tactic
open Idealize.SL.Sem
open Idealize.ShloMosaic.Pipeline (Dat Cfg Window)
open Cert.KernelIdeal Cert.KernelIdeal.Gen
open Idealize.ShloMosaic.ValueIdx
open scoped BigOperators

variable (m : (ℓ : Loc nD τ sig) → Buf (Elt Ideal) ℓ) (ρ : Dev nD → PrngReg)

/-! ## Pipeline 0's entry contents: the arguments -/

/-- No reshape writes an argument: at pipeline 0's entry it is as launched. -/
theorem V1_main_arg0 (c : Dev nD) : V1 m ρ c main_arg0 = m ((c : Thread nD τ).loc main_arg0) :=
  StableHlo.after_of_writes_sub (hostOps0 (F := Ideal)) (W0 m ρ c) hostOps0_writes (by decide)
theorem V1_main_arg1 (c : Dev nD) : V1 m ρ c main_arg1 = m ((c : Thread nD τ).loc main_arg1) :=
  StableHlo.after_of_writes_sub (hostOps0 (F := Ideal)) (W0 m ρ c) hostOps0_writes (by decide)
theorem V1_main_arg2 (c : Dev nD) : V1 m ρ c main_arg2 = m ((c : Thread nD τ).loc main_arg2) :=
  StableHlo.after_of_writes_sub (hostOps0 (F := Ideal)) (W0 m ρ c) hostOps0_writes (by decide)
theorem V1_main_arg4 (c : Dev nD) : V1 m ρ c main_arg4 = m ((c : Thread nD τ).loc main_arg4) :=
  StableHlo.after_of_writes_sub (hostOps0 (F := Ideal)) (W0 m ρ c) hostOps0_writes (by decide)

/-! ## Pipeline 0's entry contents: the reshaped biases -/

/-- The first reshape leaves b1 as a one-row matrix. -/
theorem V1_v0_eq (c : Dev nD) :
    (V1 m ρ c main_v0 : S1x128.Idx → EReal) = shapeCast S1x128 (m ((c : Thread nD τ).loc main_arg3)) shapeCasts_S128_S1x128 := by
  show StableHlo.after (hostOps0 (F := Ideal)) (fun b => m (c, b)) (Proc.devRef .tc main_v0) = _
  after_results
  rfl
/-- The second reshape leaves b2 as a one-row matrix. -/
theorem V1_v1_eq (c : Dev nD) :
    (V1 m ρ c main_v1 : S1x64.Idx → EReal) = shapeCast S1x64 (m ((c : Thread nD τ).loc main_arg5)) shapeCasts_S64_S1x64 := by
  show StableHlo.after (hostOps0 (F := Ideal)) (fun b => m (c, b)) (Proc.devRef .tc main_v1) = _
  after_results
  rfl

/-- Its one row is b1. -/
theorem V1_v0_at (c : Dev nD) (k : Fin 128) : V1 m ρ c main_v0 (ix2 0 k) = m ((c : Thread nD τ).loc main_arg3) (ix1 k) := by
  rw [V1_v0_eq]
  exact shapeCast_a_1a_apply _ _ 0 k
/-- Its one row is b2. -/
theorem V1_v1_at (c : Dev nD) (q : Fin 64) : V1 m ρ c main_v1 (ix2 0 q) = m ((c : Thread nD τ).loc main_arg5) (ix1 q) := by
  rw [V1_v1_eq]
  exact shapeCast_a_1a_apply _ _ 0 q

/-! ## The latent code -/

/-- Pipeline 0's output is the latent code of the launch memory's six arguments. -/
theorem z_eq (c : Dev nD) :
    R0.Gz (V1 m ρ) c = fun i => Cert.Spec.zK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) := by
  have hb1 : (fun i : S128.Idx => V1 m ρ c main_v0 (ix2 0 (i 0))) = m ((c : Thread nD τ).loc main_arg3) :=
    funext fun i => (V1_v0_at m ρ c (i 0)).trans (congrArg _ (eq_ix1 i).symm)
  have hb2 : (fun i : S64.Idx => V1 m ρ c main_v1 (ix2 0 (i 0))) = m ((c : Thread nD τ).loc main_arg5) :=
    funext fun i => (V1_v1_at m ρ c (i 0)).trans (congrArg _ (eq_ix1 i).symm)
  rw [R0.Gz_eq, V1_main_arg0, V1_main_arg1, V1_main_arg2, V1_main_arg4]
  exact funext fun i => by
    show Cert.Spec.zK _ _ _ (fun i : S128.Idx => V1 m ρ c main_v0 (ix2 0 (i 0))) _
      (fun i : S64.Idx => V1 m ρ c main_v1 (ix2 0 (i 0))) (i 0) (i 1) = _
    rw [hb1, hb2]

end Cert.KernelIdeal.Run

end
-- ==== Proof.KI.R1Bridge.lean ====
/- Pipeline 1's block and result in the arrangement of Cert.Spec.

   The input window holds the whole latent array at every point, and the rows a point reads from it start at 400
   times the point. So the scratch holds the transpose of the latent array, and the output array at row r, column q
   is one half times the hyperbolic tangent of one half of the inner product of rows r and q of the latent array,
   plus one half. -/
import proofs.«108190_g79602923864535_cont_9to1_m_41_30_alg».proof.Proof.KI.R1Val
import proofs.«108190_g79602923864535_cont_9to1_m_41_30_alg».proof.Proof.PayIdx
import proofs.«108190_g79602923864535_cont_9to1_m_41_30_alg».proof.Proof.Spec
import Idealize.ShloMosaic.Lib.ValueIdx

set_option maxRecDepth 16384

noncomputable section

namespace Cert.KernelIdeal.R1

open Idealize.ShloMosaic Idealize.ShloMosaic.TcCoe
open Idealize.SL.Sem
open Idealize.ShloMosaic.Pipeline (Dat Cfg Window)
open Cert.KernelIdeal Cert.KernelIdeal.Gen
open Idealize.ShloMosaic.ValueIdx
open scoped BigOperators

variable (V : (c : Dev nD) → (b : Ref sig .tc) → Buf (Elt Ideal) ((c : Thread nD τ).loc b))

/-! ## Where the point reads -/

/-- The rows of the latent array a point reads start at 400 times the point, at column 0 — decided over the grid. -/
theorem hoff1 : ∀ t : Fin cfg1.N, k1_off1 (grid1.coords t) 0 = 400 * t.val ∧ k1_off1 (grid1.coords t) 1 = 0 :=
  (by decide +kernel : ∀ t : Fin grid1.N, k1_off1 (grid1.coords t) 0 = 400 * t.val ∧ k1_off1 (grid1.coords t) 1 = 0)

/-- The input window sits on block (0, 0) at every point. -/
theorem idx1_in_facts : ∀ t : Fin cfg1.N, ∀ a : Fin 2, win1_0.index t a = 0 :=
  (by decide +kernel : ∀ t : Fin grid1.N, ∀ a : Fin 2, win1_0.index t a = 0)

/-! ## The block read off the array -/

/-- The input window holds the whole latent array at every point. -/
theorem iblk1_0_eq (c : Dev nD) (t : Fin cfg1.N) : (iblk1 V c 0 t : S10000x64.Idx → EReal) = V c main_v2 := by
  funext y
  show V c main_v2 (((cfg1.win 0).blk t).view.emb y) = V c main_v2 y
  refine congrArg _ (funext fun a => Fin.ext ?_)
  have h := idx1_in_facts t
  match a with
  | ⟨0, _⟩ =>
    show win1_0.index t (0 : Fin 2) * 10000 + 1 * (y 0).val = (y 0).val
    rw [h 0]; omega
  | ⟨1, _⟩ =>
    show win1_0.index t (1 : Fin 2) * 64 + 1 * (y 1).val = (y 1).val
    rw [h 1]; omega

/-- The rows a point reads, at local row p: row 400·t + p of the array. -/
theorem ld_rRow_at (z : Vec Ideal S10000x64 .f32) (t : Fin cfg1.N) (p : Fin 400) (k : Fin 64) (r : Fin 10000)
    (hr : r.val = 400 * t.val + p.val) :
    (View.ld (Val := Elt Ideal) (e' := .f32) z (rRow (grid1.coords t)) : S400x64.Idx → EReal) (ix2 p k) = z (ix2 r k) := by
  show z ((rRow (grid1.coords t)).idx (ix2 p k)) = z (ix2 r k)
  refine congrArg _ (funext fun a => Fin.ext ?_)
  obtain ⟨e0, e1⟩ := hoff1 t
  match a with
  | ⟨0, _⟩ =>
    show k1_off1 (grid1.coords t) 0 + 1 * p.val = r.val
    rw [e0]; omega
  | ⟨1, _⟩ =>
    show k1_off1 (grid1.coords t) 1 + 1 * k.val = k.val
    rw [e1]; omega

/-! ## The output array is the decoded adjacency -/

/-- The decoded adjacency of a latent array z at row r, column q: the logistic function of the inner product of rows
    r and q of z, written with the hyperbolic tangent. -/
def recOf (z : Cert.Spec.Mat 10000 64) (r q : Fin 10000) : EReal :=
  Cert.Spec.half * Ideal.tanh (Cert.Spec.half * ∑ k : Fin 64, z (ix2 r k) * z (ix2 q k)) + Cert.Spec.half

theorem recOf_apply (z : Cert.Spec.Mat 10000 64) (r q : Fin 10000) :
    recOf z r q = Cert.Spec.half * Ideal.tanh (Cert.Spec.half * ∑ k : Fin 64, z (ix2 r k) * z (ix2 q k)) + Cert.Spec.half := rfl

/-- Row r, column q of the output array is the decoded adjacency of the latent array the region finds. -/
theorem Grec_at (c : Dev nD) (r q : Fin 10000) : Grec V c (ix2 r q) = recOf (V c main_v2) r q := by
  have hr : r.val < 10000 := r.isLt
  have ht : (recPt (ix2 r q : S10000x10000.Idx)).val = r.val / 400 := rfl
  show (dat1 V c).after 1 (recPt (ix2 r q)) (locR (ix2 r q)) = _
  rw [after1_1, iblk1_0_eq V c, iblk1_0_eq V c]
  show k1_pay2 (F := Ideal) (View.ld (V c main_v2) (rRow (grid1.coords (recPt (ix2 r q))))) (k1_pay1 (F := Ideal) (V c main_v2))
    (ix2 (⟨r.val % 400, Nat.mod_lt _ (by omega)⟩ : Fin 400) q) = _
  rw [Cert.PayIdx.k1_pay2_at]
  unfold recOf
  refine congrArg (fun s => Cert.Spec.half * Ideal.tanh (Cert.Spec.half * s) + Cert.Spec.half) (Finset.sum_congr rfl fun k _ => ?_)
  rw [Cert.PayIdx.k1_pay1_at, ld_rRow_at (V c main_v2) (recPt (ix2 r q)) _ k r (by rw [ht]; show r.val = 400 * (r.val / 400) + r.val % 400; omega)]
  try rfl

/-- The output array of pipeline 1 is the decoded adjacency of the latent array. -/
theorem Grec_eq (c : Dev nD) : Grec V c = fun i => recOf (V c main_v2) (i 0) (i 1) :=
  funext fun i => (congrArg (Grec V c) (eq_ix2 i)).trans (Grec_at V c (i 0) (i 1))

end Cert.KernelIdeal.R1

end
-- ==== Proof.KI.CloseRec.lean ====
/- The run's first result in the arrangement of Cert.Spec, over the launch memory: pipeline 1 reads the latent
   code pipeline 0 left, so its output is that code's decoding. -/
import proofs.«108190_g79602923864535_cont_9to1_m_41_30_alg».proof.Proof.KI.Close
import proofs.«108190_g79602923864535_cont_9to1_m_41_30_alg».proof.Proof.KI.R1Bridge

set_option maxRecDepth 16384

noncomputable section

namespace Cert.KernelIdeal.Run

open Idealize.ShloMosaic Idealize.ShloMosaic.TcCoe Idealize.ShloMosaic.Tactic
open Idealize.SL.Sem
open Idealize.ShloMosaic.Pipeline (Dat Cfg Window)
open Cert.KernelIdeal Cert.KernelIdeal.Gen
open Idealize.ShloMosaic.ValueIdx
open scoped BigOperators

variable (m : (ℓ : Loc nD τ sig) → Buf (Elt Ideal) ℓ) (ρ : Dev nD → PrngReg)

/-- Pipeline 1's output is the decoded adjacency of the launch memory's six arguments. -/
theorem rec_eq (c : Dev nD) :
    R1.Grec (V2 m ρ) c = fun i => Cert.Spec.recK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) :=
  funext fun i => (congrArg (R1.Grec (V2 m ρ) c) (eq_ix2 i)).trans
    ((R1.Grec_at (V2 m ρ) c (i 0) (i 1)).trans (by
      rw [V2_v2, z_eq]
      rfl))

end Cert.KernelIdeal.Run

end
-- ==== Proof.Reassoc.lean ====
/- Sums of products of real entries inside the extended reals: the coercion of a finite sum, and
   the re-association  Σ_n a_n · (Σ_l X_nl · w_l) = Σ_l (Σ_n a_n · X_nl) · w_l,  which holds when every
   entry is a real number (in the extended reals the product does not distribute over sums that
   mix the two infinities). -/
import Mathlib.Data.EReal.Operations
import Mathlib.Algebra.BigOperators.Ring.Finset
import Mathlib.Algebra.BigOperators.Group.Finset.Sigma

noncomputable section

namespace Cert.Reassoc

open scoped BigOperators

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An array every entry of which is a real number is the coercion of a real array. -/
theorem exists_real_fun {ι : Type*} (f : ι → EReal) (h : ∀ i, ∃ r : ℝ, f i = (r : EReal)) :
    ∃ g : ι → ℝ, f = fun i => (g i : EReal) := by
  choose g hg using h
  exact ⟨g, funext hg⟩

/-- Re-association of a double sum of products of real entries. -/
theorem sum_mul_sum_mul {N L : Type*} [Fintype N] [Fintype L] (a : N → EReal) (X : N → L → EReal) (w : L → EReal)
    (ha : ∀ n, ∃ r : ℝ, a n = (r : EReal)) (hX : ∀ n l, ∃ r : ℝ, X n l = (r : EReal))
    (hw : ∀ l, ∃ r : ℝ, w l = (r : EReal)) :
    ∑ n, a n * ∑ l, X n l * w l = ∑ l, (∑ n, a n * X n l) * w l := by
  choose a' ha' using ha
  choose X' hX' using hX
  choose w' hw' using hw
  simp only [ha', hX', hw', ← EReal.coe_mul, ← coe_sum]
  rw [EReal.coe_eq_coe_iff]
  simp only [Finset.mul_sum, Finset.sum_mul]
  rw [Finset.sum_comm]
  exact Finset.sum_congr rfl fun l _ => Finset.sum_congr rfl fun n _ => (mul_assoc _ _ _).symm

end Cert.Reassoc

end
-- ==== Proof.Logistic.lean ====
/- The logistic function through the hyperbolic tangent, on every extended real:
     (1/2) · tanh ((1/2) · g) + 1/2 = 1 / (1 + exp (−g)),
   with tanh (−∞) = −1, tanh (+∞) = 1, exp (−∞) = 0, exp (+∞) = +∞ and 1 / (+∞) = 0. -/
import proofs.«108190_g79602923864535_cont_9to1_m_41_30_alg».proof.Proof.Spec

noncomputable section

namespace Cert.Logistic

open Idealize.ShloMosaic

/-- On the reals: with a = e^(r/2) and b = e^(−r/2), a·b = 1, both sides are a / (a + b). -/
theorem real_half_tanh (r : ℝ) : 1 / 2 * Real.tanh (1 / 2 * r) + 1 / 2 = (1 + Real.exp (-r))⁻¹ := by
  have hb : Real.exp (-r) = Real.exp (-(1 / 2 * r)) * Real.exp (-(1 / 2 * r)) := by
    rw [← Real.exp_add]; congr 1; ring
  have hab : Real.exp (1 / 2 * r) * Real.exp (-(1 / 2 * r)) = 1 := by
    rw [← Real.exp_add, add_neg_cancel, Real.exp_zero]
  rw [Real.tanh_eq_sinh_div_cosh, Real.sinh_eq, Real.cosh_eq, hb]
  generalize Real.exp (1 / 2 * r) = a at hab ⊢
  have hbpos : 0 < Real.exp (-(1 / 2 * r)) := Real.exp_pos _
  generalize Real.exp (-(1 / 2 * r)) = b at hab hbpos ⊢
  have hapos : 0 < a := by
    by_contra h
    have : a * b ≤ 0 := mul_nonpos_of_nonpos_of_nonneg (not_lt.mp h) hbpos.le
    linarith
  have hs : a + b ≠ 0 := (add_pos hapos hbpos).ne'
  have h1 : (1 + b * b) ≠ 0 := by positivity
  have key : (1 + b * b)⁻¹ = a / (a + b) := by
    rw [inv_eq_one_div, div_eq_div_iff h1 hs]
    linear_combination (-b) * hab
  rw [key]
  field_simp
  ring

/-- The f32 word 0x3F800000 denotes one. -/
theorem one_eq : Ideal.ofBits .f32 0x3F800000#32 = 1 := by
  simp [Ideal.ofBits, Ideal.ieee, -EReal.coe_mul]
  norm_num

/-- The identity on the extended reals. -/
theorem half_tanh_eq_logistic (g : EReal) :
    Cert.Spec.half * Ideal.tanh (Cert.Spec.half * g) + Cert.Spec.half = Ideal.logistic g := by
  rw [Cert.Spec.half_eq]
  have hpos : (0 : ℝ) < 1 / 2 := by norm_num
  induction g using EReal.rec with
  | bot =>
    rw [EReal.coe_mul_bot_of_pos hpos, Ideal.tanh_bot, Ideal.logistic_bot, mul_neg, mul_one, ← EReal.coe_neg,
      ← EReal.coe_add, neg_add_cancel, EReal.coe_zero]
  | top =>
    rw [EReal.coe_mul_top_of_pos hpos, Ideal.tanh_top, Ideal.logistic_top, mul_one, ← EReal.coe_add]
    norm_num
  | coe r =>
    rw [← EReal.coe_mul, Ideal.tanh_coe, ← EReal.coe_mul, ← EReal.coe_add, Ideal.logistic_coe, real_half_tanh]

/-- The reference spells the logistic function as one over one plus the exponential of the negation,
    with the f32 word of one in both places. -/
theorem div_one_add_exp_neg (g : EReal) :
    Ideal.div (Ideal.ofBits .f32 0x3F800000#32) (Ideal.ofBits .f32 0x3F800000#32 + Ideal.exp (-g))
      = Cert.Spec.half * Ideal.tanh (Cert.Spec.half * g) + Cert.Spec.half := by
  rw [one_eq, half_tanh_eq_logistic]
  rfl

end Cert.Logistic

end
-- ==== Proof.RefBridge.lean ====
/- The reference program read index by index, and brought to the kernel's arrangement.

   The reference computes  h = relu (adj · (x · W1) + b1),  z = adj · (h · W2) + b2,
   rec = 1 / (1 + exp (−(z · zᵀ))).  When every entry of x, adj and W1 is a real number,
   adj · (x · W1) = (adj · x) · W1 entry by entry, so z is the latent code of Cert.Spec; and
   1 / (1 + exp (−g)) = (1/2) · tanh (g/2) + 1/2 on every extended real, so rec is its decoding. -/
import proofs.«108190_g79602923864535_cont_9to1_m_41_30_alg».proof.Proof.Spec
import proofs.«108190_g79602923864535_cont_9to1_m_41_30_alg».proof.Proof.Reassoc
import proofs.«108190_g79602923864535_cont_9to1_m_41_30_alg».proof.Proof.Logistic
import proofs.«108190_g79602923864535_cont_9to1_m_41_30_alg».proof.Proof.Gen.ReferenceIdeal.Read
import Idealize.ShloMosaic.Lib.ValueIdx
import Idealize.ShloMosaic.PureOps.Ideal.Laws

noncomputable section

namespace Cert.RefBridge

open Idealize.ShloMosaic Idealize.ShloMosaic.ValueIdx Idealize.ShloMosaic.StableHlo
open Cert.ReferenceIdeal Cert.ReferenceIdeal.Gen Cert.ReferenceIdeal.Read Cert.Spec
open scoped BigOperators

variable (x : FVec Ideal S10000x128 .f32) (adj : FVec Ideal S10000x10000 .f32) (W1 : FVec Ideal S128x128 .f32) (b1 : FVec Ideal S128 .f32) (W2 : FVec Ideal S128x64 .f32) (b2 : FVec Ideal S64 .f32)

/-! ## The operand indices of the reference's contractions and layout operations, at coordinates -/

theorem lidx_v0 (n : Fin 10000) (k l : Fin 128) : lidx_main_v0 (ix2 n k) l = ix2 n l := by
  funext a; match a with | ⟨0, _⟩ => rfl | ⟨1, _⟩ => rfl
theorem ridx_v0 (n : Fin 10000) (k l : Fin 128) : ridx_main_v0 (ix2 n k) l = ix2 l k := by
  funext a; match a with | ⟨0, _⟩ => rfl | ⟨1, _⟩ => rfl
theorem lidx_v1 (j : Fin 10000) (k : Fin 128) (n : Fin 10000) : lidx_main_v1 (ix2 j k) n = ix2 j n := by
  funext a; match a with | ⟨0, _⟩ => rfl | ⟨1, _⟩ => rfl
theorem ridx_v1 (j : Fin 10000) (k : Fin 128) (n : Fin 10000) : ridx_main_v1 (ix2 j k) n = ix2 n k := by
  funext a; match a with | ⟨0, _⟩ => rfl | ⟨1, _⟩ => rfl
theorem idx_v3 (j : Fin 10000) (k : Fin 128) : idx_main_v2 (idx_main_v3 (ix2 j k)) = ix1 k := by
  funext a; match a with | ⟨0, _⟩ => rfl
theorem lidx_v6 (j : Fin 10000) (c : Fin 64) (k : Fin 128) : lidx_main_v6 (ix2 j c) k = ix2 j k := by
  funext a; match a with | ⟨0, _⟩ => rfl | ⟨1, _⟩ => rfl
theorem ridx_v6 (j : Fin 10000) (c : Fin 64) (k : Fin 128) : ridx_main_v6 (ix2 j c) k = ix2 k c := by
  funext a; match a with | ⟨0, _⟩ => rfl | ⟨1, _⟩ => rfl
theorem lidx_v7 (r : Fin 10000) (c : Fin 64) (j : Fin 10000) : lidx_main_v7 (ix2 r c) j = ix2 r j := by
  funext a; match a with | ⟨0, _⟩ => rfl | ⟨1, _⟩ => rfl
theorem ridx_v7 (r : Fin 10000) (c : Fin 64) (j : Fin 10000) : ridx_main_v7 (ix2 r c) j = ix2 j c := by
  funext a; match a with | ⟨0, _⟩ => rfl | ⟨1, _⟩ => rfl
theorem idx_v9 (r : Fin 10000) (c : Fin 64) : idx_main_v8 (idx_main_v9 (ix2 r c)) = ix1 c := by
  funext a; match a with | ⟨0, _⟩ => rfl
theorem lidx_v12 (r c : Fin 10000) (k : Fin 64) : lidx_main_v12 (ix2 r c) k = ix2 r k := by
  funext a; match a with | ⟨0, _⟩ => rfl | ⟨1, _⟩ => rfl
theorem ridx_v12 (r c : Fin 10000) (k : Fin 64) : idx_main_v11 (ridx_main_v12 (ix2 r c) k) = ix2 c k := by
  funext a; match a with | ⟨0, _⟩ => rfl | ⟨1, _⟩ => rfl

/-! ## The reference, stage by stage, at coordinates -/

/-- x · W1 at row n, column k. -/
theorem v0_at (n : Fin 10000) (k : Fin 128) :
    val_main_v0 (F := Ideal) x W1 (ix2 n k) = ∑ l : Fin 128, x (ix2 n l) * W1 (ix2 l k) := by
  rw [val_main_v0_apply]
  exact Finset.sum_congr rfl fun l _ => by rw [lidx_v0, ridx_v0]

/-- adj · (x · W1) at row j, column k, re-associated to (adj · x) · W1: every entry is real. -/
theorem v1_at (hx : ∀ i, ∃ r : ℝ, x i = (r : EReal)) (hadj : ∀ i, ∃ r : ℝ, adj i = (r : EReal))
    (hW1 : ∀ i, ∃ r : ℝ, W1 i = (r : EReal)) (j : Fin 10000) (k : Fin 128) :
    val_main_v1 (F := Ideal) x adj W1 (ix2 j k)
      = ∑ l : Fin 128, (∑ n : Fin 10000, adj (ix2 j n) * x (ix2 n l)) * W1 (ix2 l k) := by
  rw [val_main_v1_apply]
  refine Eq.trans (Finset.sum_congr rfl fun n _ => ?_)
    (Cert.Reassoc.sum_mul_sum_mul (fun n : Fin 10000 => adj (ix2 j n)) (fun (n : Fin 10000) (l : Fin 128) => x (ix2 n l))
      (fun l : Fin 128 => W1 (ix2 l k)) (fun n => hadj _) (fun n l => hx _) (fun l => hW1 _))
  rw [lidx_v1, ridx_v1, v0_at]

/-- The hidden layer at row j, column k. -/
theorem v5_at (hx : ∀ i, ∃ r : ℝ, x i = (r : EReal)) (hadj : ∀ i, ∃ r : ℝ, adj i = (r : EReal))
    (hW1 : ∀ i, ∃ r : ℝ, W1 i = (r : EReal)) (j : Fin 10000) (k : Fin 128) :
    val_main_v5 (F := Ideal) x adj W1 b1 (ix2 j k) = hidK x adj W1 b1 W2 b2 j k := by
  rw [val_main_v5_apply, val_main_v4_apply, val_main_call0_v0_apply, val_main_call0_cst_apply, val_main_v3_apply,
    val_main_v2_apply, idx_v3, v1_at x adj W1 hx hadj hW1, Ideal.maximumf_def, Ideal.addf_def, Ideal.ofBits_def,
    Ideal.ofBits_zero_f32]
  rfl

/-- The second layer's support at row j, column c. -/
theorem v6_at (hx : ∀ i, ∃ r : ℝ, x i = (r : EReal)) (hadj : ∀ i, ∃ r : ℝ, adj i = (r : EReal))
    (hW1 : ∀ i, ∃ r : ℝ, W1 i = (r : EReal)) (j : Fin 10000) (c : Fin 64) :
    val_main_v6 (F := Ideal) x adj W1 b1 W2 (ix2 j c) = s2K x adj W1 b1 W2 b2 j c := by
  rw [val_main_v6_apply]
  exact Finset.sum_congr rfl fun k _ => by rw [lidx_v6, ridx_v6, v5_at x adj W1 b1 W2 b2 hx hadj hW1]

/-- The latent code at row r, column c. -/
theorem v10_at (hx : ∀ i, ∃ r : ℝ, x i = (r : EReal)) (hadj : ∀ i, ∃ r : ℝ, adj i = (r : EReal))
    (hW1 : ∀ i, ∃ r : ℝ, W1 i = (r : EReal)) (r : Fin 10000) (c : Fin 64) :
    val_main_v10 (F := Ideal) x adj W1 b1 W2 b2 (ix2 r c) = zK x adj W1 b1 W2 b2 r c := by
  rw [val_main_v10_apply, val_main_v9_apply, val_main_v8_apply, idx_v9, val_main_v7_apply, Ideal.addf_def]
  unfold zK
  congr 1
  exact Finset.sum_congr rfl fun j _ => by rw [lidx_v7, ridx_v7, v6_at x adj W1 b1 W2 b2 hx hadj hW1]

/-- z · zᵀ at row r, column c. -/
theorem v12_at (hx : ∀ i, ∃ r : ℝ, x i = (r : EReal)) (hadj : ∀ i, ∃ r : ℝ, adj i = (r : EReal))
    (hW1 : ∀ i, ∃ r : ℝ, W1 i = (r : EReal)) (r c : Fin 10000) :
    val_main_v12 (F := Ideal) x adj W1 b1 W2 b2 (ix2 r c)
      = ∑ k : Fin 64, zK x adj W1 b1 W2 b2 r k * zK x adj W1 b1 W2 b2 c k := by
  rw [val_main_v12_apply]
  exact Finset.sum_congr rfl fun k _ => by
    rw [val_main_v11_apply, lidx_v12, ridx_v12, v10_at x adj W1 b1 W2 b2 hx hadj hW1, v10_at x adj W1 b1 W2 b2 hx hadj hW1]

/-- The decoded adjacency at row r, column c. -/
theorem v18_at (hx : ∀ i, ∃ r : ℝ, x i = (r : EReal)) (hadj : ∀ i, ∃ r : ℝ, adj i = (r : EReal))
    (hW1 : ∀ i, ∃ r : ℝ, W1 i = (r : EReal)) (r c : Fin 10000) :
    val_main_v18 (F := Ideal) x adj W1 b1 W2 b2 (ix2 r c) = recK x adj W1 b1 W2 b2 r c := by
  rw [val_main_v18_apply, val_main_v17_apply, val_main_cst_0_apply, val_main_v16_apply, val_main_v15_apply,
    val_main_cst_apply, val_main_v14_apply, val_main_v13_apply, v12_at x adj W1 b1 W2 b2 hx hadj hW1,
    Ideal.hostDivf_def, Ideal.addf_def, Ideal.hostUnary_exp_def, Ideal.hostNegf_def, Ideal.negf_def, Ideal.ofBits_def,
    Cert.Logistic.div_one_add_exp_neg]
  rfl

/-! ## The two results as whole arrays -/

/-- The reference's latent code is the kernel's arrangement of it. -/
theorem ref_z_val (hx : ∀ i, ∃ r : ℝ, x i = (r : EReal)) (hadj : ∀ i, ∃ r : ℝ, adj i = (r : EReal))
    (hW1 : ∀ i, ∃ r : ℝ, W1 i = (r : EReal)) :
    val_main_v10 (F := Ideal) x adj W1 b1 W2 b2 = fun i => zK x adj W1 b1 W2 b2 (i 0) (i 1) :=
  funext fun i => (congrArg (val_main_v10 (F := Ideal) x adj W1 b1 W2 b2) (eq_ix2 i)).trans
    (v10_at x adj W1 b1 W2 b2 hx hadj hW1 (i 0) (i 1))

/-- The reference's decoded adjacency is the kernel's arrangement of it. -/
theorem ref_rec_val (hx : ∀ i, ∃ r : ℝ, x i = (r : EReal)) (hadj : ∀ i, ∃ r : ℝ, adj i = (r : EReal))
    (hW1 : ∀ i, ∃ r : ℝ, W1 i = (r : EReal)) :
    val_main_v18 (F := Ideal) x adj W1 b1 W2 b2 = fun i => recK x adj W1 b1 W2 b2 (i 0) (i 1) :=
  funext fun i => (congrArg (val_main_v18 (F := Ideal) x adj W1 b1 W2 b2) (eq_ix2 i)).trans
    (v18_at x adj W1 b1 W2 b2 hx hadj hW1 (i 0) (i 1))

/-- The term the reference's run leaves in its second result (the latent code), over the six arguments. -/
theorem ref_z (hx : ∀ i, ∃ r : ℝ, x i = (r : EReal)) (hadj : ∀ i, ∃ r : ℝ, adj i = (r : EReal))
    (hW1 : ∀ i, ∃ r : ℝ, W1 i = (r : EReal)) :
    (addf (F := Ideal) (Host.dotGeneral dot_S10000x10000_S10000x64_S10000x64_1_0_0_1_n_n none adj (Host.dotGeneral dot_S10000x128_S128x64_S10000x64_1_0_0_1_n_n none (maximumf (addf (Host.dotGeneral dot_S10000x10000_S10000x128_S10000x128_1_0_0_1_n_n none adj (Host.dotGeneral dot_S10000x128_S128x128_S10000x128_1_0_0_1_n_n none x W1)) (broadcastInDim S10000x128 ![0, 1] bcast_S1x128_S10000x128_0_1 (broadcastInDim S1x128 ![1] bcast_S128_S1x128_1 b1))) (broadcastInDim S10000x128 ![] bcast_S_S10000x128 (constant S_ .f32 0x00000000#32))) W2)) (broadcastInDim S10000x64 ![0, 1] bcast_S1x64_S10000x64_0_1 (broadcastInDim S1x64 ![1] bcast_S64_S1x64_1 b2)) : FVec Ideal S10000x64 .f32)
      = fun i => zK x adj W1 b1 W2 b2 (i 0) (i 1) :=
  (val_main_v10_eq (F := Ideal) x adj W1 b1 W2 b2).trans (ref_z_val x adj W1 b1 W2 b2 hx hadj hW1)

/-- The term the reference's run leaves in its first result (the decoded adjacency), over the six arguments. -/
theorem ref_rec (hx : ∀ i, ∃ r : ℝ, x i = (r : EReal)) (hadj : ∀ i, ∃ r : ℝ, adj i = (r : EReal))
    (hW1 : ∀ i, ∃ r : ℝ, W1 i = (r : EReal)) :
    (Host.divf (F := Ideal) (broadcastInDim S10000x10000 ![] bcast_S_S10000x10000 (constant S_ .f32 0x3F800000#32)) (addf (broadcastInDim S10000x10000 ![] bcast_S_S10000x10000 (constant S_ .f32 0x3F800000#32)) (Host.exp (Host.negf (Host.dotGeneral dot_S10000x64_S64x10000_S10000x10000_1_0_0_1_n_n none (addf (Host.dotGeneral dot_S10000x10000_S10000x64_S10000x64_1_0_0_1_n_n none adj (Host.dotGeneral dot_S10000x128_S128x64_S10000x64_1_0_0_1_n_n none (maximumf (addf (Host.dotGeneral dot_S10000x10000_S10000x128_S10000x128_1_0_0_1_n_n none adj (Host.dotGeneral dot_S10000x128_S128x128_S10000x128_1_0_0_1_n_n none x W1)) (broadcastInDim S10000x128 ![0, 1] bcast_S1x128_S10000x128_0_1 (broadcastInDim S1x128 ![1] bcast_S128_S1x128_1 b1))) (broadcastInDim S10000x128 ![] bcast_S_S10000x128 (constant S_ .f32 0x00000000#32))) W2)) (broadcastInDim S10000x64 ![0, 1] bcast_S1x64_S10000x64_0_1 (broadcastInDim S1x64 ![1] bcast_S64_S1x64_1 b2))) (transpose S64x10000 [1, 0] (addf (Host.dotGeneral dot_S10000x10000_S10000x64_S10000x64_1_0_0_1_n_n none adj (Host.dotGeneral dot_S10000x128_S128x64_S10000x64_1_0_0_1_n_n none (maximumf (addf (Host.dotGeneral dot_S10000x10000_S10000x128_S10000x128_1_0_0_1_n_n none adj (Host.dotGeneral dot_S10000x128_S128x128_S10000x128_1_0_0_1_n_n none x W1)) (broadcastInDim S10000x128 ![0, 1] bcast_S1x128_S10000x128_0_1 (broadcastInDim S1x128 ![1] bcast_S128_S1x128_1 b1))) (broadcastInDim S10000x128 ![] bcast_S_S10000x128 (constant S_ .f32 0x00000000#32))) W2)) (broadcastInDim S10000x64 ![0, 1] bcast_S1x64_S10000x64_0_1 (broadcastInDim S1x64 ![1] bcast_S64_S1x64_1 b2))) transposes_S10000x64_S64x10000_1_0))))) : FVec Ideal S10000x10000 .f32)
      = fun i => recK x adj W1 b1 W2 b2 (i 0) (i 1) :=
  (val_main_v18_eq (F := Ideal) x adj W1 b1 W2 b2).trans (ref_rec_val x adj W1 b1 W2 b2 hx hadj hW1)

end Cert.RefBridge

end
-- ==== Proof.FinitePre.lean ====
/- The precondition read back: when the predicate "every entry of every input has absolute value
   below +∞" holds, every entry of every input is a real number.

   The predicate is the conjunction, over the six inputs, of the reduction by "and" of the
   comparisons |a i| < +∞.  A conjunction that is 1 has both conjuncts 1; a reduction by "and"
   over all axes that is 1 has every operand 1; and on the extended reals max a (−a) < +∞ excludes
   exactly −∞ and +∞. -/
import proofs.«108190_g79602923864535_cont_9to1_m_41_30_alg».proof.Pre_finite_inputs
import Idealize.ShloMosaic.Lib.ReduceAll
import Idealize.ShloMosaic.Lib.ValueIdx
import Idealize.ShloMosaic.PureOps.Ideal

noncomputable section

namespace Cert.FinitePre

open Idealize.ShloMosaic Cert.Pre_finite_inputs

instance : Subsingleton S_.Idx := ⟨fun a b => funext fun d => d.elim0⟩

/-- The f32 word 0x7F800000 denotes +∞. -/
theorem inf_eq : Ideal.ofBits .f32 0x7F800000#32 = ⊤ := by simp [Ideal.ofBits, Ideal.ieee]

/-- An extended real whose absolute value compares below +∞ is a real number. -/
theorem real_of_abs_lt_inf (a : EReal)
    (h : Ideal.cmp .olt (max a (-a)) (Ideal.ofBits .f32 0x7F800000#32) = 1#1) : ∃ r : ℝ, a = (r : EReal) := by
  rw [inf_eq] at h
  induction a using EReal.rec with
  | bot => simp [Ideal.cmp] at h
  | top => simp [Ideal.cmp] at h
  | coe r => exact ⟨r, rfl⟩

variable [Facts]

/-- One conjunct: a reduction by "and" over all axes of the comparisons |a i| < +∞ that is 1 makes every
    entry of a real. -/
theorem real_of_all {s : Shape} {axes : List (Fin s.rank)} (a : FVec Ideal s .f32) (bc : FVec Ideal s .f32)
    (hbc : ∀ i, bc i = Ideal.ofBits .f32 0x7F800000#32) (hr : s.ReducesTo axes S_) (hu : 0 < S_.numel)
    (e : Host.reduce IntOp.andi (cmpf .olt (Host.absf a) bc) (constantI S_ 1 1#1) hr hu ValueIdx.ix0 = 1#1)
    (i : s.Idx) : ∃ r : ℝ, a i = (r : EReal) := by
  have h := Host.reduce_andi_all _ _ hr hu _ e i
  refine real_of_abs_lt_inf (a i) ?_
  rw [← hbc i]
  exact h

/-- The precondition makes every entry of each of the six inputs a real number. -/
theorem finite_of_pre (a0 : FVec Ideal S10000x128 .f32) (a1 : FVec Ideal S10000x10000 .f32)
    (a2 : FVec Ideal S128x128 .f32) (a3 : FVec Ideal S128 .f32) (a4 : FVec Ideal S128x64 .f32)
    (a5 : FVec Ideal S64 .f32) (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ValueIdx.ix0
  dsimp only [fn, fn_part1] at h0
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨real_of_all a0 _ (fun _ => rfl) _ _ e0, real_of_all a1 _ (fun _ => rfl) _ _ e1,
    real_of_all a2 _ (fun _ => rfl) _ _ e2, real_of_all a3 _ (fun _ => rfl) _ _ e3,
    real_of_all a4 _ (fun _ => rfl) _ _ e4, real_of_all a5 _ (fun _ => rfl) _ _ e5⟩

end Cert.FinitePre

end
-- ==== Proof.lean ====
/-
  A two-layer graph autoencoder, the kernel against its jnp reference, over the extended reals.

  The reference computes h = max(adj·(x·W1) + b1, 0), z = adj·(h·W2) + b2 and rec = 1 / (1 + exp(−(z·zᵀ))).
  The kernel streams adj in 25 stripes of 400 rows, twice. In its first phase stripe i gives rows 400·i … 400·i+399 of
  s2 = max((adj_i·x)·W1 + b1, 0)·W2, kept in a scratch; in its second phase step i gives block 24 − i of
  z = adj·s2 + b2 (block 1 from a copy of stripe 1 made during the first phase). A second kernel transposes z once and
  gives block i of rec as 0.5·tanh(0.5·(z_i·zᵀ)) + 0.5.

  Two laws join the two sides. (adj_i·x)·W1 = adj_i·(x·W1): a double sum exchanged and a factor moved across a sum, which
  on the extended reals needs the entries of x, adj and W1 real — the precondition says every input is finite.
  0.5·tanh(g/2) + 0.5 = 1 / (1 + exp(−g)) for every extended real g: on the reals the usual identity, and at the
  infinities both sides are 1 and 0.

  Both kernels' frames are run once for any float instance — every weakly fair execution ends, nothing faulting, each
  buffer at contents named point by point — and read at the word level for the printed program and at the exact level
  for its idealization; the idealization's results are then the formulas above, index by index.
-/
import proofs.«108190_g79602923864535_cont_9to1_m_41_30_alg».proof.Defs
import proofs.«108190_g79602923864535_cont_9to1_m_41_30_alg».proof.Proof.Gen.Kernel
import proofs.«108190_g79602923864535_cont_9to1_m_41_30_alg».proof.Proof.Gen.KernelIdeal
import proofs.«108190_g79602923864535_cont_9to1_m_41_30_alg».proof.Proof.Gen.ReferenceIdeal
import proofs.«108190_g79602923864535_cont_9to1_m_41_30_alg».proof.Proof.Gen.ReferenceIdeal.Run
import proofs.«108190_g79602923864535_cont_9to1_m_41_30_alg».proof.Proof.Gen.Pre_finite_inputs
import proofs.«108190_g79602923864535_cont_9to1_m_41_30_alg».proof.Proof.KB.RunArgs
import proofs.«108190_g79602923864535_cont_9to1_m_41_30_alg».proof.Proof.KI.Close
import proofs.«108190_g79602923864535_cont_9to1_m_41_30_alg».proof.Proof.KI.CloseRec
import proofs.«108190_g79602923864535_cont_9to1_m_41_30_alg».proof.Proof.RefBridge
import proofs.«108190_g79602923864535_cont_9to1_m_41_30_alg».proof.Proof.FinitePre

noncomputable section

namespace Cert.Proof

open Idealize.ShloMosaic Idealize.ShloMosaic.TcCoe Idealize.SL.Sem

/-- The printed program runs to the end, nothing faulting, its arguments unchanged. -/
theorem frame_k : Cert.frame_Kernel := fun m ρ _ => Cert.Kernel.Run.frame (F := Bits) m ρ

/-- So does its idealization. -/
theorem frame_ki : Cert.frame_KernelIdeal := fun m ρ _ => Cert.KernelIdeal.Run.frame (F := Ideal) m ρ

/-- The reference is host operations only: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- No operation was rewritten: the idealization is the program's own text read exactly. -/
theorem preserves : Cert.preserves_Kernel_KernelIdeal := trivial

/-- From memories agreeing on the arguments both programs end with rec and z at the same functions of the arguments:
    the kernel's by its arrangement of the sums, the reference's after re-associating (the inputs are finite) and
    rewriting the logistic function through tanh. -/
theorem algebraic : Cert.algebraic_KernelIdeal_ReferenceIdeal := by
  intro m ρ m' ρ' hpre hagree
  refine ⟨fun c i => Cert.Spec.recK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (i 0) (i 1),
    fun c i => Cert.Spec.zK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (i 0) (i 1), ?_, ?_⟩
  · exact (θ_run Cert.KernelIdeal.defs _ _).mono (fun r h c =>
      ⟨(h c).1.trans (Cert.KernelIdeal.Run.rec_eq m ρ c), (h c).2.1.trans (Cert.KernelIdeal.Run.z_eq m ρ c), (h c).2.2⟩)
      (Cert.KernelIdeal.Run.run_vals (F := Ideal) m ρ)
  · refine (θ_run Cert.ReferenceIdeal.defs _ _).mono (fun r h c => ?_) (Cert.ReferenceIdeal.Value.run (F := Ideal) m' ρ')
    obtain ⟨h0, h1, h2, h3, h4, h5⟩ := hagree c
    obtain ⟨f0, f1, f2, -, -, -⟩ := Cert.FinitePre.finite_of_pre _ _ _ _ _ _ (hpre c)
    refine ⟨?_, ?_, (h c).2.2⟩
    · rw [(h c).1, h0, h1, h2, h3, h4, h5]
      exact Cert.RefBridge.ref_rec _ _ _ _ _ _ f0 f1 f2
    · rw [(h c).2.1, h0, h1, h2, h3, h4, h5]
      exact Cert.RefBridge.ref_z _ _ _ _ _ _ f0 f1 f2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
